-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) (main_arg2 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S1024x128 : Shape := ⟨2, ![1024, 128]⟩
abbrev S1024x1 : Shape := ⟨2, ![1024, 1]⟩
abbrev S512x128 : Shape := ⟨2, ![512, 128]⟩
abbrev S1x512 : Shape := ⟨2, ![1, 512]⟩
abbrev S128x512 : Shape := ⟨2, ![128, 512]⟩
abbrev S1024x512 : Shape := ⟨2, ![1024, 512]⟩
abbrev S1024 : Shape := ⟨1, ![1024]⟩
abbrev S256x128 : Shape := ⟨2, ![256, 128]⟩
abbrev S1x256 : Shape := ⟨2, ![1, 256]⟩
abbrev S128x256 : Shape := ⟨2, ![128, 256]⟩
abbrev S1024x256 : Shape := ⟨2, ![1024, 256]⟩
abbrev S_ : Shape := ⟨0, ![]⟩

abbrev nBuf : Space → Nat
  | .hbm => 16
  | .vmem => 29
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192, .i32⟩
  | .hbm, ⟨3, _⟩ => ⟨S8192x1, .i32⟩
  | .hbm, ⟨4, _⟩ => ⟨S1x8192, .i32⟩
  | .hbm, ⟨5, _⟩ => ⟨S8192x1, .f32⟩
  | .hbm, ⟨6, _⟩ => ⟨S1x8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x1, .i32⟩
  | .local _ .vmem, ⟨3, _⟩ => ⟨S1024x1, .i32⟩
  | .local _ .vmem, ⟨4, _⟩ => ⟨S512x128, .f32⟩
  | .local _ .vmem, ⟨5, _⟩ => ⟨S512x128, .f32⟩
  | .local _ .vmem, ⟨6, _⟩ => ⟨S1x512, .i32⟩
  | .local _ .vmem, ⟨7, _⟩ => ⟨S1x512, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x128, .f32⟩
  | .local _ .vmem, ⟨12, _⟩ => ⟨S1024x128, .f32⟩
  | .local _ .vmem, ⟨13, _⟩ => ⟨S1024x1, .i32⟩
  | .local _ .vmem, ⟨14, _⟩ => ⟨S1024x1, .i32⟩
  | .local _ .vmem, ⟨15, _⟩ => ⟨S1024x1, .f32⟩
  | .local _ .vmem, ⟨16, _⟩ => ⟨S1024x1, .f32⟩
  | .local _ .vmem, ⟨17, _⟩ => ⟨S256x128, .f32⟩
  | .local _ .vmem, ⟨18, _⟩ => ⟨S256x128, .f32⟩
  | .local _ .vmem, ⟨19, _⟩ => ⟨S1x256, .i32⟩
  | .local _ .vmem, ⟨20, _⟩ => ⟨S1x256, .i32⟩
  | .local _ .vmem, ⟨21, _⟩ => ⟨S1x256, .f32⟩
  | .local _ .vmem, ⟨22, _⟩ => ⟨S1x256, .f32⟩
  | .local _ .vmem, ⟨23, _⟩ => ⟨S1024x1, .f32⟩
  | .local _ .vmem, ⟨24, _⟩ => ⟨S1024x1, .f32⟩
  | .local _ .vmem, ⟨25, _⟩ => ⟨S1024x1, .f32⟩
  | .local _ .vmem, ⟨26, _⟩ => ⟨S1024x1, .f32⟩
  | .local _ .vmem, ⟨27, _⟩ => ⟨S1024x1, .f32⟩
  | .local _ .vmem, ⟨28, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc1_scratch0 : Ref sig .tc := ⟨.vmem, 27, rfl⟩
abbrev cc1_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v27 : BitVec 1 := Scalar.cmpi .eq arg1 c15_i32
  let v28 : BitVec 32 := Scalar.extui v27
  let c0_i32_16 : BitVec 32 := 0#32
  let v29 : BitVec 1 := Scalar.cmpi .ne v28 c0_i32_16
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 32], ![false, false]⟩

def k1_cond2 (i : grid1.Coords) : BitVec 1 :=
  let arg1 : BitVec 32 := BitVec.ofNat 32 (i 1).val
  let c31_i32 : BitVec 32 := 31#32
  let v55 : BitVec 1 := Scalar.cmpi .eq arg1 c31_i32
  let v56 : BitVec 32 := Scalar.extui v55
  let c0_i32_25 : BitVec 32 := 0#32
  let v57 : BitVec 1 := Scalar.cmpi .ne v56 c0_i32_25
  v57

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x256 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1024x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1024x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  inb_S512x128_S512x128_0_0 : ∀ a, (![0, 0] : Fin 2 → Nat) a + S512x128.size a ≤ S512x128.size a
  h_S512x128 : 0 < S512x128.numel
  transposes_S512x128_p1_0_S128x512 : S512x128.Transposes [1, 0] S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  reduces_S1024x512_S1024 : S1024x512.Reduces [1] S1024
  shapeCasts_S1024_S1024x1 : S1024.ShapeCasts S1024x1
  shapeCasts_S8192x1_S1x8192 : S8192x1.ShapeCasts S1x8192
  inb_S256x128_S256x128_0_0 : ∀ a, (![0, 0] : Fin 2 → Nat) a + S256x128.size a ≤ S256x128.size a
  h_S256x128 : 0 < S256x128.numel
  transposes_S256x128_p1_0_S128x256 : S256x128.Transposes [1, 0] S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1024x1_S1024x256 : S1024x1.Broadcasts S1024x256
  broadcasts_S1x256_S1024x256 : S1x256.Broadcasts S1024x256
  iota_S1024x256_d0_w32 : S1024x256.Iotas .tc 32 [0]
  iota_S1024x256_d1_w32 : S1024x256.Iotas .tc 32 [1]
  reduces_S1024x256_S1024 : S1024x256.Reduces [1] S1024
  natLt_1_32 : 1 < 32
  reducesTo_S8192x1_S_d0_1 : S8192x1.ReducesTo [0, 1] S_
  h_S_ : 0 < S_.numel
  dot_S1024x128_S128x512_S1024x512_1_0_0_1_n_n_wf : DotDims.WF S1024x128 S128x512 S1024x512 [1] [0] [0] [1] [] []
  dot_S1024x128_S128x256_S1024x256_1_0_0_1_n_n_wf : DotDims.WF S1024x128 S128x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .i32 = 32 ∨ (Rect.block (s := S8192x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S8192x128.size a
  hwx0_2 : ∀ i : grid0.Coords, EltTy.bits .f32 = 32 ∨ (Rect.block (s := S8192x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .i32 = 32 ∨ (Rect.block (s := S8192x1) S1024x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S8192x128.size a
  hwx1_3 : ∀ i : grid1.Coords, EltTy.bits .f32 = 32 ∨ (Rect.block (s := S8192x128) S256x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x8192.size a
  hwx1_4 : ∀ i : grid1.Coords, EltTy.bits .i32 = 32 ∨ (Rect.block (s := S1x8192) S1x256.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x8192.size a
  hwx1_5 : ∀ i : grid1.Coords, EltTy.bits .f32 = 32 ∨ (Rect.block (s := S1x8192) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x1.size a ≤ S8192x1.size a
  hwx1_6 : ∀ i : grid1.Coords, EltTy.bits .f32 = 32 ∨ (Rect.block (s := S8192x1) S1024x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x1.size a ≤ S8192x1.size a
  hwx1_7 : ∀ i : grid1.Coords, EltTy.bits .f32 = 32 ∨ (Rect.block (s := S8192x1) S1024x1.size (cc1_transform_7 i) (hinb1_7 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S256x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x256.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v4_0) S1024x1.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v4_1) S1024x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun i => !(k1_cond2 i == 1#1) | 7 => fun i => !(k1_cond2 i == 1#1) | ⟨_ + 8, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S128x8192 : Shape := ⟨2, ![128, 8192]⟩
abbrev S8192x8192 : Shape := ⟨2, ![8192, 8192]⟩
abbrev S8192x1 : Shape := ⟨2, ![8192, 1]⟩
abbrev S1x8192 : Shape := ⟨2, ![1, 8192]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192, .i32⟩
  | .hbm, ⟨3, _⟩ => ⟨S128x8192, .f32⟩
  | .hbm, ⟨4, _⟩ => ⟨S8192x8192, .f32⟩
  | .hbm, ⟨5, _⟩ => ⟨S8192x1, .i32⟩
  | .hbm, ⟨6, _⟩ => ⟨S1x8192, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S8192x8192, .i32⟩
  | .hbm, ⟨11, _⟩ => ⟨S8192x8192, .i32⟩
  | .hbm, ⟨12, _⟩ => ⟨S_, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S8192x8192, .i1⟩
  | .hbm, ⟨17, _⟩ => ⟨S8192x8192, .i1⟩
  | .hbm, ⟨18, _⟩ => ⟨S8192x8192, .i1⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S1x8192, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S_, .f32⟩
  | .hbm, ⟨42, _⟩ => ⟨S8192x8192, .f32⟩
  | .hbm, ⟨43, _⟩ => ⟨S8192x8192, .f32⟩
  | .hbm, ⟨44, _⟩ => ⟨S8192x8192, .i32⟩
  | .hbm, ⟨45, _⟩ => ⟨S_, .i32⟩
  | .hbm, ⟨46, _⟩ => ⟨S_, .i32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_call1_v0 : Ref sig .tc := ⟨.hbm, 41, rfl⟩
abbrev main_call1_v1 : Ref sig .tc := ⟨.hbm, 42, rfl⟩
abbrev main_v30 : Ref sig .tc := ⟨.hbm, 43, rfl⟩
abbrev main_v31 : Ref sig .tc := ⟨.hbm, 44, rfl⟩
abbrev main_c_4 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  transposes_S8192x128_S128x8192_1_0 : S8192x128.Transposes [1, 0] S128x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  natLt_1_32 : 1 < 32
  reducesTo_S8192x8192_S_d0_1 : S8192x8192.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.R0Runs.lean ====
/-
  The first pallas_call (row sums over the negatives), what its three control cases share.

  The grid is 8 × 16: coordinate 0 picks a block of 1024 rows, coordinate 1 a block of 512 columns. The body
  zeroes its accumulator when coordinate 1 is 0, adds the tile's row sums to it, and copies it to the output block
  when coordinate 1 is 15. Here: the two conditions in closed form over the linear point, where the output window
  is idle, the memrefs the body is called with, and the region's scoped rest with the accumulator split off.
-/
import proofs.«176830_j37546604102166_1_alg».proof.Proof.Gen.Kernel.Launch
import proofs.«176830_j37546604102166_1_alg».proof.Proof.Gen.Kernel.Skeleton
import proofs.«176830_j37546604102166_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- "Coordinate 1 is 0": the accumulator is zeroed. -/
abbrev cond0_0 (i : grid0.Coords) : Prop := (Scalar.cmpi .ne (Scalar.extui (Scalar.cmpi .eq (BitVec.ofNat 32 (i 1).val) 0#32)) 0#32) = 1#1
/-- It holds at the first point of each row of the grid. -/
theorem hcond0_0 : ∀ t : Fin cfg0.N, cond0_0 (grid0.coords t) ↔ t.val % 16 = 0 :=
  (by decide +kernel : ∀ t : Fin grid0.N, cond0_0 (grid0.coords t) ↔ t.val % 16 = 0)

/-- "Coordinate 1 is 15": the accumulator is copied out. -/
abbrev cond0_1 (i : grid0.Coords) : Prop := k0_cond2 i = 1#1
/-- It holds at the last point of each row of the grid. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off the last point of a row the output window is idle, -/
theorem idleAt0_4 : ∀ t : Fin cfg0.N, ¬cond0_1 (grid0.coords t) → cfg0.idle 4 (grid0.coords t) = true := by decide +kernel
/-- and its block is not written back there; -/
theorem noFlush0_4 : ∀ t : Fin cfg0.N, ¬cond0_1 (grid0.coords t) → (cfg0.win 4).flush t = false := by decide +kernel
/-- at the last point of a row it is live. -/
theorem liveAt0_4 : ∀ t : Fin cfg0.N, cond0_1 (grid0.coords t) → cfg0.idle 4 (grid0.coords t) = false := by decide +kernel

/-! ## The memrefs the body is called with -/

/-- One staging buffer of the output window, through which its contents are stated. -/
abbrev VO0_4 : View sig .tc .vmem S1024x1 .f32 := (Memref.whole cc0_stg4_0 : Memref sig .tc .vmem S1024x1 .f32).view
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The accumulator: a whole scoped buffer of the kernel's own, carried between the points of a row. -/
abbrev scM0_0 : Memref sig .tc .vmem S1024x1 .f32 := Memref.whole cc0_scratch0
abbrev VS0_0 : View sig .tc .vmem S1024x1 .f32 := scM0_0.view

/-! ## The scoped rest, the accumulator split off -/

/-- The region's scoped rest is the accumulator's buffer at some contents beside the other scoped buffers (the second
    call's), which this region never opens. -/
theorem scopedRest0_split (c : Dev nD) : ∃ R : sProp 𝕄,
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ R) :=
  ⟨_, scopedRest0_eq c⟩

/-- The scoped buffers of the other call, each whole at some contents: they ride through this region untouched. -/
def others0 (c : Dev nD) : sProp 𝕄 := (scopedRest0_split (F := F) c).choose

theorem scopedRest0_eq' (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ others0 c) :=
  (scopedRest0_split (F := F) c).choose_spec

/-- The class invariant with the accumulator as a memref owned at some contents. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA; rw [scopedRest0_eq']; simp only [scM0_0, owns_whole]; try rfl

end Cert.Kernel.Fr

end
-- ==== Proof.K.R0RunA.lean ====
/-
  The first pallas_call's body run symbolically in one of its three control cases.
-/
import proofs.«176830_j37546604102166_1_alg».proof.Proof.K.R0Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point of a row (the accumulator is zeroed first; the output block is not touched): from the four input blocks held at their contents, it runs to its return
    handing the inputs back as they were and the accumulator with the stores' pieces written; the pieces are the witness. -/
noncomputable def kernelRun0_A (c : Dev nD) (i : grid0.Coords) (arg2 : Memref sig .tc .vmem S1024x128 .f32) (harg2 : arg2.IsWhole) (arg3 : Memref sig .tc .vmem S1024x1 .i32) (harg3 : arg3.IsWhole) (arg4 : Memref sig .tc .vmem S512x128 .f32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x128 .f32) (x1 : Vec F S1024x1 .i32) (x2 : Vec F S512x128 .f32) (x3 : Vec F S1x512 .i32) :
    Σ' (L4 : List (View.Piece (Elt F) S1024x1 .f32)), { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__v_kernel i arg2 harg2 arg3 harg3 arg4 harg4 arg5 harg5 arg6 harg6 arg7 harg7) K } := by
  refine ⟨[], ?_, fun xi4 E K => ?run⟩
  case run =>
    simp only [cc0__v_kernel_eq_skeleton]; unfold cc0__v_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.K.R0RunB.lean ====
/-
  The first pallas_call's body run symbolically in one of its three control cases.
-/
import proofs.«176830_j37546604102166_1_alg».proof.Proof.K.R0Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle point of a row (the accumulator only grows; the output block is not touched): from the four input blocks held at their contents and the accumulator at what the point before left, it runs to its return
    handing the inputs back as they were and the accumulator with the stores' pieces written; the pieces are the witness. -/
noncomputable def kernelRun0_B (c : Dev nD) (i : grid0.Coords) (arg2 : Memref sig .tc .vmem S1024x128 .f32) (harg2 : arg2.IsWhole) (arg3 : Memref sig .tc .vmem S1024x1 .i32) (harg3 : arg3.IsWhole) (arg4 : Memref sig .tc .vmem S512x128 .f32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x128 .f32) (x1 : Vec F S1024x1 .i32) (x2 : Vec F S512x128 .f32) (x3 : Vec F S1x512 .i32) (xs0 : Vec F S1024x1 .f32) :
    Σ' (L4 : List (View.Piece (Elt F) S1024x1 .f32)), { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__v_kernel i arg2 harg2 arg3 harg3 arg4 harg4 arg5 harg5 arg6 harg6 arg7 harg7) K } := by
  refine ⟨[], ?_, fun xi4 E K => ?run⟩
  case run =>
    simp only [cc0__v_kernel_eq_skeleton]; unfold cc0__v_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.K.R0RunC.lean ====
/-
  The first pallas_call's body run symbolically in one of its three control cases.
-/
import proofs.«176830_j37546604102166_1_alg».proof.Proof.K.R0Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last point of a row (the accumulator grows and is copied into the output block): from the four input blocks held at their contents and the accumulator at what the point before left, it runs to its return
    handing the inputs back as they were and the accumulator and the output block with the stores' pieces written; the pieces are the witness. -/
noncomputable def kernelRun0_C (c : Dev nD) (i : grid0.Coords) (arg2 : Memref sig .tc .vmem S1024x128 .f32) (harg2 : arg2.IsWhole) (arg3 : Memref sig .tc .vmem S1024x1 .i32) (harg3 : arg3.IsWhole) (arg4 : Memref sig .tc .vmem S512x128 .f32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .f32) (x1 : Vec F S1024x1 .i32) (x2 : Vec F S512x128 .f32) (x3 : Vec F S1x512 .i32) (xs0 : Vec F S1024x1 .f32) :
    Σ' (L4 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__v_kernel i arg2 harg2 arg3 harg3 arg4 harg4 arg5 harg5 arg6 harg6 arg7 harg7) K } := by
  refine ⟨?_, ?_, fun E K => ?run⟩
  case run =>
    simp only [cc0__v_kernel_eq_skeleton]; unfold cc0__v_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Fr

end
-- ==== Proof.K.R0.lean ====
/-
  The first pallas_call, point by point: what the output block's buffer and the accumulator hold after each point
  of the grid (a recursion over the linear point: a row's first point starts the accumulator afresh, every other
  point continues from the point before, the row's last point also fills the output block), the invariant that
  carries the accumulator from one point to the next, the pipeline's proof data at the region-entry contents V,
  and the body's obligation at every point.
-/
import proofs.«176830_j37546604102166_1_alg».proof.Proof.K.R0RunA
import proofs.«176830_j37546604102166_1_alg».proof.Proof.K.R0RunB
import proofs.«176830_j37546604102166_1_alg».proof.Proof.K.R0RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- What case A leaves in the output block's staging buffer: its pieces read back (none: a placeholder nothing consults, the window being idle there). -/
def out0_A_4 (c : Dev nD) (i : grid0.Coords) (arg2 : Memref sig .tc .vmem S1024x128 .f32) (harg2 : arg2.IsWhole) (arg3 : Memref sig .tc .vmem S1024x1 .i32) (harg3 : arg3.IsWhole) (arg4 : Memref sig .tc .vmem S512x128 .f32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x128 .f32) (x1 : Vec F S1024x1 .i32) (x2 : Vec F S512x128 .f32) (x3 : Vec F S1x512 .i32) : Vec F S1024x1 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A's pieces for the accumulator cover it. -/
theorem scover0_A_0 (c : Dev nD) (i : grid0.Coords) (arg2 : Memref sig .tc .vmem S1024x128 .f32) (harg2 : arg2.IsWhole) (arg3 : Memref sig .tc .vmem S1024x1 .i32) (harg3 : arg3.IsWhole) (arg4 : Memref sig .tc .vmem S512x128 .f32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x128 .f32) (x1 : Vec F S1024x1 .i32) (x2 : Vec F S512x128 .f32) (x3 : Vec F S1x512 .i32) (y : S1024x1.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1024x1.size (by sl_kernel_rfl) y

/-- What case A leaves in the accumulator: its pieces read back. -/
def sout0_A_0 (c : Dev nD) (i : grid0.Coords) (arg2 : Memref sig .tc .vmem S1024x128 .f32) (harg2 : arg2.IsWhole) (arg3 : Memref sig .tc .vmem S1024x1 .i32) (harg3 : arg3.IsWhole) (arg4 : Memref sig .tc .vmem S512x128 .f32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x128 .f32) (x1 : Vec F S1024x1 .i32) (x2 : Vec F S512x128 .f32) (x3 : Vec F S1x512 .i32) : Vec F S1024x1 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- What case B leaves in the output block's staging buffer: its pieces read back (none: a placeholder nothing consults, the window being idle there). -/
def out0_B_4 (c : Dev nD) (i : grid0.Coords) (arg2 : Memref sig .tc .vmem S1024x128 .f32) (harg2 : arg2.IsWhole) (arg3 : Memref sig .tc .vmem S1024x1 .i32) (harg3 : arg3.IsWhole) (arg4 : Memref sig .tc .vmem S512x128 .f32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x128 .f32) (x1 : Vec F S1024x1 .i32) (x2 : Vec F S512x128 .f32) (x3 : Vec F S1x512 .i32) (xs0 : Vec F S1024x1 .f32) : Vec F S1024x1 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- Case B's pieces for the accumulator cover it. -/
theorem scover0_B_0 (c : Dev nD) (i : grid0.Coords) (arg2 : Memref sig .tc .vmem S1024x128 .f32) (harg2 : arg2.IsWhole) (arg3 : Memref sig .tc .vmem S1024x1 .i32) (harg3 : arg3.IsWhole) (arg4 : Memref sig .tc .vmem S512x128 .f32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x128 .f32) (x1 : Vec F S1024x1 .i32) (x2 : Vec F S512x128 .f32) (x3 : Vec F S1x512 .i32) (xs0 : Vec F S1024x1 .f32) (y : S1024x1.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S1024x1.size (by sl_kernel_rfl) y

/-- What case B leaves in the accumulator: its pieces read back. -/
def sout0_B_0 (c : Dev nD) (i : grid0.Coords) (arg2 : Memref sig .tc .vmem S1024x128 .f32) (harg2 : arg2.IsWhole) (arg3 : Memref sig .tc .vmem S1024x1 .i32) (harg3 : arg3.IsWhole) (arg4 : Memref sig .tc .vmem S512x128 .f32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x128 .f32) (x1 : Vec F S1024x1 .i32) (x2 : Vec F S512x128 .f32) (x3 : Vec F S1x512 .i32) (xs0 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- What case C leaves in the output block's staging buffer: its pieces read back. -/
def out0_C_4 (c : Dev nD) (i : grid0.Coords) (arg2 : Memref sig .tc .vmem S1024x128 .f32) (harg2 : arg2.IsWhole) (arg3 : Memref sig .tc .vmem S1024x1 .i32) (harg3 : arg3.IsWhole) (arg4 : Memref sig .tc .vmem S512x128 .f32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .f32) (x1 : Vec F S1024x1 .i32) (x2 : Vec F S512x128 .f32) (x3 : Vec F S1x512 .i32) (xs0 : Vec F S1024x1 .f32) : Vec F S1024x1 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- Case C's pieces for the accumulator cover it. -/
theorem scover0_C_0 (c : Dev nD) (i : grid0.Coords) (arg2 : Memref sig .tc .vmem S1024x128 .f32) (harg2 : arg2.IsWhole) (arg3 : Memref sig .tc .vmem S1024x1 .i32) (harg3 : arg3.IsWhole) (arg4 : Memref sig .tc .vmem S512x128 .f32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .f32) (x1 : Vec F S1024x1 .i32) (x2 : Vec F S512x128 .f32) (x3 : Vec F S1x512 .i32) (xs0 : Vec F S1024x1 .f32) (y : S1024x1.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1024x1.size (by sl_kernel_rfl) y

/-- What case C leaves in the accumulator: its pieces read back. -/
def sout0_C_0 (c : Dev nD) (i : grid0.Coords) (arg2 : Memref sig .tc .vmem S1024x128 .f32) (harg2 : arg2.IsWhole) (arg3 : Memref sig .tc .vmem S1024x1 .i32) (harg3 : arg3.IsWhole) (arg4 : Memref sig .tc .vmem S512x128 .f32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .f32) (x1 : Vec F S1024x1 .i32) (x2 : Vec F S512x128 .f32) (x3 : Vec F S1x512 .i32) (xs0 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-- At the last point of a row the pieces stored into the output block cover it. -/
theorem cover0_C_4 (c : Dev nD) (i : grid0.Coords) (arg2 : Memref sig .tc .vmem S1024x128 .f32) (harg2 : arg2.IsWhole) (arg3 : Memref sig .tc .vmem S1024x1 .i32) (harg3 : arg3.IsWhole) (arg4 : Memref sig .tc .vmem S512x128 .f32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .f32) (x1 : Vec F S1024x1 .i32) (x2 : Vec F S512x128 .f32) (x3 : Vec F S1x512 .i32) (xs0 : Vec F S1024x1 .f32) (y : S1024x1.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1024x1.size (by sl_kernel_rfl) y

/-! ## What the buffers hold after each point -/

/-- After the body at position n: (the output block's buffer, the accumulator). -/
def outsAt0 (c : Dev nD) : (n : ℕ) → n < cfg0.N → Vec F S1024x1 .f32 × Vec F S1024x1 .f32
  | 0, hn =>
    have h0 : (0 : ℕ) % 16 = 0 := Nat.zero_mod _
    have h1 : ¬ (0 : ℕ) % 16 = 15 := by omega
    (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr h0) (fun h => h1 ((hcond0_1 ⟨0, hn⟩).mp h)) (iblk0 V c 0 ⟨0, hn⟩) (iblk0 V c 1 ⟨0, hn⟩) (iblk0 V c 2 ⟨0, hn⟩) (iblk0 V c 3 ⟨0, hn⟩),
     sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr h0) (fun h => h1 ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 16 = 0 then
      if h1 : (n + 1) % 16 = 15 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩),
         sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 16 = 15 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2,
         sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

/-- At a row's first point. -/
theorem outsAt0_A (c : Dev nD) (t : Fin cfg0.N) (h0 : t.val % 16 = 0) (h1 : ¬t.val % 16 = 15) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t),
      sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

/-- At a row's middle points: over what the point before left in the accumulator. -/
theorem outsAt0_B (c : Dev nD) (t : Fin cfg0.N) (h0 : ¬t.val % 16 = 0) (h1 : ¬t.val % 16 = 15) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2,
      sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a row's last point: over what the point before left in the accumulator. -/
theorem outsAt0_C (c : Dev nD) (t : Fin cfg0.N) (h0 : ¬t.val % 16 = 0) (h1 : t.val % 16 = 15) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position n: at the region's entry the class's invariant (every scoped buffer at anything); afterwards the
    accumulator at what the point before left in it, the other scoped buffers at anything, the generator register at
    some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 c) ∗ (∃ r, prngReg c r)) := by
  cases n with
  | zero => exact absurd rfl hz
  | succ n => rfl

/-! ## The pipeline's proof data -/

/-- The arrays as the region finds them; after the body at point t each input's buffer at its block and the output's
    at the recursion's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' buffers hold their blocks; the closed forms say which case the point is in; the
    invariant hands the body the accumulator at what the point before left (at anything at the very first point) and
    takes it back at this point's contents; the output block's buffer is handed back untouched off a row's last point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  by_cases h0 : t.val % 16 = 0
  · by_cases h1 : t.val % 16 = 15
    · exfalso; omega
    · rw [show (dat0 V c).leavesExact 0 t = owns (c : Thread nD τ) (ms0_0 t) fullShare ((dat0 V c).after 0 t) from by
          unfold Dat.leavesExact; rw [liveAt0_0 t], after0_0]
      rw [show (dat0 V c).leavesExact 1 t = owns (c : Thread nD τ) (ms0_1 t) fullShare ((dat0 V c).after 1 t) from by
          unfold Dat.leavesExact; rw [liveAt0_1 t], after0_1]
      rw [show (dat0 V c).leavesExact 2 t = owns (c : Thread nD τ) (ms0_2 t) fullShare ((dat0 V c).after 2 t) from by
          unfold Dat.leavesExact; rw [liveAt0_2 t], after0_2]
      rw [show (dat0 V c).leavesExact 3 t = owns (c : Thread nD τ) (ms0_3 t) fullShare ((dat0 V c).after 3 t) from by
          unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
  · by_cases h1 : t.val % 16 = 15
    · rw [show (dat0 V c).leavesExact 0 t = owns (c : Thread nD τ) (ms0_0 t) fullShare ((dat0 V c).after 0 t) from by
          unfold Dat.leavesExact; rw [liveAt0_0 t], after0_0]
      rw [show (dat0 V c).leavesExact 1 t = owns (c : Thread nD τ) (ms0_1 t) fullShare ((dat0 V c).after 1 t) from by
          unfold Dat.leavesExact; rw [liveAt0_1 t], after0_1]
      rw [show (dat0 V c).leavesExact 2 t = owns (c : Thread nD τ) (ms0_2 t) fullShare ((dat0 V c).after 2 t) from by
          unfold Dat.leavesExact; rw [liveAt0_2 t], after0_2]
      rw [show (dat0 V c).leavesExact 3 t = owns (c : Thread nD τ) (ms0_3 t) fullShare ((dat0 V c).after 3 t) from by
          unfold Dat.leavesExact; rw [liveAt0_3 t], after0_3]
      rw [show (dat0 V c).leavesExact 4 t = owns (c : Thread nD τ) (ms0_4 t) fullShare ((dat0 V c).after 4 t) from by
          unfold Dat.leavesExact; rw [liveAt0_4 t ((hcond0_1 t).mpr h1)], after0_4]
      rw [outsAt0_C V c t h0 h1]
      unfold out0_C_4 sout0_C_0; (try dsimp only)
      have hz : t.val ≠ 0 := by intro hz; rw [hz] at h0; exact h0 (Nat.zero_mod _)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [show (dat0 V c).leavesExact 0 t = owns (c : Thread nD τ) (ms0_0 t) fullShare ((dat0 V c).after 0 t) from by
          unfold Dat.leavesExact; rw [liveAt0_0 t], after0_0]
      rw [show (dat0 V c).leavesExact 1 t = owns (c : Thread nD τ) (ms0_1 t) fullShare ((dat0 V c).after 1 t) from by
          unfold Dat.leavesExact; rw [liveAt0_1 t], after0_1]
      rw [show (dat0 V c).leavesExact 2 t = owns (c : Thread nD τ) (ms0_2 t) fullShare ((dat0 V c).after 2 t) from by
          unfold Dat.leavesExact; rw [liveAt0_2 t], after0_2]
      rw [show (dat0 V c).leavesExact 3 t = owns (c : Thread nD τ) (ms0_3 t) fullShare ((dat0 V c).after 3 t) from by
          unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B_0; (try dsimp only)
      have hz : t.val ≠ 0 := by intro hz; rw [hz] at h0; exact h0 (Nat.zero_mod _)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ Pipeline.ΦA spec0 c :=
  Phi_out0 V c _ (by rw [Fin.val_last]; have : cfg0.N = 128 := N_0; omega)

end Cert.Kernel.Fr

end
-- ==== Proof.K.R1Runs.lean ====
import proofs.«176830_j37546604102166_1_alg».proof.Proof.Gen.Kernel.Launch
import proofs.«176830_j37546604102166_1_alg».proof.Proof.Gen.Kernel.Skeleton
import proofs.«176830_j37546604102166_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the hinge kernel): what its three per-case runs share

The TensorCore's buffer contents when the region is entered are a parameter `V`. -/

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, in closed form over the grid -/

/-- The condition of the body's first `scf.if` (zero both accumulators), from the grid coordinates. -/
abbrev cond1_0 (i : grid1.Coords) : Prop := (Scalar.cmpi .ne (Scalar.extui (Scalar.cmpi .eq (BitVec.ofNat 32 (i 1).val) 0#32)) 0#32) = 1#1
/-- It holds at the first point of each row of the grid. -/
theorem hcond1_0 : ∀ t : Fin cfg1.N, cond1_0 (grid1.coords t) ↔ t.val % 32 = 0 :=
  (by decide +kernel : ∀ t : Fin grid1.N, cond1_0 (grid1.coords t) ↔ t.val % 32 = 0)

/-- The condition of the body's last `scf.if` (copy the accumulators out). -/
abbrev cond1_1 (i : grid1.Coords) : Prop := k1_cond2 i = 1#1
/-- It holds at the last point of each row of the grid. -/
theorem hcond1_1 : ∀ t : Fin cfg1.N, cond1_1 (grid1.coords t) ↔ t.val % 32 = 31 :=
  (by decide +kernel : ∀ t : Fin grid1.N, cond1_1 (grid1.coords t) ↔ t.val % 32 = 31)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem idleAt1_6_N : ∀ t : Fin cfg1.N, ¬cond1_1 (grid1.coords t) → cfg1.idle 6 (grid1.coords t) = true := by decide +kernel
theorem noFlush1_6_N : ∀ t : Fin cfg1.N, ¬cond1_1 (grid1.coords t) → (cfg1.win 6).flush t = false := by decide +kernel
theorem liveAt1_6_C : ∀ t : Fin cfg1.N, cond1_1 (grid1.coords t) → cfg1.idle 6 (grid1.coords t) = false := by decide +kernel
theorem idleAt1_7_N : ∀ t : Fin cfg1.N, ¬cond1_1 (grid1.coords t) → cfg1.idle 7 (grid1.coords t) = true := by decide +kernel
theorem noFlush1_7_N : ∀ t : Fin cfg1.N, ¬cond1_1 (grid1.coords t) → (cfg1.win 7).flush t = false := by decide +kernel
theorem liveAt1_7_C : ∀ t : Fin cfg1.N, cond1_1 (grid1.coords t) → cfg1.idle 7 (grid1.coords t) = false := by decide +kernel

/-! ## The staging and scratch memrefs -/

/-- One staging buffer of each output window, through which its contents are stated. -/
abbrev VO1_6 : View sig .tc .vmem S1024x1 .f32 := (Memref.whole cc1_stg6_0 : Memref sig .tc .vmem S1024x1 .f32).view
abbrev VO1_7 : View sig .tc .vmem S1024x1 .f32 := (Memref.whole cc1_stg7_0 : Memref sig .tc .vmem S1024x1 .f32).view
abbrev ms1_0 (t : Fin cfg1.N) : Memref sig .tc .vmem S1024x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x1 .f32 := win1_7.stage (cfg1.slots t 7)
abbrev hs1_7 (t : Fin cfg1.N) : (ms1_7 t).IsWhole := hstage1_7 ((cfg1.slots t 7).cast nbuf1_7)
/-- The two accumulators: whole scoped buffers of the kernel's own, passed beside the windows. -/
abbrev scM1_0 : Memref sig .tc .vmem S1024x1 .f32 := Memref.whole cc1_scratch0
abbrev scM1_1 : Memref sig .tc .vmem S1024x1 .f32 := Memref.whole cc1_scratch1
abbrev VS1_0 : View sig .tc .vmem S1024x1 .f32 := scM1_0.view
abbrev VS1_1 : View sig .tc .vmem S1024x1 .f32 := scM1_1.view

/-- The class invariant with the scoped rest enumerated: region 0's staging buffers and accumulator at some
    contents, then this region's two accumulators as memrefs owned at some contents, and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.Kernel.Fr

end
-- ==== Proof.K.R1RunB.lean ====
import proofs.«176830_j37546604102166_1_alg».proof.Proof.K.R1Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the two accumulators, as pieces (last first), at a MIDDLE point of a row of the
    grid (neither conditional taken), with the proof that on whole staging memrefs — the six inputs' at their
    contents, the two outputs' (idle here: not stored into, not written back) at contents handed back untouched,
    the two accumulators at what the point before left — the body runs to the continuation holding the inputs
    and outputs as they were and each accumulator with its pieces written. The pieces are the witness the
    symbolic run finds. -/
noncomputable def kernelRun1_B (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : ¬cond1_1 i)
    (x0 : Vec F S1024x128 .f32) (x1 : Vec F S1024x1 .i32) (x2 : Vec F S1024x1 .f32) (x3 : Vec F S256x128 .f32) (x4 : Vec F S1x256 .i32) (x5 : Vec F S1x256 .f32) (xs0 : Vec F S1024x1 .f32) (xs1 : Vec F S1024x1 .f32) :
    Σ' (L6 : List (View.Piece (Elt F) S1024x1 .f32)) (L7 : List (View.Piece (Elt F) S1024x1 .f32)) (LS0 : List (View.Piece (Elt F) S1024x1 .f32)), { LS1 : List (View.Piece (Elt F) S1024x1 .f32) //
      ∀ (xi6 : Vec F S1024x1 .f32) (xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__hinge_kernel i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    simp only [cc1__hinge_kernel_eq_skeleton, k1_part1_eq_skeleton]; unfold cc1__hinge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel.Fr

end
-- ==== Proof.K.R1RunA.lean ====
import proofs.«176830_j37546604102166_1_alg».proof.Proof.K.R1RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the two accumulators, as pieces (last first), at the FIRST point of a row of the
    grid (the first conditional taken: both accumulators zeroed, then accumulated into), with the proof that on
    whole staging memrefs — the six inputs' at their contents, the two outputs' (idle here) at contents handed
    back untouched, the two accumulators at anything — the body runs to the continuation holding the inputs and
    outputs as they were and each accumulator with its pieces written. -/
noncomputable def kernelRun1_A (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond1_0 i) (hc1 : ¬cond1_1 i)
    (x0 : Vec F S1024x128 .f32) (x1 : Vec F S1024x1 .i32) (x2 : Vec F S1024x1 .f32) (x3 : Vec F S256x128 .f32) (x4 : Vec F S1x256 .i32) (x5 : Vec F S1x256 .f32) :
    Σ' (L6 : List (View.Piece (Elt F) S1024x1 .f32)) (L7 : List (View.Piece (Elt F) S1024x1 .f32)) (LS0 : List (View.Piece (Elt F) S1024x1 .f32)), { LS1 : List (View.Piece (Elt F) S1024x1 .f32) //
      ∀ (xi6 : Vec F S1024x1 .f32) (xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__hinge_kernel i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    simp only [cc1__hinge_kernel_eq_skeleton, k1_part1_eq_skeleton]; unfold cc1__hinge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel.Fr

end
-- ==== Proof.K.R1RunC.lean ====
import proofs.«176830_j37546604102166_1_alg».proof.Proof.K.R1RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the two outputs and the two accumulators, as pieces (last first), at the LAST
    point of a row of the grid (the last conditional taken: the accumulators copied out), with the proof that on
    whole staging memrefs — the six inputs' at their contents, the two outputs' at anything, the two
    accumulators at what the point before left — the body runs to the continuation holding the inputs as they
    were and each output and accumulator with its pieces written. -/
noncomputable def kernelRun1_C (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x128 .f32) (x1 : Vec F S1024x1 .i32) (x2 : Vec F S1024x1 .f32) (x3 : Vec F S256x128 .f32) (x4 : Vec F S1x256 .i32) (x5 : Vec F S1x256 .f32) (xs0 : Vec F S1024x1 .f32) (xs1 : Vec F S1024x1 .f32) :
    Σ' (L6 : List (View.Piece (Elt F) S1024x1 .f32)) (L7 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__hinge_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__hinge_kernel_eq_skeleton, k1_part1_eq_skeleton]; unfold cc1__hinge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    iexists _; iexact HS1

end Cert.Kernel.Fr

end
-- ==== Proof.K.R1.lean ====
import proofs.«176830_j37546604102166_1_alg».proof.Proof.K.R1RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the hinge kernel): the proof data and the body obligation

The three per-case runs give, per case, the pieces the body leaves in the two accumulators (and, at the last point of
a row of the grid, in the two outputs). Here: the pieces cover their buffers; what the outputs and the accumulators
hold after each point (`outsAt1`: a recursion along the grid, the accumulators carried from point to point); the
region invariant (`PhiS1`: the two accumulators at `outsAt1`'s components); the proof data; the body obligation. -/

variable (V : (c : Dev nD) → (b : Ref sig .tc) → Buf (Elt F) ((c : Thread nD τ).loc b))

/-! ## The pieces cover; what each case leaves -/

/-- At a FIRST point the pieces for accumulator 0 tile the buffer (one whole-block store last), so they cover it. -/
theorem scover1_A_0 (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond1_0 i) (hc1 : ¬cond1_1 i)
    (x0 : Vec F S1024x128 .f32) (x1 : Vec F S1024x1 .i32) (x2 : Vec F S1024x1 .f32) (x3 : Vec F S256x128 .f32) (x4 : Vec F S1x256 .i32) (x5 : Vec F S1x256 .f32) (y : S1024x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5).2.2.1 S1024x1.size (by sl_kernel_rfl) y

/-- What a FIRST point leaves there: its pieces read back over junk. -/
def sout1_A_0 (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond1_0 i) (hc1 : ¬cond1_1 i)
    (x0 : Vec F S1024x128 .f32) (x1 : Vec F S1024x1 .i32) (x2 : Vec F S1024x1 .f32) (x3 : Vec F S256x128 .f32) (x4 : Vec F S1x256 .i32) (x5 : Vec F S1x256 .f32) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 hc1 x0 x1 x2 x3 x4 x5).2.2.1)

/-- At a FIRST point the pieces for accumulator 1 tile the buffer (one whole-block store last), so they cover it. -/
theorem scover1_A_1 (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond1_0 i) (hc1 : ¬cond1_1 i)
    (x0 : Vec F S1024x128 .f32) (x1 : Vec F S1024x1 .i32) (x2 : Vec F S1024x1 .f32) (x3 : Vec F S256x128 .f32) (x4 : Vec F S1x256 .i32) (x5 : Vec F S1x256 .f32) (y : S1024x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5).2.2.2.1 S1024x1.size (by sl_kernel_rfl) y

/-- What a FIRST point leaves there: its pieces read back over junk. -/
def sout1_A_1 (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond1_0 i) (hc1 : ¬cond1_1 i)
    (x0 : Vec F S1024x128 .f32) (x1 : Vec F S1024x1 .i32) (x2 : Vec F S1024x1 .f32) (x3 : Vec F S256x128 .f32) (x4 : Vec F S1x256 .i32) (x5 : Vec F S1x256 .f32) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 hc0 hc1 x0 x1 x2 x3 x4 x5).2.2.2.1)

/-- At a MIDDLE point the pieces for accumulator 0 tile the buffer (one whole-block store last), so they cover it. -/
theorem scover1_B_0 (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : ¬cond1_1 i)
    (x0 : Vec F S1024x128 .f32) (x1 : Vec F S1024x1 .i32) (x2 : Vec F S1024x1 .f32) (x3 : Vec F S256x128 .f32) (x4 : Vec F S1x256 .i32) (x5 : Vec F S1x256 .f32) (xs0 : Vec F S1024x1 .f32) (xs1 : Vec F S1024x1 .f32) (y : S1024x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 xs0 xs1).2.2.1 S1024x1.size (by sl_kernel_rfl) y

/-- What a MIDDLE point leaves there: its pieces read back over junk. -/
def sout1_B_0 (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : ¬cond1_1 i)
    (x0 : Vec F S1024x128 .f32) (x1 : Vec F S1024x1 .i32) (x2 : Vec F S1024x1 .f32) (x3 : Vec F S256x128 .f32) (x4 : Vec F S1x256 .i32) (x5 : Vec F S1x256 .f32) (xs0 : Vec F S1024x1 .f32) (xs1 : Vec F S1024x1 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 hc1 x0 x1 x2 x3 x4 x5 xs0 xs1).2.2.1)

/-- At a MIDDLE point the pieces for accumulator 1 tile the buffer (one whole-block store last), so they cover it. -/
theorem scover1_B_1 (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : ¬cond1_1 i)
    (x0 : Vec F S1024x128 .f32) (x1 : Vec F S1024x1 .i32) (x2 : Vec F S1024x1 .f32) (x3 : Vec F S256x128 .f32) (x4 : Vec F S1x256 .i32) (x5 : Vec F S1x256 .f32) (xs0 : Vec F S1024x1 .f32) (xs1 : Vec F S1024x1 .f32) (y : S1024x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S1024x1.size (by sl_kernel_rfl) y

/-- What a MIDDLE point leaves there: its pieces read back over junk. -/
def sout1_B_1 (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : ¬cond1_1 i)
    (x0 : Vec F S1024x128 .f32) (x1 : Vec F S1024x1 .i32) (x2 : Vec F S1024x1 .f32) (x3 : Vec F S256x128 .f32) (x4 : Vec F S1x256 .i32) (x5 : Vec F S1x256 .f32) (xs0 : Vec F S1024x1 .f32) (xs1 : Vec F S1024x1 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- At a LAST point the pieces for output 6 tile the buffer (one whole-block store last), so they cover it. -/
theorem cover1_C_6 (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x128 .f32) (x1 : Vec F S1024x1 .i32) (x2 : Vec F S1024x1 .f32) (x3 : Vec F S256x128 .f32) (x4 : Vec F S1x256 .i32) (x5 : Vec F S1x256 .f32) (xs0 : Vec F S1024x1 .f32) (xs1 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).1 S1024x1.size (by sl_kernel_rfl) y

/-- What a LAST point leaves there: its pieces read back over junk. -/
def out1_C_6 (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x128 .f32) (x1 : Vec F S1024x1 .i32) (x2 : Vec F S1024x1 .f32) (x3 : Vec F S256x128 .f32) (x4 : Vec F S1x256 .i32) (x5 : Vec F S1x256 .f32) (xs0 : Vec F S1024x1 .f32) (xs1 : Vec F S1024x1 .f32) : Vec F S1024x1 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).1)

/-- At a LAST point the pieces for output 7 tile the buffer (one whole-block store last), so they cover it. -/
theorem cover1_C_7 (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x128 .f32) (x1 : Vec F S1024x1 .i32) (x2 : Vec F S1024x1 .f32) (x3 : Vec F S256x128 .f32) (x4 : Vec F S1x256 .i32) (x5 : Vec F S1x256 .f32) (xs0 : Vec F S1024x1 .f32) (xs1 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).2.1 S1024x1.size (by sl_kernel_rfl) y

/-- What a LAST point leaves there: its pieces read back over junk. -/
def out1_C_7 (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x128 .f32) (x1 : Vec F S1024x1 .i32) (x2 : Vec F S1024x1 .f32) (x3 : Vec F S256x128 .f32) (x4 : Vec F S1x256 .i32) (x5 : Vec F S1x256 .f32) (xs0 : Vec F S1024x1 .f32) (xs1 : Vec F S1024x1 .f32) : Vec F S1024x1 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).2.1)

/-- At a LAST point the pieces for accumulator 0 tile the buffer (one whole-block store last), so they cover it. -/
theorem scover1_C_0 (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x128 .f32) (x1 : Vec F S1024x1 .i32) (x2 : Vec F S1024x1 .f32) (x3 : Vec F S256x128 .f32) (x4 : Vec F S1x256 .i32) (x5 : Vec F S1x256 .f32) (xs0 : Vec F S1024x1 .f32) (xs1 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).2.2.1 S1024x1.size (by sl_kernel_rfl) y

/-- What a LAST point leaves there: its pieces read back over junk. -/
def sout1_C_0 (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x128 .f32) (x1 : Vec F S1024x1 .i32) (x2 : Vec F S1024x1 .f32) (x3 : Vec F S256x128 .f32) (x4 : Vec F S1x256 .i32) (x5 : Vec F S1x256 .f32) (xs0 : Vec F S1024x1 .f32) (xs1 : Vec F S1024x1 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).2.2.1)

/-- At a LAST point the pieces for accumulator 1 tile the buffer (one whole-block store last), so they cover it. -/
theorem scover1_C_1 (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x128 .f32) (x1 : Vec F S1024x1 .i32) (x2 : Vec F S1024x1 .f32) (x3 : Vec F S256x128 .f32) (x4 : Vec F S1x256 .i32) (x5 : Vec F S1x256 .f32) (xs0 : Vec F S1024x1 .f32) (xs1 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S1024x1.size (by sl_kernel_rfl) y

/-- What a LAST point leaves there: its pieces read back over junk. -/
def sout1_C_1 (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x128 .f32) (x1 : Vec F S1024x1 .i32) (x2 : Vec F S1024x1 .f32) (x3 : Vec F S256x128 .f32) (x4 : Vec F S1x256 .i32) (x5 : Vec F S1x256 .f32) (xs0 : Vec F S1024x1 .f32) (xs1 : Vec F S1024x1 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-! ## What the outputs and the accumulators hold after each point -/

/-- A placeholder for an output's staging buffer at a point that does not store into it: nothing consults it (the
    window is idle there, neither written back nor read at the next point). -/
abbrev junk1 : Vec F S1024x1 .f32 := VO1_6.read (Elt F) VO1_6.junk

/-- ONE POINT. What the body at point `t` leaves in (output 6, output 7, accumulator 0, accumulator 1), over what
    the point before left in the accumulators (`p0`, `p1`): the case the closed forms select at `t`, run at the point's
    memrefs and input blocks. At the first point of a row the accumulators are stored whole before they are read,
    and `p0`, `p1` do not enter. -/
def step1 (c : Dev nD) (t : Fin cfg1.N) (p0 p1 : Vec F S1024x1 .f32) : Vec F S1024x1 .f32 × Vec F S1024x1 .f32 × Vec F S1024x1 .f32 × Vec F S1024x1 .f32 :=
  if h0 : t.val % 32 = 0 then
    if h1 : t.val % 32 = 31 then False.elim (by omega)
    else (junk1, junk1, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))
  else
    if h1 : t.val % 32 = 31 then (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) p0 p1, out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) p0 p1, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) p0 p1, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) p0 p1)
    else (junk1, junk1, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) p0 p1, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) p0 p1)

theorem step1_A (c : Dev nD) (t : Fin cfg1.N) (p0 p1 : Vec F S1024x1 .f32) (h0 : t.val % 32 = 0) (h1 : ¬t.val % 32 = 31) :
    step1 V c t p0 p1 = (junk1, junk1, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  unfold step1; rw [dif_pos h0, dif_neg h1]

theorem step1_B (c : Dev nD) (t : Fin cfg1.N) (p0 p1 : Vec F S1024x1 .f32) (h0 : ¬t.val % 32 = 0) (h1 : ¬t.val % 32 = 31) :
    step1 V c t p0 p1 = (junk1, junk1, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) p0 p1, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) p0 p1) := by
  unfold step1; rw [dif_neg h0, dif_neg h1]

theorem step1_C (c : Dev nD) (t : Fin cfg1.N) (p0 p1 : Vec F S1024x1 .f32) (h0 : ¬t.val % 32 = 0) (h1 : t.val % 32 = 31) :
    step1 V c t p0 p1 = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) p0 p1, out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) p0 p1, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) p0 p1, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) p0 p1) := by
  unfold step1; rw [dif_neg h0, dif_pos h1]

/-- THE ACCUMULATION. What (output 6, output 7, accumulator 0, accumulator 1) hold after the body at position `n`:
    `step1` at the point, over what `n - 1` left in the accumulators. -/
def outsAt1 (c : Dev nD) : (n : ℕ) → n < cfg1.N → Vec F S1024x1 .f32 × Vec F S1024x1 .f32 × Vec F S1024x1 .f32 × Vec F S1024x1 .f32
  | 0, hn => step1 V c ⟨0, hn⟩ junk1 junk1
  | n + 1, hn => step1 V c ⟨n + 1, hn⟩ (outsAt1 c n (Nat.lt_of_succ_lt hn)).2.2.1 (outsAt1 c n (Nat.lt_of_succ_lt hn)).2.2.2

theorem outsAt1_zero (c : Dev nD) (hn : 0 < cfg1.N) : outsAt1 V c 0 hn = step1 V c ⟨0, hn⟩ junk1 junk1 := rfl

theorem outsAt1_succ (c : Dev nD) (n : ℕ) (hn : n + 1 < cfg1.N) :
    outsAt1 V c (n + 1) hn = step1 V c ⟨n + 1, hn⟩ (outsAt1 V c n (Nat.lt_of_succ_lt hn)).2.2.1 (outsAt1 V c n (Nat.lt_of_succ_lt hn)).2.2.2 := rfl

/-- At a point that is not the grid's first: `step1` over what the point before left. -/
theorem outsAt1_pos (c : Dev nD) (t : Fin cfg1.N) (hz : t.val ≠ 0) :
    outsAt1 V c t.val t.isLt = step1 V c t (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd rfl hz
  | succ n => rfl

/-- At the first point of a row: the FIRST case's contents, whatever came before. -/
theorem outsAt1_A (c : Dev nD) (t : Fin cfg1.N) (h0 : t.val % 32 = 0) (h1 : ¬t.val % 32 = 31) :
    outsAt1 V c t.val t.isLt = (junk1, junk1, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact step1_A V c ⟨0, hn⟩ _ _ h0 h1
  | succ n => exact step1_A V c ⟨n + 1, hn⟩ _ _ h0 h1

/-- At a middle point of a row: the MIDDLE case's contents over what the point before left. -/
theorem outsAt1_B (c : Dev nD) (t : Fin cfg1.N) (h0 : ¬t.val % 32 = 0) (h1 : ¬t.val % 32 = 31) :
    outsAt1 V c t.val t.isLt = (junk1, junk1, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  rw [outsAt1_pos V c t (fun hz => h0 (by rw [hz])), step1_B V c t _ _ h0 h1]

/-- At the last point of a row: the LAST case's contents over what the point before left. -/
theorem outsAt1_C (c : Dev nD) (t : Fin cfg1.N) (h0 : ¬t.val % 32 = 0) (h1 : t.val % 32 = 31) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2, out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  rw [outsAt1_pos V c t (fun hz => h0 (by rw [hz])), step1_C V c t _ _ h0 h1]

/-! ## The region invariant -/

/-- The scoped buffers of the core that are neither this region's staging buffers nor its accumulators (the other
    region's staging buffers and accumulator), each whole at some contents. -/
def others1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The region invariant before position `n`: before the first point the class's (every scoped buffer at anything);
    afterwards the other scoped buffers at anything, the two accumulators at what the point before left in them
    (`outsAt1`'s last two components), and the generator register at some state. -/
def PhiS1 (c : Dev nD) : (n : ℕ) → n ≤ cfg1.N → sProp 𝕄
  | 0, _ => Pipeline.ΦA spec1 c
  | n + 1, hn => iprop(iprop(others1 (F := F) c ∗ owns (c : Thread nD τ) scM1_0 fullShare ((outsAt1 V c n hn).2.2.1) ∗ owns (c : Thread nD τ) scM1_1 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(others1 (F := F) c ∗ owns (c : Thread nD τ) scM1_0 fullShare ((outsAt1 V c n hn).2.2.1) ∗ owns (c : Thread nD τ) scM1_1 fullShare ((outsAt1 V c n hn).2.2.2)) ∗ (∃ r, prngReg c r)) := rfl

theorem PhiS1_pos (c : Dev nD) (n : ℕ) (h : n ≤ cfg1.N) (hz : n ≠ 0) :
    PhiS1 V c n h = iprop(iprop(others1 (F := F) c ∗ owns (c : Thread nD τ) scM1_0 fullShare ((outsAt1 V c (n - 1) (by omega)).2.2.1) ∗ owns (c : Thread nD τ) scM1_1 fullShare ((outsAt1 V c (n - 1) (by omega)).2.2.2)) ∗ (∃ r, prngReg c r)) := by
  cases n with
  | zero => exact absurd rfl hz
  | succ n => rfl

/-- The class invariant, the other region's buffers gathered. -/
theorem PhiA1_others (c : Dev nD) :
    (Pipeline.ΦA spec1 c : sProp 𝕄) ⊢ iprop(iprop(others1 (F := F) c ∗ (∃ d, owns (c : Thread nD τ) scM1_0 fullShare d) ∗ (∃ d, owns (c : Thread nD τ) scM1_1 fullShare d)) ∗ (∃ r, prngReg c r)) := by
  rw [PhiA1_eq]; unfold others1
  iintro ⟨⟨B0, B1, B2, B3, B4, B5, B6, B7, B8, B9, B10, HS0, HS1⟩, Hg⟩
  isplitr [Hg]
  · isplitr [HS0 HS1]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      iexact B10
    isplitl [HS0]; · iexact HS0
    iexact HS1
  iexact Hg

/-- … and back. -/
theorem others_PhiA1 (c : Dev nD) :
    iprop(iprop(others1 (F := F) c ∗ (∃ d, owns (c : Thread nD τ) scM1_0 fullShare d) ∗ (∃ d, owns (c : Thread nD τ) scM1_1 fullShare d)) ∗ (∃ r, prngReg c r)) ⊢ (Pipeline.ΦA spec1 c : sProp 𝕄) := by
  rw [PhiA1_eq]; unfold others1
  iintro ⟨⟨⟨B0, B1, B2, B3, B4, B5, B6, B7, B8, B9, B10⟩, HS0, HS1⟩, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [HS0]; · iexact HS0
    iexact HS1
  iexact Hg

/-- Before any point the invariant gives the accumulators at SOME contents (their named contents forgotten). -/
theorem PhiS1_any (c : Dev nD) (n : ℕ) (h : n ≤ cfg1.N) :
    PhiS1 V c n h ⊢ iprop(iprop(others1 (F := F) c ∗ (∃ d, owns (c : Thread nD τ) scM1_0 fullShare d) ∗ (∃ d, owns (c : Thread nD τ) scM1_1 fullShare d)) ∗ (∃ r, prngReg c r)) := by
  cases n with
  | zero => exact PhiA1_others c
  | succ n =>
    rw [PhiS1_succ]
    iintro ⟨⟨Hoth, HS0, HS1⟩, Hg⟩
    isplitr [Hg]
    · isplitl [Hoth]; · iexact Hoth
      isplitl [HS0]; · iexists _; iexact HS0
      iexists _; iexact HS1
    iexact Hg

/-! ## The pipeline's proof data -/

/-- The proof data of the region on core `c`: the arrays as the region finds them (`V`); after the body at point `t`
    each input's buffer at its block and the outputs' at `outsAt1`'s first two components; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point: the inputs' memrefs hold their blocks; the closed forms say which case the point is in;
    the invariant hands the body the two accumulators at what the point before left (at anything at the first point of
    a row, where they are zeroed before they are read) and takes them back at this point's contents; at the last
    point of a row the two outputs are left at what the accumulators hold, elsewhere handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val % 32 = 0
  · have h1 : ¬t.val % 32 = 31 := by omega
    rw [Dat.leavesExact_idle (dat1 V c) 6 t (idleAt1_6_N t (fun h => h1 ((hcond1_1 t).mp h))) (noFlush1_6_N t (fun h => h1 ((hcond1_1 t).mp h)))]
    rw [Dat.leavesExact_idle (dat1 V c) 7 t (idleAt1_7_N t (fun h => h1 ((hcond1_1 t).mp h))) (noFlush1_7_N t (fun h => h1 ((hcond1_1 t).mp h)))]
    rw [outsAt1_A V c t h0 h1]
    unfold sout1_A_0 sout1_A_1; (try dsimp only)
    rw [PhiS1_castSucc V c t]
    refine (Idealize.SL.BI.Laws.sep_mono_left (PhiS1_any V c _ _)).trans ?_
    iintro ⟨⟨⟨Hoth, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, ⟨%es0, HS0⟩, ⟨%es1, HS1⟩⟩
    isplitl [Hoth HS0 HS1 Hg]
    · isplitl [Hoth HS0 HS1]
      · isplitl [Hoth]; · iexact Hoth
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _ _ _ _)
        unfold owns; iexists _; isplitr
        swap; · iexact HS1
        ipureintro; exact View.read_writes_of_cover _ _ _ _ _ (scover1_A_1 c _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · have hz : t.val ≠ 0 := fun hz => h0 (by rw [hz])
    by_cases h1 : t.val % 32 = 31
    · rw [show (dat1 V c).leavesExact 6 t = owns (c : Thread nD τ) (ms1_6 t) fullShare ((dat1 V c).after 6 t) from by
        unfold Dat.leavesExact; rw [liveAt1_6_C t ((hcond1_1 t).mpr h1)], after1_6]
      rw [show (dat1 V c).leavesExact 7 t = owns (c : Thread nD τ) (ms1_7 t) fullShare ((dat1 V c).after 7 t) from by
        unfold Dat.leavesExact; rw [liveAt1_7_C t ((hcond1_1 t).mpr h1)], after1_7]
      rw [outsAt1_C V c t h0 h1]
      unfold out1_C_6 out1_C_7 sout1_C_0 sout1_C_1; (try dsimp only)
      rw [PhiS1_castSucc V c t, PhiS1_pos V c _ _ hz]
      iintro ⟨⟨⟨Hoth, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, ⟨%es0, HS0⟩, ⟨%es1, HS1⟩⟩
      isplitl [Hoth HS0 HS1 Hg]
      · isplitl [Hoth HS0 HS1]
        · isplitl [Hoth]; · iexact Hoth
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover1_C_1 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_C_6 c _ _ _ _ _ _ _ _ _ _ _ _ _ _ _ _ _ _ _ _ _ _ _ _ _ _ _ _ _ _ _)
      unfold owns; iexists _; isplitr
      swap; · iexact H7
      ipureintro; exact View.read_writes_of_cover _ _ _ _ _ (cover1_C_7 c _ _ _ _ _ _ _ _ _ _ _ _ _ _ _ _ _ _ _ _ _ _ _ _ _ _ _ _ _ _ _)
    · rw [Dat.leavesExact_idle (dat1 V c) 6 t (idleAt1_6_N t (fun h => h1 ((hcond1_1 t).mp h))) (noFlush1_6_N t (fun h => h1 ((hcond1_1 t).mp h)))]
      rw [Dat.leavesExact_idle (dat1 V c) 7 t (idleAt1_7_N t (fun h => h1 ((hcond1_1 t).mp h))) (noFlush1_7_N t (fun h => h1 ((hcond1_1 t).mp h)))]
      rw [outsAt1_B V c t h0 h1]
      unfold sout1_B_0 sout1_B_1; (try dsimp only)
      rw [PhiS1_castSucc V c t, PhiS1_pos V c _ _ hz]
      iintro ⟨⟨⟨Hoth, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [Hoth HS0 HS1 Hg]
      · isplitl [Hoth HS0 HS1]
        · isplitl [Hoth]; · iexact Hoth
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover1_B_1 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: the accumulators' named contents are forgotten. -/
theorem Phi_out1 (c : Dev nD) (t : Fin (cfg1.N + 1)) : (dat1 V c).Φ t ⊢ Pipeline.ΦA spec1 c := by
  rw [show (dat1 V c).Φ t = PhiS1 V c t.val (Nat.le_of_lt_succ t.isLt) from rfl]
  exact (PhiS1_any V c _ _).trans (others_PhiA1 c)

/-- The same after the last point. -/
theorem hout1 (c : Dev nD) : (dat1 V c).Φ (Fin.last cfg1.N) ⊢ Pipeline.ΦA spec1 c :=
  Phi_out1 V c _

end Cert.Kernel.Fr

end
-- ==== Proof.K.Run.lean ====
/-
  The whole program as five segments — the two label reshapes, the first pallas_call, the reshape of its result into a
  row, the second pallas_call, and the closing reductions and quotient — run from the launch memory to the return.

  The TensorCore's buffer contents at each boundary are a fold from the launch memory: a host stretch applies its
  operations, a pallas_call replaces its windows' arrays by what its write-backs leave. Every pipeline's proof data
  is taken at its region's entry contents; each region is entered from "every unscoped buffer at the boundary's
  contents" and left at the next boundary's. The run's post reads every unscoped buffer off the last boundary.
-/
import proofs.«176830_j37546604102166_1_alg».proof.Proof.K.R0
import proofs.«176830_j37546604102166_1_alg».proof.Proof.K.R1
import proofs.«176830_j37546604102166_1_alg».proof.Proof.Gen.Kernel.Regions
import Idealize.ShloMosaic.Lib.Pipeline.RegionsLoop
import Idealize.ShloMosaic.Lib.Pipeline.FrameSuffix

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev Bd0 : Dev nD → Valuation τ sig (Elt F) := fun c b => (s₀ m ρ).mem ((c : Dev nD), b)
/-- After the two label reshapes (the first call's entry). -/
abbrev Bd1 : Dev nD → Valuation τ sig (Elt F) := fun c => StableHlo.after hostOps0 (Bd0 m ρ c)
abbrev Ev1 : (c : Dev nD) → (b : Ref sig .tc) → Buf (Elt F) ((c : Thread nD τ).loc b) := fun c b => Bd1 m ρ c b
/-- At the first call's exit: its arrays at what the pipeline leaves, every other buffer as entered. -/
def Bd2 (c : Dev nD) : Valuation τ sig (Elt F) :=
  Pipeline.withArrays spec0 c (Bd1 m ρ c) fun w => (dat0 (Ev1 m ρ) c).arrAt w cfg0.N
theorem W2_arr (c : Dev nD) (w : Fin cfg0.W) :
    Bd2 m ρ c (Proc.devRef .tc (Pipeline.arrRef spec0 w)) = (dat0 (Ev1 m ρ) c).arrAt w cfg0.N := by
  unfold Bd2; exact Pipeline.withArrays_arr spec0 launch0.win.arr_inj c _ _ w
theorem W2_of_ne (c : Dev nD) (b : Ref sig .tc) (hb : ∀ w, Pipeline.arrRef spec0 w ≠ b) :
    Bd2 m ρ c (Proc.devRef .tc b) = Bd1 m ρ c (Proc.devRef .tc b) := by
  unfold Bd2; exact Pipeline.withArrays_of_ne spec0 c _ _ b hb
abbrev Ev2 : (c : Dev nD) → (b : Ref sig .tc) → Buf (Elt F) ((c : Thread nD τ).loc b) := fun c b => Bd2 m ρ c b
theorem hF0 (c : Dev nD) (w : Fin cfg0.W) : (dat0 (Ev1 m ρ) c).arrAt w cfg0.N = Ev2 m ρ c (Pipeline.arrRef spec0 w) :=
  (W2_arr m ρ c w).symm
theorem hrest0 (c : Dev nD) : ∀ b, b ∉ Finset.univ.image (Pipeline.arrRef spec0) → Ev2 m ρ c b = Ev1 m ρ c b :=
  fun b hb => W2_of_ne m ρ c b fun w e => hb (Finset.mem_image.mpr ⟨w, Finset.mem_univ _, e⟩)

/-- After the row reshape of the first call's result (the second call's entry). -/
abbrev Bd3 : Dev nD → Valuation τ sig (Elt F) := fun c => StableHlo.after hostOps1 (Bd2 m ρ c)
abbrev Ev3 : (c : Dev nD) → (b : Ref sig .tc) → Buf (Elt F) ((c : Thread nD τ).loc b) := fun c b => Bd3 m ρ c b
/-- At the second call's exit. -/
def Bd4 (c : Dev nD) : Valuation τ sig (Elt F) :=
  Pipeline.withArrays spec1 c (Bd3 m ρ c) fun w => (dat1 (Ev3 m ρ) c).arrAt w cfg1.N
theorem W4_arr (c : Dev nD) (w : Fin cfg1.W) :
    Bd4 m ρ c (Proc.devRef .tc (Pipeline.arrRef spec1 w)) = (dat1 (Ev3 m ρ) c).arrAt w cfg1.N := by
  unfold Bd4; exact Pipeline.withArrays_arr spec1 launch1.win.arr_inj c _ _ w
theorem W4_of_ne (c : Dev nD) (b : Ref sig .tc) (hb : ∀ w, Pipeline.arrRef spec1 w ≠ b) :
    Bd4 m ρ c (Proc.devRef .tc b) = Bd3 m ρ c (Proc.devRef .tc b) := by
  unfold Bd4; exact Pipeline.withArrays_of_ne spec1 c _ _ b hb
abbrev Ev4 : (c : Dev nD) → (b : Ref sig .tc) → Buf (Elt F) ((c : Thread nD τ).loc b) := fun c b => Bd4 m ρ c b
theorem hF1 (c : Dev nD) (w : Fin cfg1.W) : (dat1 (Ev3 m ρ) c).arrAt w cfg1.N = Ev4 m ρ c (Pipeline.arrRef spec1 w) :=
  (W4_arr m ρ c w).symm
theorem hrest1 (c : Dev nD) : ∀ b, b ∉ Finset.univ.image (Pipeline.arrRef spec1) → Ev4 m ρ c b = Ev3 m ρ c b :=
  fun b hb => W4_of_ne m ρ c b fun w e => hb (Finset.mem_image.mpr ⟨w, Finset.mem_univ _, e⟩)
/-- After the closing reductions and the quotient: the contents at the return. -/
abbrev Bd5 : Dev nD → Valuation τ sig (Elt F) := fun c => StableHlo.after hostOps2 (Bd4 m ρ c)

/-! ## The arguments end as launched -/

theorem after_keeps (ops : List (HloOp τ sig (Elt F))) (Wl : List (Ref sig .tc))
    (hw : ops.Forall fun op => op.writes ⊆ (Wl.map (Proc.devRef (τ := τ) .tc)).toFinset)
    (X : Valuation τ sig (Elt F)) (r : Ref sig .tc) (h : r ∉ Wl) :
    StableHlo.after ops X (Proc.devRef .tc r) = X (Proc.devRef .tc r) :=
  StableHlo.after_of_writes_sub ops _ hw h

theorem W5_main_arg0 (c : Dev nD) : Bd5 m ρ c (Proc.devRef .tc main_arg0) = m ((c : Thread nD τ).loc main_arg0) :=
  calc Bd5 m ρ c (Proc.devRef .tc main_arg0)
    _ = Bd4 m ρ c (Proc.devRef .tc main_arg0) := after_keeps hostOps2 hostOps2_W hostOps2_writes _ main_arg0 (by decide)
    _ = Bd3 m ρ c (Proc.devRef .tc main_arg0) := (W4_arr m ρ c 0).trans (((dat1 (Ev3 m ρ) c).arrAt_in 0 rfl _).trans (A_eq1 (Ev3 m ρ) c 0))
    _ = Bd2 m ρ c (Proc.devRef .tc main_arg0) := after_keeps hostOps1 hostOps1_W hostOps1_writes _ main_arg0 (by decide)
    _ = Bd1 m ρ c (Proc.devRef .tc main_arg0) := (W2_arr m ρ c 0).trans (((dat0 (Ev1 m ρ) c).arrAt_in 0 rfl _).trans (A_eq0 (Ev1 m ρ) c 0))
    _ = Bd0 m ρ c (Proc.devRef .tc main_arg0) := after_keeps hostOps0 hostOps0_W hostOps0_writes _ main_arg0 (by decide)
    _ = m ((c : Thread nD τ).loc main_arg0) := rfl

theorem W5_main_arg1 (c : Dev nD) : Bd5 m ρ c (Proc.devRef .tc main_arg1) = m ((c : Thread nD τ).loc main_arg1) :=
  calc Bd5 m ρ c (Proc.devRef .tc main_arg1)
    _ = Bd4 m ρ c (Proc.devRef .tc main_arg1) := after_keeps hostOps2 hostOps2_W hostOps2_writes _ main_arg1 (by decide)
    _ = Bd3 m ρ c (Proc.devRef .tc main_arg1) := (W4_arr m ρ c 3).trans (((dat1 (Ev3 m ρ) c).arrAt_in 3 rfl _).trans (A_eq1 (Ev3 m ρ) c 3))
    _ = Bd2 m ρ c (Proc.devRef .tc main_arg1) := after_keeps hostOps1 hostOps1_W hostOps1_writes _ main_arg1 (by decide)
    _ = Bd1 m ρ c (Proc.devRef .tc main_arg1) := (W2_arr m ρ c 2).trans (((dat0 (Ev1 m ρ) c).arrAt_in 2 rfl _).trans (A_eq0 (Ev1 m ρ) c 2))
    _ = Bd0 m ρ c (Proc.devRef .tc main_arg1) := after_keeps hostOps0 hostOps0_W hostOps0_writes _ main_arg1 (by decide)
    _ = m ((c : Thread nD τ).loc main_arg1) := rfl

theorem W5_main_arg2 (c : Dev nD) : Bd5 m ρ c (Proc.devRef .tc main_arg2) = m ((c : Thread nD τ).loc main_arg2) :=
  calc Bd5 m ρ c (Proc.devRef .tc main_arg2)
    _ = Bd4 m ρ c (Proc.devRef .tc main_arg2) := after_keeps hostOps2 hostOps2_W hostOps2_writes _ main_arg2 (by decide)
    _ = Bd3 m ρ c (Proc.devRef .tc main_arg2) := W4_of_ne m ρ c main_arg2 (by decide)
    _ = Bd2 m ρ c (Proc.devRef .tc main_arg2) := after_keeps hostOps1 hostOps1_W hostOps1_writes _ main_arg2 (by decide)
    _ = Bd1 m ρ c (Proc.devRef .tc main_arg2) := W2_of_ne m ρ c main_arg2 (by decide)
    _ = Bd0 m ρ c (Proc.devRef .tc main_arg2) := after_keeps hostOps0 hostOps0_W hostOps0_writes _ main_arg2 (by decide)
    _ = m ((c : Thread nD τ).loc main_arg2) := rfl

/-! ## The proof data family and the thread state -/

abbrev admF : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admF p) c
  | ⟨0, _⟩ => fun c => dat0 (Ev1 m ρ) c
  | ⟨1, _⟩ => fun c => dat1 (Ev3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the return's contents, the generator register at some state. -/
abbrev Tₙ (c : Dev nD) : sProp 𝕄 := iprop(StableHlo.held (c : Thread nD τ) (Pipeline.ucRefs τ sig) (Bd5 m ρ c) ∗ ∃ r, prngReg c r)

/-! ## The regions as segments -/

set_option backward.isDefEq.respectTransparency.types false in
/-- Call 0 over the thread state: its arrays split out of the unscoped buffers at the entry contents and put back at the
    exit contents; the generator register and the scoped rest into the region's invariant and out; nothing owed; no
    semaphore of the kernel's own. -/
def reg0 : Pipeline.RegionSeg (pcfgs (F := F)) admF (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ev1 m ρ) c).loose
  hwaits := Pipeline.hwaits_of_owed_zero _ _ _ _ L lv 0 fun _ _ => rfl
  pre c := iprop(StableHlo.held (c : Thread nD τ) (Pipeline.ucRefs τ sig) (Bd1 m ρ c) ∗ R c)
  post c := iprop(StableHlo.held (c : Thread nD τ) (Pipeline.ucRefs τ sig) (Bd2 m ρ c) ∗ R c)
  X c := iprop(∃ r, prngReg c r)
  Y c := iprop(∃ r, prngReg c r)
  Z c := Pipeline.unscopedRest (Ix := Unit) (Name := ℕ) (U := UR sig nD τ) (Lvl := ℕ) spec0 c (Ev1 m ρ c)
  hentry c := by
    rw [Pipeline.ownSems0_none]
    have hsplit := Pipeline.arrays_of_unscopedBufs (p := 0) (pcfgs (F := F)) admF (pdats m ρ) launch0.win launch0.arr_whole c
      ((pdats m ρ 0 c).share_full fun _ => rfl) (Ev1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (Ev1 m ρ) c)
    unfold Pipeline.ΦA
    iintro ⟨Hp, -, Hr⟩
    isplitl [Hr]; · iexact Hr
    iexact Hp
  hout c := by
    rw [Pipeline.ownSems0_none]
    refine (hout0 (Ev1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdats m ρ) ((pdats m ρ 0 c).share_full fun _ => rfl)
      (Ev1 m ρ c) (Ev2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: its arrays split out of the unscoped buffers at the entry contents and put back at the
    exit contents; the generator register and the scoped rest into the region's invariant and out; nothing owed; no
    semaphore of the kernel's own. -/
def reg1 : Pipeline.RegionSeg (pcfgs (F := F)) admF (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ev3 m ρ) c).loose
  hwaits := Pipeline.hwaits_of_owed_zero _ _ _ _ L lv 1 fun _ _ => rfl
  pre c := iprop(StableHlo.held (c : Thread nD τ) (Pipeline.ucRefs τ sig) (Bd3 m ρ c) ∗ R c)
  post c := iprop(StableHlo.held (c : Thread nD τ) (Pipeline.ucRefs τ sig) (Bd4 m ρ c) ∗ R c)
  X c := iprop(∃ r, prngReg c r)
  Y c := iprop(∃ r, prngReg c r)
  Z c := Pipeline.unscopedRest (Ix := Unit) (Name := ℕ) (U := UR sig nD τ) (Lvl := ℕ) spec1 c (Ev3 m ρ c)
  hentry c := by
    rw [Pipeline.ownSems0_none]
    have hsplit := Pipeline.arrays_of_unscopedBufs (p := 1) (pcfgs (F := F)) admF (pdats m ρ) launch1.win launch1.arr_whole c
      ((pdats m ρ 1 c).share_full fun _ => rfl) (Ev3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (Ev3 m ρ) c)
    unfold Pipeline.ΦA
    iintro ⟨Hp, -, Hr⟩
    isplitl [Hr]; · iexact Hr
    iexact Hp
  hout c := by
    rw [Pipeline.ownSems0_none]
    refine (hout1 (Ev3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pdats m ρ) ((pdats m ρ 1 c).share_full fun _ => rfl)
      (Ev3 m ρ c) (Ev4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segsF : List (Pipeline.Seg (pcfgs (F := F)) admF (pdats m ρ) () defs₀ 𝒱₀ L lv) :=
  [ .host (hseg hostOps0 hostOps0_sub hostOps0_fresh (Bd0 m ρ)),
    .region (reg0 m ρ),
    .host (hseg hostOps1 hostOps1_sub hostOps1_fresh (Bd2 m ρ)),
    .region (reg1 m ρ),
    .host (hseg hostOps2 hostOps2_sub hostOps2_fresh (Bd4 m ρ)) ]

theorem main_run (c : Dev nD) : main (F := F) c = Pipeline.Seg.run (segsF m ρ) := (main_chain c).trans (by chain_rfl)

set_option backward.isDefEq.respectTransparency.types false in
/-- From any memory with zero counters every weakly fair execution of the program terminates, nothing faulting, and
    every final state holds every unscoped buffer at the return's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = Bd5 m ρ c b) :=
  Pipeline.θ_run_regions_kit (pcfgs (F := F)) admF (pdats m ρ) () cellOf_inj emb₁ defs₀ 𝒱₀ L lv m ρ main (segsF m ρ)
    (fun c Q => by rw [main_run m ρ c])
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (Bd5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd5 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd5 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_main m ρ)

end Cert.Kernel.Fr

end
-- ==== Proof.KI.R0Runs.lean ====
/-
  The first pallas_call (row sums over the negatives), what its three control cases share.

  The grid is 8 × 16: coordinate 0 picks a block of 1024 rows, coordinate 1 a block of 512 columns. The body
  zeroes its accumulator when coordinate 1 is 0, adds the tile's row sums to it, and copies it to the output block
  when coordinate 1 is 15. Here: the two conditions in closed form over the linear point, where the output window
  is idle, the memrefs the body is called with, and the region's scoped rest with the accumulator split off.
-/
import proofs.«176830_j37546604102166_1_alg».proof.Proof.Gen.KernelIdeal.Launch
import proofs.«176830_j37546604102166_1_alg».proof.Proof.Gen.KernelIdeal.Skeleton
import proofs.«176830_j37546604102166_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- "Coordinate 1 is 0": the accumulator is zeroed. -/
abbrev cond0_0 (i : grid0.Coords) : Prop := (Scalar.cmpi .ne (Scalar.extui (Scalar.cmpi .eq (BitVec.ofNat 32 (i 1).val) 0#32)) 0#32) = 1#1
/-- It holds at the first point of each row of the grid. -/
theorem hcond0_0 : ∀ t : Fin cfg0.N, cond0_0 (grid0.coords t) ↔ t.val % 16 = 0 :=
  (by decide +kernel : ∀ t : Fin grid0.N, cond0_0 (grid0.coords t) ↔ t.val % 16 = 0)

/-- "Coordinate 1 is 15": the accumulator is copied out. -/
abbrev cond0_1 (i : grid0.Coords) : Prop := k0_cond2 i = 1#1
/-- It holds at the last point of each row of the grid. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off the last point of a row the output window is idle, -/
theorem idleAt0_4 : ∀ t : Fin cfg0.N, ¬cond0_1 (grid0.coords t) → cfg0.idle 4 (grid0.coords t) = true := by decide +kernel
/-- and its block is not written back there; -/
theorem noFlush0_4 : ∀ t : Fin cfg0.N, ¬cond0_1 (grid0.coords t) → (cfg0.win 4).flush t = false := by decide +kernel
/-- at the last point of a row it is live. -/
theorem liveAt0_4 : ∀ t : Fin cfg0.N, cond0_1 (grid0.coords t) → cfg0.idle 4 (grid0.coords t) = false := by decide +kernel

/-! ## The memrefs the body is called with -/

/-- One staging buffer of the output window, through which its contents are stated. -/
abbrev VO0_4 : View sig .tc .vmem S1024x1 .f32 := (Memref.whole cc0_stg4_0 : Memref sig .tc .vmem S1024x1 .f32).view
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The accumulator: a whole scoped buffer of the kernel's own, carried between the points of a row. -/
abbrev scM0_0 : Memref sig .tc .vmem S1024x1 .f32 := Memref.whole cc0_scratch0
abbrev VS0_0 : View sig .tc .vmem S1024x1 .f32 := scM0_0.view

/-! ## The scoped rest, the accumulator split off -/

/-- The region's scoped rest is the accumulator's buffer at some contents beside the other scoped buffers (the second
    call's), which this region never opens. -/
theorem scopedRest0_split (c : Dev nD) : ∃ R : sProp 𝕄,
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ R) :=
  ⟨_, scopedRest0_eq c⟩

/-- The scoped buffers of the other call, each whole at some contents: they ride through this region untouched. -/
def others0 (c : Dev nD) : sProp 𝕄 := (scopedRest0_split (F := F) c).choose

theorem scopedRest0_eq' (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ others0 c) :=
  (scopedRest0_split (F := F) c).choose_spec

/-- The class invariant with the accumulator as a memref owned at some contents. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA; rw [scopedRest0_eq']; simp only [scM0_0, owns_whole]; try rfl

end Cert.KernelIdeal.Fr

end
-- ==== Proof.KI.R0RunA.lean ====
/-
  The first pallas_call's body run symbolically in one of its three control cases.
-/
import proofs.«176830_j37546604102166_1_alg».proof.Proof.KI.R0Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point of a row (the accumulator is zeroed first; the output block is not touched): from the four input blocks held at their contents, it runs to its return
    handing the inputs back as they were and the accumulator with the stores' pieces written; the pieces are the witness. -/
noncomputable def kernelRun0_A (c : Dev nD) (i : grid0.Coords) (arg2 : Memref sig .tc .vmem S1024x128 .f32) (harg2 : arg2.IsWhole) (arg3 : Memref sig .tc .vmem S1024x1 .i32) (harg3 : arg3.IsWhole) (arg4 : Memref sig .tc .vmem S512x128 .f32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x128 .f32) (x1 : Vec F S1024x1 .i32) (x2 : Vec F S512x128 .f32) (x3 : Vec F S1x512 .i32) :
    Σ' (L4 : List (View.Piece (Elt F) S1024x1 .f32)), { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__v_kernel i arg2 harg2 arg3 harg3 arg4 harg4 arg5 harg5 arg6 harg6 arg7 harg7) K } := by
  refine ⟨[], ?_, fun xi4 E K => ?run⟩
  case run =>
    simp only [cc0__v_kernel_eq_skeleton]; unfold cc0__v_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.KI.R0RunB.lean ====
/-
  The first pallas_call's body run symbolically in one of its three control cases.
-/
import proofs.«176830_j37546604102166_1_alg».proof.Proof.KI.R0Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle point of a row (the accumulator only grows; the output block is not touched): from the four input blocks held at their contents and the accumulator at what the point before left, it runs to its return
    handing the inputs back as they were and the accumulator with the stores' pieces written; the pieces are the witness. -/
noncomputable def kernelRun0_B (c : Dev nD) (i : grid0.Coords) (arg2 : Memref sig .tc .vmem S1024x128 .f32) (harg2 : arg2.IsWhole) (arg3 : Memref sig .tc .vmem S1024x1 .i32) (harg3 : arg3.IsWhole) (arg4 : Memref sig .tc .vmem S512x128 .f32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x128 .f32) (x1 : Vec F S1024x1 .i32) (x2 : Vec F S512x128 .f32) (x3 : Vec F S1x512 .i32) (xs0 : Vec F S1024x1 .f32) :
    Σ' (L4 : List (View.Piece (Elt F) S1024x1 .f32)), { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__v_kernel i arg2 harg2 arg3 harg3 arg4 harg4 arg5 harg5 arg6 harg6 arg7 harg7) K } := by
  refine ⟨[], ?_, fun xi4 E K => ?run⟩
  case run =>
    simp only [cc0__v_kernel_eq_skeleton]; unfold cc0__v_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.KI.R0RunC.lean ====
/-
  The first pallas_call's body run symbolically in one of its three control cases.
-/
import proofs.«176830_j37546604102166_1_alg».proof.Proof.KI.R0Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last point of a row (the accumulator grows and is copied into the output block): from the four input blocks held at their contents and the accumulator at what the point before left, it runs to its return
    handing the inputs back as they were and the accumulator and the output block with the stores' pieces written; the pieces are the witness. -/
noncomputable def kernelRun0_C (c : Dev nD) (i : grid0.Coords) (arg2 : Memref sig .tc .vmem S1024x128 .f32) (harg2 : arg2.IsWhole) (arg3 : Memref sig .tc .vmem S1024x1 .i32) (harg3 : arg3.IsWhole) (arg4 : Memref sig .tc .vmem S512x128 .f32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .f32) (x1 : Vec F S1024x1 .i32) (x2 : Vec F S512x128 .f32) (x3 : Vec F S1x512 .i32) (xs0 : Vec F S1024x1 .f32) :
    Σ' (L4 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__v_kernel i arg2 harg2 arg3 harg3 arg4 harg4 arg5 harg5 arg6 harg6 arg7 harg7) K } := by
  refine ⟨?_, ?_, fun E K => ?run⟩
  case run =>
    simp only [cc0__v_kernel_eq_skeleton]; unfold cc0__v_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Fr

end
-- ==== Proof.KI.R0.lean ====
/-
  The first pallas_call, point by point: what the output block's buffer and the accumulator hold after each point
  of the grid (a recursion over the linear point: a row's first point starts the accumulator afresh, every other
  point continues from the point before, the row's last point also fills the output block), the invariant that
  carries the accumulator from one point to the next, the pipeline's proof data at the region-entry contents V,
  and the body's obligation at every point.
-/
import proofs.«176830_j37546604102166_1_alg».proof.Proof.KI.R0RunA
import proofs.«176830_j37546604102166_1_alg».proof.Proof.KI.R0RunB
import proofs.«176830_j37546604102166_1_alg».proof.Proof.KI.R0RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- What case A leaves in the output block's staging buffer: its pieces read back (none: a placeholder nothing consults, the window being idle there). -/
def out0_A_4 (c : Dev nD) (i : grid0.Coords) (arg2 : Memref sig .tc .vmem S1024x128 .f32) (harg2 : arg2.IsWhole) (arg3 : Memref sig .tc .vmem S1024x1 .i32) (harg3 : arg3.IsWhole) (arg4 : Memref sig .tc .vmem S512x128 .f32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x128 .f32) (x1 : Vec F S1024x1 .i32) (x2 : Vec F S512x128 .f32) (x3 : Vec F S1x512 .i32) : Vec F S1024x1 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A's pieces for the accumulator cover it. -/
theorem scover0_A_0 (c : Dev nD) (i : grid0.Coords) (arg2 : Memref sig .tc .vmem S1024x128 .f32) (harg2 : arg2.IsWhole) (arg3 : Memref sig .tc .vmem S1024x1 .i32) (harg3 : arg3.IsWhole) (arg4 : Memref sig .tc .vmem S512x128 .f32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x128 .f32) (x1 : Vec F S1024x1 .i32) (x2 : Vec F S512x128 .f32) (x3 : Vec F S1x512 .i32) (y : S1024x1.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1024x1.size (by sl_kernel_rfl) y

/-- What case A leaves in the accumulator: its pieces read back. -/
def sout0_A_0 (c : Dev nD) (i : grid0.Coords) (arg2 : Memref sig .tc .vmem S1024x128 .f32) (harg2 : arg2.IsWhole) (arg3 : Memref sig .tc .vmem S1024x1 .i32) (harg3 : arg3.IsWhole) (arg4 : Memref sig .tc .vmem S512x128 .f32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x128 .f32) (x1 : Vec F S1024x1 .i32) (x2 : Vec F S512x128 .f32) (x3 : Vec F S1x512 .i32) : Vec F S1024x1 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- What case B leaves in the output block's staging buffer: its pieces read back (none: a placeholder nothing consults, the window being idle there). -/
def out0_B_4 (c : Dev nD) (i : grid0.Coords) (arg2 : Memref sig .tc .vmem S1024x128 .f32) (harg2 : arg2.IsWhole) (arg3 : Memref sig .tc .vmem S1024x1 .i32) (harg3 : arg3.IsWhole) (arg4 : Memref sig .tc .vmem S512x128 .f32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x128 .f32) (x1 : Vec F S1024x1 .i32) (x2 : Vec F S512x128 .f32) (x3 : Vec F S1x512 .i32) (xs0 : Vec F S1024x1 .f32) : Vec F S1024x1 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- Case B's pieces for the accumulator cover it. -/
theorem scover0_B_0 (c : Dev nD) (i : grid0.Coords) (arg2 : Memref sig .tc .vmem S1024x128 .f32) (harg2 : arg2.IsWhole) (arg3 : Memref sig .tc .vmem S1024x1 .i32) (harg3 : arg3.IsWhole) (arg4 : Memref sig .tc .vmem S512x128 .f32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x128 .f32) (x1 : Vec F S1024x1 .i32) (x2 : Vec F S512x128 .f32) (x3 : Vec F S1x512 .i32) (xs0 : Vec F S1024x1 .f32) (y : S1024x1.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S1024x1.size (by sl_kernel_rfl) y

/-- What case B leaves in the accumulator: its pieces read back. -/
def sout0_B_0 (c : Dev nD) (i : grid0.Coords) (arg2 : Memref sig .tc .vmem S1024x128 .f32) (harg2 : arg2.IsWhole) (arg3 : Memref sig .tc .vmem S1024x1 .i32) (harg3 : arg3.IsWhole) (arg4 : Memref sig .tc .vmem S512x128 .f32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x128 .f32) (x1 : Vec F S1024x1 .i32) (x2 : Vec F S512x128 .f32) (x3 : Vec F S1x512 .i32) (xs0 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- What case C leaves in the output block's staging buffer: its pieces read back. -/
def out0_C_4 (c : Dev nD) (i : grid0.Coords) (arg2 : Memref sig .tc .vmem S1024x128 .f32) (harg2 : arg2.IsWhole) (arg3 : Memref sig .tc .vmem S1024x1 .i32) (harg3 : arg3.IsWhole) (arg4 : Memref sig .tc .vmem S512x128 .f32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .f32) (x1 : Vec F S1024x1 .i32) (x2 : Vec F S512x128 .f32) (x3 : Vec F S1x512 .i32) (xs0 : Vec F S1024x1 .f32) : Vec F S1024x1 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- Case C's pieces for the accumulator cover it. -/
theorem scover0_C_0 (c : Dev nD) (i : grid0.Coords) (arg2 : Memref sig .tc .vmem S1024x128 .f32) (harg2 : arg2.IsWhole) (arg3 : Memref sig .tc .vmem S1024x1 .i32) (harg3 : arg3.IsWhole) (arg4 : Memref sig .tc .vmem S512x128 .f32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .f32) (x1 : Vec F S1024x1 .i32) (x2 : Vec F S512x128 .f32) (x3 : Vec F S1x512 .i32) (xs0 : Vec F S1024x1 .f32) (y : S1024x1.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1024x1.size (by sl_kernel_rfl) y

/-- What case C leaves in the accumulator: its pieces read back. -/
def sout0_C_0 (c : Dev nD) (i : grid0.Coords) (arg2 : Memref sig .tc .vmem S1024x128 .f32) (harg2 : arg2.IsWhole) (arg3 : Memref sig .tc .vmem S1024x1 .i32) (harg3 : arg3.IsWhole) (arg4 : Memref sig .tc .vmem S512x128 .f32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .f32) (x1 : Vec F S1024x1 .i32) (x2 : Vec F S512x128 .f32) (x3 : Vec F S1x512 .i32) (xs0 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-- At the last point of a row the pieces stored into the output block cover it. -/
theorem cover0_C_4 (c : Dev nD) (i : grid0.Coords) (arg2 : Memref sig .tc .vmem S1024x128 .f32) (harg2 : arg2.IsWhole) (arg3 : Memref sig .tc .vmem S1024x1 .i32) (harg3 : arg3.IsWhole) (arg4 : Memref sig .tc .vmem S512x128 .f32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .f32) (x1 : Vec F S1024x1 .i32) (x2 : Vec F S512x128 .f32) (x3 : Vec F S1x512 .i32) (xs0 : Vec F S1024x1 .f32) (y : S1024x1.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1024x1.size (by sl_kernel_rfl) y

/-! ## What the buffers hold after each point -/

/-- After the body at position n: (the output block's buffer, the accumulator). -/
def outsAt0 (c : Dev nD) : (n : ℕ) → n < cfg0.N → Vec F S1024x1 .f32 × Vec F S1024x1 .f32
  | 0, hn =>
    have h0 : (0 : ℕ) % 16 = 0 := Nat.zero_mod _
    have h1 : ¬ (0 : ℕ) % 16 = 15 := by omega
    (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr h0) (fun h => h1 ((hcond0_1 ⟨0, hn⟩).mp h)) (iblk0 V c 0 ⟨0, hn⟩) (iblk0 V c 1 ⟨0, hn⟩) (iblk0 V c 2 ⟨0, hn⟩) (iblk0 V c 3 ⟨0, hn⟩),
     sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr h0) (fun h => h1 ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 16 = 0 then
      if h1 : (n + 1) % 16 = 15 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩),
         sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 16 = 15 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2,
         sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

/-- At a row's first point. -/
theorem outsAt0_A (c : Dev nD) (t : Fin cfg0.N) (h0 : t.val % 16 = 0) (h1 : ¬t.val % 16 = 15) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t),
      sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

/-- At a row's middle points: over what the point before left in the accumulator. -/
theorem outsAt0_B (c : Dev nD) (t : Fin cfg0.N) (h0 : ¬t.val % 16 = 0) (h1 : ¬t.val % 16 = 15) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2,
      sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a row's last point: over what the point before left in the accumulator. -/
theorem outsAt0_C (c : Dev nD) (t : Fin cfg0.N) (h0 : ¬t.val % 16 = 0) (h1 : t.val % 16 = 15) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position n: at the region's entry the class's invariant (every scoped buffer at anything); afterwards the
    accumulator at what the point before left in it, the other scoped buffers at anything, the generator register at
    some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 c) ∗ (∃ r, prngReg c r)) := by
  cases n with
  | zero => exact absurd rfl hz
  | succ n => rfl

/-! ## The pipeline's proof data -/

/-- The arrays as the region finds them; after the body at point t each input's buffer at its block and the output's
    at the recursion's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' buffers hold their blocks; the closed forms say which case the point is in; the
    invariant hands the body the accumulator at what the point before left (at anything at the very first point) and
    takes it back at this point's contents; the output block's buffer is handed back untouched off a row's last point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  by_cases h0 : t.val % 16 = 0
  · by_cases h1 : t.val % 16 = 15
    · exfalso; omega
    · rw [show (dat0 V c).leavesExact 0 t = owns (c : Thread nD τ) (ms0_0 t) fullShare ((dat0 V c).after 0 t) from by
          unfold Dat.leavesExact; rw [liveAt0_0 t], after0_0]
      rw [show (dat0 V c).leavesExact 1 t = owns (c : Thread nD τ) (ms0_1 t) fullShare ((dat0 V c).after 1 t) from by
          unfold Dat.leavesExact; rw [liveAt0_1 t], after0_1]
      rw [show (dat0 V c).leavesExact 2 t = owns (c : Thread nD τ) (ms0_2 t) fullShare ((dat0 V c).after 2 t) from by
          unfold Dat.leavesExact; rw [liveAt0_2 t], after0_2]
      rw [show (dat0 V c).leavesExact 3 t = owns (c : Thread nD τ) (ms0_3 t) fullShare ((dat0 V c).after 3 t) from by
          unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
  · by_cases h1 : t.val % 16 = 15
    · rw [show (dat0 V c).leavesExact 0 t = owns (c : Thread nD τ) (ms0_0 t) fullShare ((dat0 V c).after 0 t) from by
          unfold Dat.leavesExact; rw [liveAt0_0 t], after0_0]
      rw [show (dat0 V c).leavesExact 1 t = owns (c : Thread nD τ) (ms0_1 t) fullShare ((dat0 V c).after 1 t) from by
          unfold Dat.leavesExact; rw [liveAt0_1 t], after0_1]
      rw [show (dat0 V c).leavesExact 2 t = owns (c : Thread nD τ) (ms0_2 t) fullShare ((dat0 V c).after 2 t) from by
          unfold Dat.leavesExact; rw [liveAt0_2 t], after0_2]
      rw [show (dat0 V c).leavesExact 3 t = owns (c : Thread nD τ) (ms0_3 t) fullShare ((dat0 V c).after 3 t) from by
          unfold Dat.leavesExact; rw [liveAt0_3 t], after0_3]
      rw [show (dat0 V c).leavesExact 4 t = owns (c : Thread nD τ) (ms0_4 t) fullShare ((dat0 V c).after 4 t) from by
          unfold Dat.leavesExact; rw [liveAt0_4 t ((hcond0_1 t).mpr h1)], after0_4]
      rw [outsAt0_C V c t h0 h1]
      unfold out0_C_4 sout0_C_0; (try dsimp only)
      have hz : t.val ≠ 0 := by intro hz; rw [hz] at h0; exact h0 (Nat.zero_mod _)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [show (dat0 V c).leavesExact 0 t = owns (c : Thread nD τ) (ms0_0 t) fullShare ((dat0 V c).after 0 t) from by
          unfold Dat.leavesExact; rw [liveAt0_0 t], after0_0]
      rw [show (dat0 V c).leavesExact 1 t = owns (c : Thread nD τ) (ms0_1 t) fullShare ((dat0 V c).after 1 t) from by
          unfold Dat.leavesExact; rw [liveAt0_1 t], after0_1]
      rw [show (dat0 V c).leavesExact 2 t = owns (c : Thread nD τ) (ms0_2 t) fullShare ((dat0 V c).after 2 t) from by
          unfold Dat.leavesExact; rw [liveAt0_2 t], after0_2]
      rw [show (dat0 V c).leavesExact 3 t = owns (c : Thread nD τ) (ms0_3 t) fullShare ((dat0 V c).after 3 t) from by
          unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B_0; (try dsimp only)
      have hz : t.val ≠ 0 := by intro hz; rw [hz] at h0; exact h0 (Nat.zero_mod _)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ Pipeline.ΦA spec0 c :=
  Phi_out0 V c _ (by rw [Fin.val_last]; have : cfg0.N = 128 := N_0; omega)

end Cert.KernelIdeal.Fr

end
-- ==== Proof.KI.R1Runs.lean ====
import proofs.«176830_j37546604102166_1_alg».proof.Proof.Gen.KernelIdeal.Launch
import proofs.«176830_j37546604102166_1_alg».proof.Proof.Gen.KernelIdeal.Skeleton
import proofs.«176830_j37546604102166_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the hinge kernel): what its three per-case runs share

The TensorCore's buffer contents when the region is entered are a parameter `V`. -/

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, in closed form over the grid -/

/-- The condition of the body's first `scf.if` (zero both accumulators), from the grid coordinates. -/
abbrev cond1_0 (i : grid1.Coords) : Prop := (Scalar.cmpi .ne (Scalar.extui (Scalar.cmpi .eq (BitVec.ofNat 32 (i 1).val) 0#32)) 0#32) = 1#1
/-- It holds at the first point of each row of the grid. -/
theorem hcond1_0 : ∀ t : Fin cfg1.N, cond1_0 (grid1.coords t) ↔ t.val % 32 = 0 :=
  (by decide +kernel : ∀ t : Fin grid1.N, cond1_0 (grid1.coords t) ↔ t.val % 32 = 0)

/-- The condition of the body's last `scf.if` (copy the accumulators out). -/
abbrev cond1_1 (i : grid1.Coords) : Prop := k1_cond2 i = 1#1
/-- It holds at the last point of each row of the grid. -/
theorem hcond1_1 : ∀ t : Fin cfg1.N, cond1_1 (grid1.coords t) ↔ t.val % 32 = 31 :=
  (by decide +kernel : ∀ t : Fin grid1.N, cond1_1 (grid1.coords t) ↔ t.val % 32 = 31)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem idleAt1_6_N : ∀ t : Fin cfg1.N, ¬cond1_1 (grid1.coords t) → cfg1.idle 6 (grid1.coords t) = true := by decide +kernel
theorem noFlush1_6_N : ∀ t : Fin cfg1.N, ¬cond1_1 (grid1.coords t) → (cfg1.win 6).flush t = false := by decide +kernel
theorem liveAt1_6_C : ∀ t : Fin cfg1.N, cond1_1 (grid1.coords t) → cfg1.idle 6 (grid1.coords t) = false := by decide +kernel
theorem idleAt1_7_N : ∀ t : Fin cfg1.N, ¬cond1_1 (grid1.coords t) → cfg1.idle 7 (grid1.coords t) = true := by decide +kernel
theorem noFlush1_7_N : ∀ t : Fin cfg1.N, ¬cond1_1 (grid1.coords t) → (cfg1.win 7).flush t = false := by decide +kernel
theorem liveAt1_7_C : ∀ t : Fin cfg1.N, cond1_1 (grid1.coords t) → cfg1.idle 7 (grid1.coords t) = false := by decide +kernel

/-! ## The staging and scratch memrefs -/

/-- One staging buffer of each output window, through which its contents are stated. -/
abbrev VO1_6 : View sig .tc .vmem S1024x1 .f32 := (Memref.whole cc1_stg6_0 : Memref sig .tc .vmem S1024x1 .f32).view
abbrev VO1_7 : View sig .tc .vmem S1024x1 .f32 := (Memref.whole cc1_stg7_0 : Memref sig .tc .vmem S1024x1 .f32).view
abbrev ms1_0 (t : Fin cfg1.N) : Memref sig .tc .vmem S1024x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x1 .f32 := win1_7.stage (cfg1.slots t 7)
abbrev hs1_7 (t : Fin cfg1.N) : (ms1_7 t).IsWhole := hstage1_7 ((cfg1.slots t 7).cast nbuf1_7)
/-- The two accumulators: whole scoped buffers of the kernel's own, passed beside the windows. -/
abbrev scM1_0 : Memref sig .tc .vmem S1024x1 .f32 := Memref.whole cc1_scratch0
abbrev scM1_1 : Memref sig .tc .vmem S1024x1 .f32 := Memref.whole cc1_scratch1
abbrev VS1_0 : View sig .tc .vmem S1024x1 .f32 := scM1_0.view
abbrev VS1_1 : View sig .tc .vmem S1024x1 .f32 := scM1_1.view

/-- The class invariant with the scoped rest enumerated: region 0's staging buffers and accumulator at some
    contents, then this region's two accumulators as memrefs owned at some contents, and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.KernelIdeal.Fr

end
-- ==== Proof.KI.R1RunB.lean ====
import proofs.«176830_j37546604102166_1_alg».proof.Proof.KI.R1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the two accumulators, as pieces (last first), at a MIDDLE point of a row of the
    grid (neither conditional taken), with the proof that on whole staging memrefs — the six inputs' at their
    contents, the two outputs' (idle here: not stored into, not written back) at contents handed back untouched,
    the two accumulators at what the point before left — the body runs to the continuation holding the inputs
    and outputs as they were and each accumulator with its pieces written. The pieces are the witness the
    symbolic run finds. -/
noncomputable def kernelRun1_B (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : ¬cond1_1 i)
    (x0 : Vec F S1024x128 .f32) (x1 : Vec F S1024x1 .i32) (x2 : Vec F S1024x1 .f32) (x3 : Vec F S256x128 .f32) (x4 : Vec F S1x256 .i32) (x5 : Vec F S1x256 .f32) (xs0 : Vec F S1024x1 .f32) (xs1 : Vec F S1024x1 .f32) :
    Σ' (L6 : List (View.Piece (Elt F) S1024x1 .f32)) (L7 : List (View.Piece (Elt F) S1024x1 .f32)) (LS0 : List (View.Piece (Elt F) S1024x1 .f32)), { LS1 : List (View.Piece (Elt F) S1024x1 .f32) //
      ∀ (xi6 : Vec F S1024x1 .f32) (xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__hinge_kernel i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    simp only [cc1__hinge_kernel_eq_skeleton, k1_part1_eq_skeleton]; unfold cc1__hinge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.Fr

end
-- ==== Proof.KI.R1RunA.lean ====
import proofs.«176830_j37546604102166_1_alg».proof.Proof.KI.R1RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the two accumulators, as pieces (last first), at the FIRST point of a row of the
    grid (the first conditional taken: both accumulators zeroed, then accumulated into), with the proof that on
    whole staging memrefs — the six inputs' at their contents, the two outputs' (idle here) at contents handed
    back untouched, the two accumulators at anything — the body runs to the continuation holding the inputs and
    outputs as they were and each accumulator with its pieces written. -/
noncomputable def kernelRun1_A (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond1_0 i) (hc1 : ¬cond1_1 i)
    (x0 : Vec F S1024x128 .f32) (x1 : Vec F S1024x1 .i32) (x2 : Vec F S1024x1 .f32) (x3 : Vec F S256x128 .f32) (x4 : Vec F S1x256 .i32) (x5 : Vec F S1x256 .f32) :
    Σ' (L6 : List (View.Piece (Elt F) S1024x1 .f32)) (L7 : List (View.Piece (Elt F) S1024x1 .f32)) (LS0 : List (View.Piece (Elt F) S1024x1 .f32)), { LS1 : List (View.Piece (Elt F) S1024x1 .f32) //
      ∀ (xi6 : Vec F S1024x1 .f32) (xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__hinge_kernel i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    simp only [cc1__hinge_kernel_eq_skeleton, k1_part1_eq_skeleton]; unfold cc1__hinge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.Fr

end
-- ==== Proof.KI.R1RunC.lean ====
import proofs.«176830_j37546604102166_1_alg».proof.Proof.KI.R1RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the two outputs and the two accumulators, as pieces (last first), at the LAST
    point of a row of the grid (the last conditional taken: the accumulators copied out), with the proof that on
    whole staging memrefs — the six inputs' at their contents, the two outputs' at anything, the two
    accumulators at what the point before left — the body runs to the continuation holding the inputs as they
    were and each output and accumulator with its pieces written. -/
noncomputable def kernelRun1_C (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x128 .f32) (x1 : Vec F S1024x1 .i32) (x2 : Vec F S1024x1 .f32) (x3 : Vec F S256x128 .f32) (x4 : Vec F S1x256 .i32) (x5 : Vec F S1x256 .f32) (xs0 : Vec F S1024x1 .f32) (xs1 : Vec F S1024x1 .f32) :
    Σ' (L6 : List (View.Piece (Elt F) S1024x1 .f32)) (L7 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__hinge_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__hinge_kernel_eq_skeleton, k1_part1_eq_skeleton]; unfold cc1__hinge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    iexists _; iexact HS1

end Cert.KernelIdeal.Fr

end
-- ==== Proof.KI.R1.lean ====
import proofs.«176830_j37546604102166_1_alg».proof.Proof.KI.R1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the hinge kernel): the proof data and the body obligation

The three per-case runs give, per case, the pieces the body leaves in the two accumulators (and, at the last point of
a row of the grid, in the two outputs). Here: the pieces cover their buffers; what the outputs and the accumulators
hold after each point (`outsAt1`: a recursion along the grid, the accumulators carried from point to point); the
region invariant (`PhiS1`: the two accumulators at `outsAt1`'s components); the proof data; the body obligation. -/

variable (V : (c : Dev nD) → (b : Ref sig .tc) → Buf (Elt F) ((c : Thread nD τ).loc b))

/-! ## The pieces cover; what each case leaves -/

/-- At a FIRST point the pieces for accumulator 0 tile the buffer (one whole-block store last), so they cover it. -/
theorem scover1_A_0 (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond1_0 i) (hc1 : ¬cond1_1 i)
    (x0 : Vec F S1024x128 .f32) (x1 : Vec F S1024x1 .i32) (x2 : Vec F S1024x1 .f32) (x3 : Vec F S256x128 .f32) (x4 : Vec F S1x256 .i32) (x5 : Vec F S1x256 .f32) (y : S1024x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5).2.2.1 S1024x1.size (by sl_kernel_rfl) y

/-- What a FIRST point leaves there: its pieces read back over junk. -/
def sout1_A_0 (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond1_0 i) (hc1 : ¬cond1_1 i)
    (x0 : Vec F S1024x128 .f32) (x1 : Vec F S1024x1 .i32) (x2 : Vec F S1024x1 .f32) (x3 : Vec F S256x128 .f32) (x4 : Vec F S1x256 .i32) (x5 : Vec F S1x256 .f32) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 hc1 x0 x1 x2 x3 x4 x5).2.2.1)

/-- At a FIRST point the pieces for accumulator 1 tile the buffer (one whole-block store last), so they cover it. -/
theorem scover1_A_1 (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond1_0 i) (hc1 : ¬cond1_1 i)
    (x0 : Vec F S1024x128 .f32) (x1 : Vec F S1024x1 .i32) (x2 : Vec F S1024x1 .f32) (x3 : Vec F S256x128 .f32) (x4 : Vec F S1x256 .i32) (x5 : Vec F S1x256 .f32) (y : S1024x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5).2.2.2.1 S1024x1.size (by sl_kernel_rfl) y

/-- What a FIRST point leaves there: its pieces read back over junk. -/
def sout1_A_1 (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond1_0 i) (hc1 : ¬cond1_1 i)
    (x0 : Vec F S1024x128 .f32) (x1 : Vec F S1024x1 .i32) (x2 : Vec F S1024x1 .f32) (x3 : Vec F S256x128 .f32) (x4 : Vec F S1x256 .i32) (x5 : Vec F S1x256 .f32) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 hc0 hc1 x0 x1 x2 x3 x4 x5).2.2.2.1)

/-- At a MIDDLE point the pieces for accumulator 0 tile the buffer (one whole-block store last), so they cover it. -/
theorem scover1_B_0 (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : ¬cond1_1 i)
    (x0 : Vec F S1024x128 .f32) (x1 : Vec F S1024x1 .i32) (x2 : Vec F S1024x1 .f32) (x3 : Vec F S256x128 .f32) (x4 : Vec F S1x256 .i32) (x5 : Vec F S1x256 .f32) (xs0 : Vec F S1024x1 .f32) (xs1 : Vec F S1024x1 .f32) (y : S1024x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 xs0 xs1).2.2.1 S1024x1.size (by sl_kernel_rfl) y

/-- What a MIDDLE point leaves there: its pieces read back over junk. -/
def sout1_B_0 (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : ¬cond1_1 i)
    (x0 : Vec F S1024x128 .f32) (x1 : Vec F S1024x1 .i32) (x2 : Vec F S1024x1 .f32) (x3 : Vec F S256x128 .f32) (x4 : Vec F S1x256 .i32) (x5 : Vec F S1x256 .f32) (xs0 : Vec F S1024x1 .f32) (xs1 : Vec F S1024x1 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 hc1 x0 x1 x2 x3 x4 x5 xs0 xs1).2.2.1)

/-- At a MIDDLE point the pieces for accumulator 1 tile the buffer (one whole-block store last), so they cover it. -/
theorem scover1_B_1 (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : ¬cond1_1 i)
    (x0 : Vec F S1024x128 .f32) (x1 : Vec F S1024x1 .i32) (x2 : Vec F S1024x1 .f32) (x3 : Vec F S256x128 .f32) (x4 : Vec F S1x256 .i32) (x5 : Vec F S1x256 .f32) (xs0 : Vec F S1024x1 .f32) (xs1 : Vec F S1024x1 .f32) (y : S1024x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S1024x1.size (by sl_kernel_rfl) y

/-- What a MIDDLE point leaves there: its pieces read back over junk. -/
def sout1_B_1 (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : ¬cond1_1 i)
    (x0 : Vec F S1024x128 .f32) (x1 : Vec F S1024x1 .i32) (x2 : Vec F S1024x1 .f32) (x3 : Vec F S256x128 .f32) (x4 : Vec F S1x256 .i32) (x5 : Vec F S1x256 .f32) (xs0 : Vec F S1024x1 .f32) (xs1 : Vec F S1024x1 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- At a LAST point the pieces for output 6 tile the buffer (one whole-block store last), so they cover it. -/
theorem cover1_C_6 (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x128 .f32) (x1 : Vec F S1024x1 .i32) (x2 : Vec F S1024x1 .f32) (x3 : Vec F S256x128 .f32) (x4 : Vec F S1x256 .i32) (x5 : Vec F S1x256 .f32) (xs0 : Vec F S1024x1 .f32) (xs1 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).1 S1024x1.size (by sl_kernel_rfl) y

/-- What a LAST point leaves there: its pieces read back over junk. -/
def out1_C_6 (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x128 .f32) (x1 : Vec F S1024x1 .i32) (x2 : Vec F S1024x1 .f32) (x3 : Vec F S256x128 .f32) (x4 : Vec F S1x256 .i32) (x5 : Vec F S1x256 .f32) (xs0 : Vec F S1024x1 .f32) (xs1 : Vec F S1024x1 .f32) : Vec F S1024x1 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).1)

/-- At a LAST point the pieces for output 7 tile the buffer (one whole-block store last), so they cover it. -/
theorem cover1_C_7 (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x128 .f32) (x1 : Vec F S1024x1 .i32) (x2 : Vec F S1024x1 .f32) (x3 : Vec F S256x128 .f32) (x4 : Vec F S1x256 .i32) (x5 : Vec F S1x256 .f32) (xs0 : Vec F S1024x1 .f32) (xs1 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).2.1 S1024x1.size (by sl_kernel_rfl) y

/-- What a LAST point leaves there: its pieces read back over junk. -/
def out1_C_7 (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x128 .f32) (x1 : Vec F S1024x1 .i32) (x2 : Vec F S1024x1 .f32) (x3 : Vec F S256x128 .f32) (x4 : Vec F S1x256 .i32) (x5 : Vec F S1x256 .f32) (xs0 : Vec F S1024x1 .f32) (xs1 : Vec F S1024x1 .f32) : Vec F S1024x1 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).2.1)

/-- At a LAST point the pieces for accumulator 0 tile the buffer (one whole-block store last), so they cover it. -/
theorem scover1_C_0 (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x128 .f32) (x1 : Vec F S1024x1 .i32) (x2 : Vec F S1024x1 .f32) (x3 : Vec F S256x128 .f32) (x4 : Vec F S1x256 .i32) (x5 : Vec F S1x256 .f32) (xs0 : Vec F S1024x1 .f32) (xs1 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).2.2.1 S1024x1.size (by sl_kernel_rfl) y

/-- What a LAST point leaves there: its pieces read back over junk. -/
def sout1_C_0 (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x128 .f32) (x1 : Vec F S1024x1 .i32) (x2 : Vec F S1024x1 .f32) (x3 : Vec F S256x128 .f32) (x4 : Vec F S1x256 .i32) (x5 : Vec F S1x256 .f32) (xs0 : Vec F S1024x1 .f32) (xs1 : Vec F S1024x1 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).2.2.1)

/-- At a LAST point the pieces for accumulator 1 tile the buffer (one whole-block store last), so they cover it. -/
theorem scover1_C_1 (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x128 .f32) (x1 : Vec F S1024x1 .i32) (x2 : Vec F S1024x1 .f32) (x3 : Vec F S256x128 .f32) (x4 : Vec F S1x256 .i32) (x5 : Vec F S1x256 .f32) (xs0 : Vec F S1024x1 .f32) (xs1 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S1024x1.size (by sl_kernel_rfl) y

/-- What a LAST point leaves there: its pieces read back over junk. -/
def sout1_C_1 (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x128 .f32) (x1 : Vec F S1024x1 .i32) (x2 : Vec F S1024x1 .f32) (x3 : Vec F S256x128 .f32) (x4 : Vec F S1x256 .i32) (x5 : Vec F S1x256 .f32) (xs0 : Vec F S1024x1 .f32) (xs1 : Vec F S1024x1 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-! ## What the outputs and the accumulators hold after each point -/

/-- A placeholder for an output's staging buffer at a point that does not store into it: nothing consults it (the
    window is idle there, neither written back nor read at the next point). -/
abbrev junk1 : Vec F S1024x1 .f32 := VO1_6.read (Elt F) VO1_6.junk

/-- ONE POINT. What the body at point `t` leaves in (output 6, output 7, accumulator 0, accumulator 1), over what
    the point before left in the accumulators (`p0`, `p1`): the case the closed forms select at `t`, run at the point's
    memrefs and input blocks. At the first point of a row the accumulators are stored whole before they are read,
    and `p0`, `p1` do not enter. -/
def step1 (c : Dev nD) (t : Fin cfg1.N) (p0 p1 : Vec F S1024x1 .f32) : Vec F S1024x1 .f32 × Vec F S1024x1 .f32 × Vec F S1024x1 .f32 × Vec F S1024x1 .f32 :=
  if h0 : t.val % 32 = 0 then
    if h1 : t.val % 32 = 31 then False.elim (by omega)
    else (junk1, junk1, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))
  else
    if h1 : t.val % 32 = 31 then (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) p0 p1, out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) p0 p1, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) p0 p1, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) p0 p1)
    else (junk1, junk1, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) p0 p1, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) p0 p1)

theorem step1_A (c : Dev nD) (t : Fin cfg1.N) (p0 p1 : Vec F S1024x1 .f32) (h0 : t.val % 32 = 0) (h1 : ¬t.val % 32 = 31) :
    step1 V c t p0 p1 = (junk1, junk1, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  unfold step1; rw [dif_pos h0, dif_neg h1]

theorem step1_B (c : Dev nD) (t : Fin cfg1.N) (p0 p1 : Vec F S1024x1 .f32) (h0 : ¬t.val % 32 = 0) (h1 : ¬t.val % 32 = 31) :
    step1 V c t p0 p1 = (junk1, junk1, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) p0 p1, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) p0 p1) := by
  unfold step1; rw [dif_neg h0, dif_neg h1]

theorem step1_C (c : Dev nD) (t : Fin cfg1.N) (p0 p1 : Vec F S1024x1 .f32) (h0 : ¬t.val % 32 = 0) (h1 : t.val % 32 = 31) :
    step1 V c t p0 p1 = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) p0 p1, out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) p0 p1, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) p0 p1, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) p0 p1) := by
  unfold step1; rw [dif_neg h0, dif_pos h1]

/-- THE ACCUMULATION. What (output 6, output 7, accumulator 0, accumulator 1) hold after the body at position `n`:
    `step1` at the point, over what `n - 1` left in the accumulators. -/
def outsAt1 (c : Dev nD) : (n : ℕ) → n < cfg1.N → Vec F S1024x1 .f32 × Vec F S1024x1 .f32 × Vec F S1024x1 .f32 × Vec F S1024x1 .f32
  | 0, hn => step1 V c ⟨0, hn⟩ junk1 junk1
  | n + 1, hn => step1 V c ⟨n + 1, hn⟩ (outsAt1 c n (Nat.lt_of_succ_lt hn)).2.2.1 (outsAt1 c n (Nat.lt_of_succ_lt hn)).2.2.2

theorem outsAt1_zero (c : Dev nD) (hn : 0 < cfg1.N) : outsAt1 V c 0 hn = step1 V c ⟨0, hn⟩ junk1 junk1 := rfl

theorem outsAt1_succ (c : Dev nD) (n : ℕ) (hn : n + 1 < cfg1.N) :
    outsAt1 V c (n + 1) hn = step1 V c ⟨n + 1, hn⟩ (outsAt1 V c n (Nat.lt_of_succ_lt hn)).2.2.1 (outsAt1 V c n (Nat.lt_of_succ_lt hn)).2.2.2 := rfl

/-- At a point that is not the grid's first: `step1` over what the point before left. -/
theorem outsAt1_pos (c : Dev nD) (t : Fin cfg1.N) (hz : t.val ≠ 0) :
    outsAt1 V c t.val t.isLt = step1 V c t (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd rfl hz
  | succ n => rfl

/-- At the first point of a row: the FIRST case's contents, whatever came before. -/
theorem outsAt1_A (c : Dev nD) (t : Fin cfg1.N) (h0 : t.val % 32 = 0) (h1 : ¬t.val % 32 = 31) :
    outsAt1 V c t.val t.isLt = (junk1, junk1, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact step1_A V c ⟨0, hn⟩ _ _ h0 h1
  | succ n => exact step1_A V c ⟨n + 1, hn⟩ _ _ h0 h1

/-- At a middle point of a row: the MIDDLE case's contents over what the point before left. -/
theorem outsAt1_B (c : Dev nD) (t : Fin cfg1.N) (h0 : ¬t.val % 32 = 0) (h1 : ¬t.val % 32 = 31) :
    outsAt1 V c t.val t.isLt = (junk1, junk1, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  rw [outsAt1_pos V c t (fun hz => h0 (by rw [hz])), step1_B V c t _ _ h0 h1]

/-- At the last point of a row: the LAST case's contents over what the point before left. -/
theorem outsAt1_C (c : Dev nD) (t : Fin cfg1.N) (h0 : ¬t.val % 32 = 0) (h1 : t.val % 32 = 31) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2, out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  rw [outsAt1_pos V c t (fun hz => h0 (by rw [hz])), step1_C V c t _ _ h0 h1]

/-! ## The region invariant -/

/-- The scoped buffers of the core that are neither this region's staging buffers nor its accumulators (the other
    region's staging buffers and accumulator), each whole at some contents. -/
def others1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The region invariant before position `n`: before the first point the class's (every scoped buffer at anything);
    afterwards the other scoped buffers at anything, the two accumulators at what the point before left in them
    (`outsAt1`'s last two components), and the generator register at some state. -/
def PhiS1 (c : Dev nD) : (n : ℕ) → n ≤ cfg1.N → sProp 𝕄
  | 0, _ => Pipeline.ΦA spec1 c
  | n + 1, hn => iprop(iprop(others1 (F := F) c ∗ owns (c : Thread nD τ) scM1_0 fullShare ((outsAt1 V c n hn).2.2.1) ∗ owns (c : Thread nD τ) scM1_1 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(others1 (F := F) c ∗ owns (c : Thread nD τ) scM1_0 fullShare ((outsAt1 V c n hn).2.2.1) ∗ owns (c : Thread nD τ) scM1_1 fullShare ((outsAt1 V c n hn).2.2.2)) ∗ (∃ r, prngReg c r)) := rfl

theorem PhiS1_pos (c : Dev nD) (n : ℕ) (h : n ≤ cfg1.N) (hz : n ≠ 0) :
    PhiS1 V c n h = iprop(iprop(others1 (F := F) c ∗ owns (c : Thread nD τ) scM1_0 fullShare ((outsAt1 V c (n - 1) (by omega)).2.2.1) ∗ owns (c : Thread nD τ) scM1_1 fullShare ((outsAt1 V c (n - 1) (by omega)).2.2.2)) ∗ (∃ r, prngReg c r)) := by
  cases n with
  | zero => exact absurd rfl hz
  | succ n => rfl

/-- The class invariant, the other region's buffers gathered. -/
theorem PhiA1_others (c : Dev nD) :
    (Pipeline.ΦA spec1 c : sProp 𝕄) ⊢ iprop(iprop(others1 (F := F) c ∗ (∃ d, owns (c : Thread nD τ) scM1_0 fullShare d) ∗ (∃ d, owns (c : Thread nD τ) scM1_1 fullShare d)) ∗ (∃ r, prngReg c r)) := by
  rw [PhiA1_eq]; unfold others1
  iintro ⟨⟨B0, B1, B2, B3, B4, B5, B6, B7, B8, B9, B10, HS0, HS1⟩, Hg⟩
  isplitr [Hg]
  · isplitr [HS0 HS1]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      iexact B10
    isplitl [HS0]; · iexact HS0
    iexact HS1
  iexact Hg

/-- … and back. -/
theorem others_PhiA1 (c : Dev nD) :
    iprop(iprop(others1 (F := F) c ∗ (∃ d, owns (c : Thread nD τ) scM1_0 fullShare d) ∗ (∃ d, owns (c : Thread nD τ) scM1_1 fullShare d)) ∗ (∃ r, prngReg c r)) ⊢ (Pipeline.ΦA spec1 c : sProp 𝕄) := by
  rw [PhiA1_eq]; unfold others1
  iintro ⟨⟨⟨B0, B1, B2, B3, B4, B5, B6, B7, B8, B9, B10⟩, HS0, HS1⟩, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [HS0]; · iexact HS0
    iexact HS1
  iexact Hg

/-- Before any point the invariant gives the accumulators at SOME contents (their named contents forgotten). -/
theorem PhiS1_any (c : Dev nD) (n : ℕ) (h : n ≤ cfg1.N) :
    PhiS1 V c n h ⊢ iprop(iprop(others1 (F := F) c ∗ (∃ d, owns (c : Thread nD τ) scM1_0 fullShare d) ∗ (∃ d, owns (c : Thread nD τ) scM1_1 fullShare d)) ∗ (∃ r, prngReg c r)) := by
  cases n with
  | zero => exact PhiA1_others c
  | succ n =>
    rw [PhiS1_succ]
    iintro ⟨⟨Hoth, HS0, HS1⟩, Hg⟩
    isplitr [Hg]
    · isplitl [Hoth]; · iexact Hoth
      isplitl [HS0]; · iexists _; iexact HS0
      iexists _; iexact HS1
    iexact Hg

/-! ## The pipeline's proof data -/

/-- The proof data of the region on core `c`: the arrays as the region finds them (`V`); after the body at point `t`
    each input's buffer at its block and the outputs' at `outsAt1`'s first two components; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point: the inputs' memrefs hold their blocks; the closed forms say which case the point is in;
    the invariant hands the body the two accumulators at what the point before left (at anything at the first point of
    a row, where they are zeroed before they are read) and takes them back at this point's contents; at the last
    point of a row the two outputs are left at what the accumulators hold, elsewhere handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val % 32 = 0
  · have h1 : ¬t.val % 32 = 31 := by omega
    rw [Dat.leavesExact_idle (dat1 V c) 6 t (idleAt1_6_N t (fun h => h1 ((hcond1_1 t).mp h))) (noFlush1_6_N t (fun h => h1 ((hcond1_1 t).mp h)))]
    rw [Dat.leavesExact_idle (dat1 V c) 7 t (idleAt1_7_N t (fun h => h1 ((hcond1_1 t).mp h))) (noFlush1_7_N t (fun h => h1 ((hcond1_1 t).mp h)))]
    rw [outsAt1_A V c t h0 h1]
    unfold sout1_A_0 sout1_A_1; (try dsimp only)
    rw [PhiS1_castSucc V c t]
    refine (Idealize.SL.BI.Laws.sep_mono_left (PhiS1_any V c _ _)).trans ?_
    iintro ⟨⟨⟨Hoth, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, ⟨%es0, HS0⟩, ⟨%es1, HS1⟩⟩
    isplitl [Hoth HS0 HS1 Hg]
    · isplitl [Hoth HS0 HS1]
      · isplitl [Hoth]; · iexact Hoth
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _ _ _ _)
        unfold owns; iexists _; isplitr
        swap; · iexact HS1
        ipureintro; exact View.read_writes_of_cover _ _ _ _ _ (scover1_A_1 c _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · have hz : t.val ≠ 0 := fun hz => h0 (by rw [hz])
    by_cases h1 : t.val % 32 = 31
    · rw [show (dat1 V c).leavesExact 6 t = owns (c : Thread nD τ) (ms1_6 t) fullShare ((dat1 V c).after 6 t) from by
        unfold Dat.leavesExact; rw [liveAt1_6_C t ((hcond1_1 t).mpr h1)], after1_6]
      rw [show (dat1 V c).leavesExact 7 t = owns (c : Thread nD τ) (ms1_7 t) fullShare ((dat1 V c).after 7 t) from by
        unfold Dat.leavesExact; rw [liveAt1_7_C t ((hcond1_1 t).mpr h1)], after1_7]
      rw [outsAt1_C V c t h0 h1]
      unfold out1_C_6 out1_C_7 sout1_C_0 sout1_C_1; (try dsimp only)
      rw [PhiS1_castSucc V c t, PhiS1_pos V c _ _ hz]
      iintro ⟨⟨⟨Hoth, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, ⟨%es0, HS0⟩, ⟨%es1, HS1⟩⟩
      isplitl [Hoth HS0 HS1 Hg]
      · isplitl [Hoth HS0 HS1]
        · isplitl [Hoth]; · iexact Hoth
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover1_C_1 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_C_6 c _ _ _ _ _ _ _ _ _ _ _ _ _ _ _ _ _ _ _ _ _ _ _ _ _ _ _ _ _ _ _)
      unfold owns; iexists _; isplitr
      swap; · iexact H7
      ipureintro; exact View.read_writes_of_cover _ _ _ _ _ (cover1_C_7 c _ _ _ _ _ _ _ _ _ _ _ _ _ _ _ _ _ _ _ _ _ _ _ _ _ _ _ _ _ _ _)
    · rw [Dat.leavesExact_idle (dat1 V c) 6 t (idleAt1_6_N t (fun h => h1 ((hcond1_1 t).mp h))) (noFlush1_6_N t (fun h => h1 ((hcond1_1 t).mp h)))]
      rw [Dat.leavesExact_idle (dat1 V c) 7 t (idleAt1_7_N t (fun h => h1 ((hcond1_1 t).mp h))) (noFlush1_7_N t (fun h => h1 ((hcond1_1 t).mp h)))]
      rw [outsAt1_B V c t h0 h1]
      unfold sout1_B_0 sout1_B_1; (try dsimp only)
      rw [PhiS1_castSucc V c t, PhiS1_pos V c _ _ hz]
      iintro ⟨⟨⟨Hoth, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [Hoth HS0 HS1 Hg]
      · isplitl [Hoth HS0 HS1]
        · isplitl [Hoth]; · iexact Hoth
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover1_B_1 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: the accumulators' named contents are forgotten. -/
theorem Phi_out1 (c : Dev nD) (t : Fin (cfg1.N + 1)) : (dat1 V c).Φ t ⊢ Pipeline.ΦA spec1 c := by
  rw [show (dat1 V c).Φ t = PhiS1 V c t.val (Nat.le_of_lt_succ t.isLt) from rfl]
  exact (PhiS1_any V c _ _).trans (others_PhiA1 c)

/-- The same after the last point. -/
theorem hout1 (c : Dev nD) : (dat1 V c).Φ (Fin.last cfg1.N) ⊢ Pipeline.ΦA spec1 c :=
  Phi_out1 V c _

end Cert.KernelIdeal.Fr

end
-- ==== Proof.KI.Run.lean ====
/-
  The whole program as five segments — the two label reshapes, the first pallas_call, the reshape of its result into a
  row, the second pallas_call, and the closing reductions and quotient — run from the launch memory to the return.

  The TensorCore's buffer contents at each boundary are a fold from the launch memory: a host stretch applies its
  operations, a pallas_call replaces its windows' arrays by what its write-backs leave. Every pipeline's proof data
  is taken at its region's entry contents; each region is entered from "every unscoped buffer at the boundary's
  contents" and left at the next boundary's. The run's post reads every unscoped buffer off the last boundary.
-/
import proofs.«176830_j37546604102166_1_alg».proof.Proof.KI.R0
import proofs.«176830_j37546604102166_1_alg».proof.Proof.KI.R1
import proofs.«176830_j37546604102166_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev Bd0 : Dev nD → Valuation τ sig (Elt F) := fun c b => (s₀ m ρ).mem ((c : Dev nD), b)
/-- After the two label reshapes (the first call's entry). -/
abbrev Bd1 : Dev nD → Valuation τ sig (Elt F) := fun c => StableHlo.after hostOps0 (Bd0 m ρ c)
abbrev Ev1 : (c : Dev nD) → (b : Ref sig .tc) → Buf (Elt F) ((c : Thread nD τ).loc b) := fun c b => Bd1 m ρ c b
/-- At the first call's exit: its arrays at what the pipeline leaves, every other buffer as entered. -/
def Bd2 (c : Dev nD) : Valuation τ sig (Elt F) :=
  Pipeline.withArrays spec0 c (Bd1 m ρ c) fun w => (dat0 (Ev1 m ρ) c).arrAt w cfg0.N
theorem W2_arr (c : Dev nD) (w : Fin cfg0.W) :
    Bd2 m ρ c (Proc.devRef .tc (Pipeline.arrRef spec0 w)) = (dat0 (Ev1 m ρ) c).arrAt w cfg0.N := by
  unfold Bd2; exact Pipeline.withArrays_arr spec0 launch0.win.arr_inj c _ _ w
theorem W2_of_ne (c : Dev nD) (b : Ref sig .tc) (hb : ∀ w, Pipeline.arrRef spec0 w ≠ b) :
    Bd2 m ρ c (Proc.devRef .tc b) = Bd1 m ρ c (Proc.devRef .tc b) := by
  unfold Bd2; exact Pipeline.withArrays_of_ne spec0 c _ _ b hb
abbrev Ev2 : (c : Dev nD) → (b : Ref sig .tc) → Buf (Elt F) ((c : Thread nD τ).loc b) := fun c b => Bd2 m ρ c b
theorem hF0 (c : Dev nD) (w : Fin cfg0.W) : (dat0 (Ev1 m ρ) c).arrAt w cfg0.N = Ev2 m ρ c (Pipeline.arrRef spec0 w) :=
  (W2_arr m ρ c w).symm
theorem hrest0 (c : Dev nD) : ∀ b, b ∉ Finset.univ.image (Pipeline.arrRef spec0) → Ev2 m ρ c b = Ev1 m ρ c b :=
  fun b hb => W2_of_ne m ρ c b fun w e => hb (Finset.mem_image.mpr ⟨w, Finset.mem_univ _, e⟩)

/-- After the row reshape of the first call's result (the second call's entry). -/
abbrev Bd3 : Dev nD → Valuation τ sig (Elt F) := fun c => StableHlo.after hostOps1 (Bd2 m ρ c)
abbrev Ev3 : (c : Dev nD) → (b : Ref sig .tc) → Buf (Elt F) ((c : Thread nD τ).loc b) := fun c b => Bd3 m ρ c b
/-- At the second call's exit. -/
def Bd4 (c : Dev nD) : Valuation τ sig (Elt F) :=
  Pipeline.withArrays spec1 c (Bd3 m ρ c) fun w => (dat1 (Ev3 m ρ) c).arrAt w cfg1.N
theorem W4_arr (c : Dev nD) (w : Fin cfg1.W) :
    Bd4 m ρ c (Proc.devRef .tc (Pipeline.arrRef spec1 w)) = (dat1 (Ev3 m ρ) c).arrAt w cfg1.N := by
  unfold Bd4; exact Pipeline.withArrays_arr spec1 launch1.win.arr_inj c _ _ w
theorem W4_of_ne (c : Dev nD) (b : Ref sig .tc) (hb : ∀ w, Pipeline.arrRef spec1 w ≠ b) :
    Bd4 m ρ c (Proc.devRef .tc b) = Bd3 m ρ c (Proc.devRef .tc b) := by
  unfold Bd4; exact Pipeline.withArrays_of_ne spec1 c _ _ b hb
abbrev Ev4 : (c : Dev nD) → (b : Ref sig .tc) → Buf (Elt F) ((c : Thread nD τ).loc b) := fun c b => Bd4 m ρ c b
theorem hF1 (c : Dev nD) (w : Fin cfg1.W) : (dat1 (Ev3 m ρ) c).arrAt w cfg1.N = Ev4 m ρ c (Pipeline.arrRef spec1 w) :=
  (W4_arr m ρ c w).symm
theorem hrest1 (c : Dev nD) : ∀ b, b ∉ Finset.univ.image (Pipeline.arrRef spec1) → Ev4 m ρ c b = Ev3 m ρ c b :=
  fun b hb => W4_of_ne m ρ c b fun w e => hb (Finset.mem_image.mpr ⟨w, Finset.mem_univ _, e⟩)
/-- After the closing reductions and the quotient: the contents at the return. -/
abbrev Bd5 : Dev nD → Valuation τ sig (Elt F) := fun c => StableHlo.after hostOps2 (Bd4 m ρ c)

/-! ## The arguments end as launched -/

theorem after_keeps (ops : List (HloOp τ sig (Elt F))) (Wl : List (Ref sig .tc))
    (hw : ops.Forall fun op => op.writes ⊆ (Wl.map (Proc.devRef (τ := τ) .tc)).toFinset)
    (X : Valuation τ sig (Elt F)) (r : Ref sig .tc) (h : r ∉ Wl) :
    StableHlo.after ops X (Proc.devRef .tc r) = X (Proc.devRef .tc r) :=
  StableHlo.after_of_writes_sub ops _ hw h

theorem W5_main_arg0 (c : Dev nD) : Bd5 m ρ c (Proc.devRef .tc main_arg0) = m ((c : Thread nD τ).loc main_arg0) :=
  calc Bd5 m ρ c (Proc.devRef .tc main_arg0)
    _ = Bd4 m ρ c (Proc.devRef .tc main_arg0) := after_keeps hostOps2 hostOps2_W hostOps2_writes _ main_arg0 (by decide)
    _ = Bd3 m ρ c (Proc.devRef .tc main_arg0) := (W4_arr m ρ c 0).trans (((dat1 (Ev3 m ρ) c).arrAt_in 0 rfl _).trans (A_eq1 (Ev3 m ρ) c 0))
    _ = Bd2 m ρ c (Proc.devRef .tc main_arg0) := after_keeps hostOps1 hostOps1_W hostOps1_writes _ main_arg0 (by decide)
    _ = Bd1 m ρ c (Proc.devRef .tc main_arg0) := (W2_arr m ρ c 0).trans (((dat0 (Ev1 m ρ) c).arrAt_in 0 rfl _).trans (A_eq0 (Ev1 m ρ) c 0))
    _ = Bd0 m ρ c (Proc.devRef .tc main_arg0) := after_keeps hostOps0 hostOps0_W hostOps0_writes _ main_arg0 (by decide)
    _ = m ((c : Thread nD τ).loc main_arg0) := rfl

theorem W5_main_arg1 (c : Dev nD) : Bd5 m ρ c (Proc.devRef .tc main_arg1) = m ((c : Thread nD τ).loc main_arg1) :=
  calc Bd5 m ρ c (Proc.devRef .tc main_arg1)
    _ = Bd4 m ρ c (Proc.devRef .tc main_arg1) := after_keeps hostOps2 hostOps2_W hostOps2_writes _ main_arg1 (by decide)
    _ = Bd3 m ρ c (Proc.devRef .tc main_arg1) := (W4_arr m ρ c 3).trans (((dat1 (Ev3 m ρ) c).arrAt_in 3 rfl _).trans (A_eq1 (Ev3 m ρ) c 3))
    _ = Bd2 m ρ c (Proc.devRef .tc main_arg1) := after_keeps hostOps1 hostOps1_W hostOps1_writes _ main_arg1 (by decide)
    _ = Bd1 m ρ c (Proc.devRef .tc main_arg1) := (W2_arr m ρ c 2).trans (((dat0 (Ev1 m ρ) c).arrAt_in 2 rfl _).trans (A_eq0 (Ev1 m ρ) c 2))
    _ = Bd0 m ρ c (Proc.devRef .tc main_arg1) := after_keeps hostOps0 hostOps0_W hostOps0_writes _ main_arg1 (by decide)
    _ = m ((c : Thread nD τ).loc main_arg1) := rfl

theorem W5_main_arg2 (c : Dev nD) : Bd5 m ρ c (Proc.devRef .tc main_arg2) = m ((c : Thread nD τ).loc main_arg2) :=
  calc Bd5 m ρ c (Proc.devRef .tc main_arg2)
    _ = Bd4 m ρ c (Proc.devRef .tc main_arg2) := after_keeps hostOps2 hostOps2_W hostOps2_writes _ main_arg2 (by decide)
    _ = Bd3 m ρ c (Proc.devRef .tc main_arg2) := W4_of_ne m ρ c main_arg2 (by decide)
    _ = Bd2 m ρ c (Proc.devRef .tc main_arg2) := after_keeps hostOps1 hostOps1_W hostOps1_writes _ main_arg2 (by decide)
    _ = Bd1 m ρ c (Proc.devRef .tc main_arg2) := W2_of_ne m ρ c main_arg2 (by decide)
    _ = Bd0 m ρ c (Proc.devRef .tc main_arg2) := after_keeps hostOps0 hostOps0_W hostOps0_writes _ main_arg2 (by decide)
    _ = m ((c : Thread nD τ).loc main_arg2) := rfl

/-! ## The proof data family and the thread state -/

abbrev admF : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admF p) c
  | ⟨0, _⟩ => fun c => dat0 (Ev1 m ρ) c
  | ⟨1, _⟩ => fun c => dat1 (Ev3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the return's contents, the generator register at some state. -/
abbrev Tₙ (c : Dev nD) : sProp 𝕄 := iprop(StableHlo.held (c : Thread nD τ) (Pipeline.ucRefs τ sig) (Bd5 m ρ c) ∗ ∃ r, prngReg c r)

/-! ## The regions as segments -/

set_option backward.isDefEq.respectTransparency.types false in
/-- Call 0 over the thread state: its arrays split out of the unscoped buffers at the entry contents and put back at the
    exit contents; the generator register and the scoped rest into the region's invariant and out; nothing owed; no
    semaphore of the kernel's own. -/
def reg0 : Pipeline.RegionSeg (pcfgs (F := F)) admF (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ev1 m ρ) c).loose
  hwaits := Pipeline.hwaits_of_owed_zero _ _ _ _ L lv 0 fun _ _ => rfl
  pre c := iprop(StableHlo.held (c : Thread nD τ) (Pipeline.ucRefs τ sig) (Bd1 m ρ c) ∗ R c)
  post c := iprop(StableHlo.held (c : Thread nD τ) (Pipeline.ucRefs τ sig) (Bd2 m ρ c) ∗ R c)
  X c := iprop(∃ r, prngReg c r)
  Y c := iprop(∃ r, prngReg c r)
  Z c := Pipeline.unscopedRest (Ix := Unit) (Name := ℕ) (U := UR sig nD τ) (Lvl := ℕ) spec0 c (Ev1 m ρ c)
  hentry c := by
    rw [Pipeline.ownSems0_none]
    have hsplit := Pipeline.arrays_of_unscopedBufs (p := 0) (pcfgs (F := F)) admF (pdats m ρ) launch0.win launch0.arr_whole c
      ((pdats m ρ 0 c).share_full fun _ => rfl) (Ev1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (Ev1 m ρ) c)
    unfold Pipeline.ΦA
    iintro ⟨Hp, -, Hr⟩
    isplitl [Hr]; · iexact Hr
    iexact Hp
  hout c := by
    rw [Pipeline.ownSems0_none]
    refine (hout0 (Ev1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdats m ρ) ((pdats m ρ 0 c).share_full fun _ => rfl)
      (Ev1 m ρ c) (Ev2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: its arrays split out of the unscoped buffers at the entry contents and put back at the
    exit contents; the generator register and the scoped rest into the region's invariant and out; nothing owed; no
    semaphore of the kernel's own. -/
def reg1 : Pipeline.RegionSeg (pcfgs (F := F)) admF (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ev3 m ρ) c).loose
  hwaits := Pipeline.hwaits_of_owed_zero _ _ _ _ L lv 1 fun _ _ => rfl
  pre c := iprop(StableHlo.held (c : Thread nD τ) (Pipeline.ucRefs τ sig) (Bd3 m ρ c) ∗ R c)
  post c := iprop(StableHlo.held (c : Thread nD τ) (Pipeline.ucRefs τ sig) (Bd4 m ρ c) ∗ R c)
  X c := iprop(∃ r, prngReg c r)
  Y c := iprop(∃ r, prngReg c r)
  Z c := Pipeline.unscopedRest (Ix := Unit) (Name := ℕ) (U := UR sig nD τ) (Lvl := ℕ) spec1 c (Ev3 m ρ c)
  hentry c := by
    rw [Pipeline.ownSems0_none]
    have hsplit := Pipeline.arrays_of_unscopedBufs (p := 1) (pcfgs (F := F)) admF (pdats m ρ) launch1.win launch1.arr_whole c
      ((pdats m ρ 1 c).share_full fun _ => rfl) (Ev3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (Ev3 m ρ) c)
    unfold Pipeline.ΦA
    iintro ⟨Hp, -, Hr⟩
    isplitl [Hr]; · iexact Hr
    iexact Hp
  hout c := by
    rw [Pipeline.ownSems0_none]
    refine (hout1 (Ev3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pdats m ρ) ((pdats m ρ 1 c).share_full fun _ => rfl)
      (Ev3 m ρ c) (Ev4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segsF : List (Pipeline.Seg (pcfgs (F := F)) admF (pdats m ρ) () defs₀ 𝒱₀ L lv) :=
  [ .host (hseg hostOps0 hostOps0_sub hostOps0_fresh (Bd0 m ρ)),
    .region (reg0 m ρ),
    .host (hseg hostOps1 hostOps1_sub hostOps1_fresh (Bd2 m ρ)),
    .region (reg1 m ρ),
    .host (hseg hostOps2 hostOps2_sub hostOps2_fresh (Bd4 m ρ)) ]

theorem main_run (c : Dev nD) : main (F := F) c = Pipeline.Seg.run (segsF m ρ) := (main_chain c).trans (by chain_rfl)

set_option backward.isDefEq.respectTransparency.types false in
/-- From any memory with zero counters every weakly fair execution of the program terminates, nothing faulting, and
    every final state holds every unscoped buffer at the return's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = Bd5 m ρ c b) :=
  Pipeline.θ_run_regions_kit (pcfgs (F := F)) admF (pdats m ρ) () cellOf_inj emb₁ defs₀ 𝒱₀ L lv m ρ main (segsF m ρ)
    (fun c Q => by rw [main_run m ρ c])
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (Bd5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd5 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd5 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_main m ρ)

end Cert.KernelIdeal.Fr

end
-- ==== Proof.LibUnitAxisCasts.lean ====
/-
  Reshapes that only add or drop a unit axis, read at an entry.

  Dropping the leading unit axis of a `[1, a, b]` array gives the `[a, b]` array whose entry `(p, c)` is the
  operand's entry `(0, p, c)`; turning an `[a]` vector into an `[a, 1]` column gives the column whose entry `(p, 0)` is
  the vector's entry `p`. Both hold because a reshape keeps every entry's row-major position.
-/
import Idealize.ShloMosaic.Lib.Pipeline.Value
import Idealize.ShloMosaic.Lib.ValueIdx

namespace Cert.LibUnitAxisCasts

open Idealize.ShloMosaic Idealize.ShloMosaic.ValueIdx

/-- `[1, a, b] → [a, b]`: entry `(p, c)` is the operand's `(0, p, c)`. -/
theorem shapeCast_1ab_ab_apply {α : Type} {a b : ℕ} (v : (⟨3, ![1, a, b]⟩ : Shape).Idx → α)
    (h : (⟨3, ![1, a, b]⟩ : Shape).ShapeCasts ⟨2, ![a, b]⟩) (p : Fin a) (c : Fin b) :
    shapeCast ⟨2, ![a, b]⟩ v h (ix2 p c) = v (ix3 (0 : Fin 1) p c) :=
  shapeCast_apply v h (ix2 p c) (ix3 (0 : Fin 1) p c) (by
    rw [Shape.rowMajor_val_three, Shape.rowMajor_val_two]
    show ((0 : ℕ) * a + p.val) * b + c.val = p.val * b + c.val
    rw [Nat.zero_mul, Nat.zero_add])

/-- `[a] → [a, 1]`: entry `(p, 0)` is the operand's `p`. -/
theorem shapeCast_a_a1_apply {α : Type} {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]
    show p.val = p.val * 1 + 0
    omega)

end Cert.LibUnitAxisCasts
-- ==== Proof.KIV.Host.lean ====
/-
  The three stretches of host operations around the two pallas_calls, read at an index, on the extended reals.

  Before the first call the label vector is reshaped into a column [8192,1] and into a row [1,8192]; between the
  calls the first call's column of row sums is reshaped into a row; after the second call the two columns it wrote are
  summed whole, and the first sum is divided by twice the second.
-/
import proofs.«176830_j37546604102166_1_alg».proof.Proof.Gen.KernelIdeal.Launch
import proofs.«176830_j37546604102166_1_alg».proof.Proof.LibUnitAxisCasts
import Idealize.ShloMosaic.Lib.StableHlo.Run
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem

variable (X : Valuation τ sig (Elt Ideal))

/-- A column [a,1] cast to a row [1,a]: entry (0, p) is the operand's (p, 0). -/
theorem shapeCast_a1_1a_apply {α : Type} {a : ℕ} (v : (⟨2, ![a, 1]⟩ : Shape).Idx → α)
    (h : (⟨2, ![a, 1]⟩ : Shape).ShapeCasts ⟨2, ![1, a]⟩) (u : Fin 1) (p : Fin a) :
    shapeCast ⟨2, ![1, a]⟩ v h (ix2 u p) = v (ix2 p (0 : Fin 1)) :=
  shapeCast_apply v h (ix2 u p) (ix2 p (0 : Fin 1)) (by
    have hu : u.val = 0 := by omega
    rw [Shape.rowMajor_val_two, Shape.rowMajor_val_two]
    show p.val * 1 + 0 = u.val * a + p.val
    rw [hu]; omega)

/-- The label column at row r is label r. -/
theorem host0_v0 (r : Fin 8192) :
    (StableHlo.after (hostOps0 (F := Ideal)) X (Proc.devRef .tc main_v0) : S8192x1.Idx → BitVec 32) (ix2 r (0 : Fin 1))
      = (X (Proc.devRef .tc main_arg2) : S8192.Idx → BitVec 32) (ix1 r) := by
  have e : (StableHlo.after (hostOps0 (F := Ideal)) X (Proc.devRef .tc main_v0) : S8192x1.Idx → BitVec 32)
      = shapeCast S8192x1 (X (Proc.devRef .tc main_arg2) : S8192.Idx → BitVec 32) shapeCasts_S8192_S8192x1 := by
    after_results; rfl
  rw [e]; exact Cert.LibUnitAxisCasts.shapeCast_a_a1_apply _ _ r

/-- The label row at column r is label r. -/
theorem host0_v1 (r : Fin 8192) :
    (StableHlo.after (hostOps0 (F := Ideal)) X (Proc.devRef .tc main_v1) : S1x8192.Idx → BitVec 32) (ix2 (0 : Fin 1) r)
      = (X (Proc.devRef .tc main_arg2) : S8192.Idx → BitVec 32) (ix1 r) := by
  have e : (StableHlo.after (hostOps0 (F := Ideal)) X (Proc.devRef .tc main_v1) : S1x8192.Idx → BitVec 32)
      = shapeCast S1x8192 (X (Proc.devRef .tc main_arg2) : S8192.Idx → BitVec 32) shapeCasts_S8192_S1x8192 := by
    after_results; rfl
  rw [e]; exact shapeCast_a_1a_apply _ _ 0 r

/-- The row of row sums at column r is the column's entry at row r. -/
theorem host1_v3 (r : Fin 8192) :
    (StableHlo.after (hostOps1 (F := Ideal)) X (Proc.devRef .tc main_v3) : S1x8192.Idx → EReal) (ix2 (0 : Fin 1) r)
      = (X (Proc.devRef .tc main_v2) : S8192x1.Idx → EReal) (ix2 r (0 : Fin 1)) := by
  have e : (StableHlo.after (hostOps1 (F := Ideal)) X (Proc.devRef .tc main_v3) : S1x8192.Idx → EReal)
      = shapeCast S1x8192 (X (Proc.devRef .tc main_v2) : S8192x1.Idx → EReal) shapeCasts_S8192x1_S1x8192 := by
    after_results; rfl
  rw [e]; exact shapeCast_a1_1a_apply _ _ 0 r

/-- The sum over the whole of a column [8192,1] is the sum over its rows. -/
theorem sum_column (x : S8192x1.Idx → EReal) : ∑ i : S8192x1.Idx, x i = ∑ r : Fin 8192, x (ix2 r (0 : Fin 1)) := by
  rw [sum_idx2]
  refine Finset.sum_congr rfl fun r _ => ?_
  rw [Fin.sum_univ_one]

/-- The second call's first output column, as the return finds it. -/
abbrev col0 : S8192x1.Idx → EReal := X (Proc.devRef .tc main_v4_0)
/-- The second call's second output column, as the return finds it. -/
abbrev col1 : S8192x1.Idx → EReal := X (Proc.devRef .tc main_v4_1)

/-- The program's result: the first column's sum over twice the second's. -/
theorem host2_v8 :
    (StableHlo.after (hostOps2 (F := Ideal)) X (Proc.devRef .tc main_v8) : S_.Idx → EReal)
      = fun _ => Ideal.div (∑ r : Fin 8192, col0 X (ix2 r (0 : Fin 1)))
          (Ideal.ofBits .f32 0x40000000#32 * ∑ r : Fin 8192, col1 X (ix2 r (0 : Fin 1))) := by
  have e : (StableHlo.after (hostOps2 (F := Ideal)) X (Proc.devRef .tc main_v8) : S_.Idx → EReal)
      = Host.divf (F := Ideal) (Host.reduceAdd (F := Ideal) (col0 X) (constant (F := Ideal) S_ .f32 0x00000000#32) reducesTo_S8192x1_S_d0_1 h_S_)
          (mulf (constant (F := Ideal) S_ .f32 0x40000000#32)
            (Host.reduceAdd (F := Ideal) (col1 X) (constant (F := Ideal) S_ .f32 0x00000000#32) reducesTo_S8192x1_S_d0_1 h_S_)) := by
    after_results
  rw [e]
  funext j
  simp only [Host.divf, Host.reduceAdd, mulf, constant, Ideal.hostDivf_def, Ideal.mulf_def, Ideal.hostReduceAdd_def, Ideal.ofBits_def,
    Ideal.ofBits_zero_f32]
  rw [Ideal.hostReduceAdd_total reducesTo_S8192x1_S_d0_1 (fun b => b.elim0), Ideal.hostReduceAdd_total reducesTo_S8192x1_S_d0_1 (fun b => b.elim0),
    zero_add, zero_add, sum_column, sum_column]

end Cert.KernelIdeal.Val

end
-- ==== Proof.KI.R0Pieces.lean ====
/-
  The first pallas_call: what each control case leaves, as the body's arithmetic. In every case the accumulator ends at
  "what it held, plus the tile's row sums over the negatives" — from zero at a row's first point, from what the point
  before left elsewhere — and at a row's last point the output block receives that same vector.
-/
import proofs.«176830_j37546604102166_1_alg».proof.Proof.KI.R0
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two-coordinate zero offset, however it is spelt. -/
theorem hz2 : (![0, 0] : Fin 2 → Nat) = fun _ => 0 := by funext a; match a with | ⟨0, _⟩ => rfl | ⟨1, _⟩ => rfl

/-- At a row's first point the accumulator ends at the tile's row sums added to zero. -/
theorem sout0_A_0_eq (c : Dev nD) (i : grid0.Coords) (arg2 : Memref sig .tc .vmem S1024x128 .f32) (harg2 : arg2.IsWhole) (arg3 : Memref sig .tc .vmem S1024x1 .i32) (harg3 : arg3.IsWhole) (arg4 : Memref sig .tc .vmem S512x128 .f32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x128 .f32) (x1 : Vec F S1024x1 .i32) (x2 : Vec F S512x128 .f32) (x3 : Vec F S1x512 .i32) :
    sout0_A_0 c i arg2 harg2 arg3 harg3 arg4 harg4 arg5 harg5 arg6 harg6 arg7 harg7 hc0 hc1 x0 x1 x2 x3 = k0_pay2 x0 x2 x1 x3 k0_pay1 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  try sl_unfold_words
  first
    | rw [View.canon_cons_unit_zero hz2]
    | rw [View.canon_unit_zero hz2]
  simp only [View.readAt_eq_ld, harg2.read_unread, harg3.read_unread, harg4.read_unread, harg5.read_unread, harg7.read_unread,
    View.ld_unit_zero (S := S1024x128) hz2, View.ld_unit_zero (S := S512x128) hz2, View.ld_unit_zero (S := S1024x1) hz2, View.ld_unit_zero (S := S1x512) hz2,
    View.readCov_unit_zero (S := S1024x1) _ hz2]

/-- At a middle point the accumulator ends at the tile's row sums added to what it held. -/
theorem sout0_B_0_eq (c : Dev nD) (i : grid0.Coords) (arg2 : Memref sig .tc .vmem S1024x128 .f32) (harg2 : arg2.IsWhole) (arg3 : Memref sig .tc .vmem S1024x1 .i32) (harg3 : arg3.IsWhole) (arg4 : Memref sig .tc .vmem S512x128 .f32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x128 .f32) (x1 : Vec F S1024x1 .i32) (x2 : Vec F S512x128 .f32) (x3 : Vec F S1x512 .i32) (xs0 : Vec F S1024x1 .f32) :
    sout0_B_0 c i arg2 harg2 arg3 harg3 arg4 harg4 arg5 harg5 arg6 harg6 arg7 harg7 hc0 hc1 x0 x1 x2 x3 xs0 = k0_pay2 x0 x2 x1 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  try sl_unfold_words
  first
    | rw [View.canon_cons_unit_zero hz2]
    | rw [View.canon_unit_zero hz2]
  simp only [View.readAt_eq_ld, harg2.read_unread, harg3.read_unread, harg4.read_unread, harg5.read_unread, harg7.read_unread,
    View.ld_unit_zero (S := S1024x128) hz2, View.ld_unit_zero (S := S512x128) hz2, View.ld_unit_zero (S := S1024x1) hz2, View.ld_unit_zero (S := S1x512) hz2,
    View.readCov_unit_zero (S := S1024x1) _ hz2]

/-- At a row's last point the accumulator ends at the tile's row sums added to what it held, -/
theorem sout0_C_0_eq (c : Dev nD) (i : grid0.Coords) (arg2 : Memref sig .tc .vmem S1024x128 .f32) (harg2 : arg2.IsWhole) (arg3 : Memref sig .tc .vmem S1024x1 .i32) (harg3 : arg3.IsWhole) (arg4 : Memref sig .tc .vmem S512x128 .f32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .f32) (x1 : Vec F S1024x1 .i32) (x2 : Vec F S512x128 .f32) (x3 : Vec F S1x512 .i32) (xs0 : Vec F S1024x1 .f32) :
    sout0_C_0 c i arg2 harg2 arg3 harg3 arg4 harg4 arg5 harg5 arg6 harg6 arg7 harg7 hc0 hc1 x0 x1 x2 x3 xs0 = k0_pay2 x0 x2 x1 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  try sl_unfold_words
  first
    | rw [View.canon_cons_unit_zero hz2]
    | rw [View.canon_unit_zero hz2]
  simp only [View.readAt_eq_ld, harg2.read_unread, harg3.read_unread, harg4.read_unread, harg5.read_unread, harg7.read_unread,
    View.ld_unit_zero (S := S1024x128) hz2, View.ld_unit_zero (S := S512x128) hz2, View.ld_unit_zero (S := S1024x1) hz2, View.ld_unit_zero (S := S1x512) hz2,
    View.readCov_unit_zero (S := S1024x1) _ hz2]

/-- and the output block receives that vector. -/
theorem out0_C_4_eq (c : Dev nD) (i : grid0.Coords) (arg2 : Memref sig .tc .vmem S1024x128 .f32) (harg2 : arg2.IsWhole) (arg3 : Memref sig .tc .vmem S1024x1 .i32) (harg3 : arg3.IsWhole) (arg4 : Memref sig .tc .vmem S512x128 .f32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .f32) (x1 : Vec F S1024x1 .i32) (x2 : Vec F S512x128 .f32) (x3 : Vec F S1x512 .i32) (xs0 : Vec F S1024x1 .f32) :
    out0_C_4 c i arg2 harg2 arg3 harg3 arg4 harg4 arg5 harg5 arg6 harg6 arg7 harg7 hc0 hc1 x0 x1 x2 x3 xs0 = k0_pay2 x0 x2 x1 x3 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  try sl_unfold_words
  first
    | rw [View.canon_cons_unit_zero hz2]
    | rw [View.canon_unit_zero hz2]
  simp only [View.readAt_eq_ld, harg2.read_unread, harg3.read_unread, harg4.read_unread, harg5.read_unread, harg7.read_unread,
    View.ld_unit_zero (S := S1024x128) hz2, View.ld_unit_zero (S := S512x128) hz2, View.ld_unit_zero (S := S1024x1) hz2, View.ld_unit_zero (S := S1x512) hz2,
    View.readCov_unit_zero (S := S1024x1) _ hz2]

end Cert.KernelIdeal.Fr

end
-- ==== Proof.LibColumnBroadcast.lean ====
/-
  A column spread over many columns, read at an entry.

  A `vector.broadcast` of an `[a, 1]` array to `[a, b]` repeats the one column `b` times: the entry at row `p` and column
  `c` is the column's entry at row `p`, whatever `c`. (The companion of the row form `[1, b] → [a, b]`; it is what a
  reduction that keeps its axis, or a bias turned into a column, is spread back with.)
-/
import Idealize.ShloMosaic.Lib.Pipeline.Value
import Idealize.ShloMosaic.Lib.ValueIdx

namespace Cert.LibColumnBroadcast

open Idealize.ShloMosaic Idealize.ShloMosaic.ValueIdx

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.LibPlainMatmul.lean ====
/-
  A plain matrix product read at an entry.

  For the dimension numbers "contract the left operand's second axis with the right operand's first" an `[M, K]` by
  `[K, N]` product, accumulated into a zero array, has at row `p` and column `c` the entry
  `∑ k, W p k · X k c` over the extended reals: the contraction position is its one coordinate `k`, the left operand is
  read at `(p, k)` and the right one at `(k, c)`. The same reading holds of a host `dot_general` with those dimension
  numbers, which has no accumulator.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

variable (M K N : ℕ)

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction position. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction positions, re-indexed by the one coordinate. -/
theorem sum_contr {φ₁ φ₂ : FTy} (W : FVec Ideal ⟨2, ![M, K]⟩ φ₁) (X : FVec Ideal ⟨2, ![K, N]⟩ φ₂) (p : Fin M) (c : Fin N) :
    (∑ q : (DotDims.plain M K N).contr.Idx,
        W ((DotDims.plain M K N).lhsIdx (ix2 p c) q) * X ((DotDims.plain M K N).rhsIdx (ix2 p c) q))
      = ∑ k : Fin K, W (ix2 p k) * X (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_row M K N _ _).trans hk
      | ⟨1, _⟩ => exact rhs_col M K N _ _)
  rw [el, er]

/-- A kernel's matrix product into a zero accumulator, at an entry. -/
theorem matmul_zero_apply {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, W (ix2 p k) * X (ix2 k c) := by
  simp only [matmul]
  rw [Ideal.matmul_constant_zero_apply]
  exact sum_contr M K N W X p c

/-- The same with each product's factors swapped: the form in which a product computed in a transposed layout
    (`W · Xᵀ` laid out as features by batch) meets the row-major product `X · Wᵀ`. -/
theorem matmul_zero_apply_comm {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, X (ix2 k c) * W (ix2 p k) := by
  rw [matmul_zero_apply]
  exact Finset.sum_congr rfl fun k _ => mul_comm _ _

/-- A host product, at an entry. -/
theorem dotGeneral_apply {φ₁ φ₂ : FTy} (prec : Option ContractPrecision) (W : FVec Ideal ⟨2, ![M, K]⟩ φ₁)
    (X : FVec Ideal ⟨2, ![K, N]⟩ φ₂) (p : Fin M) (c : Fin N) :
    Host.dotGeneral (DotDims.plain M K N) prec W X (ix2 p c) = ∑ k : Fin K, W (ix2 p k) * X (ix2 k c) := by
  simp only [Host.dotGeneral]
  rw [Ideal.dotGeneral_apply]
  exact sum_contr M K N W X p c

end Cert.LibPlainMatmul

end
-- ==== Proof.Spec.lean ====
/-
  The quantity both programs compute, as one function of the two embedding matrices a, b : [8192, 128] and the
  label vector lab : [8192], on the extended reals.

  sim i j      = Σ_k a(i,k) · b(j,k)                               (the pairwise similarity)
  negSum i     = Σ_j [lab i ≠ lab j] · exp(1 + sim i j)            (row i's sum over its negatives)
  hingeSq i j  = max(log(negSum i + negSum j) − sim i j, 0)²
  total        = Σ_i Σ_j [lab i = lab j ∧ i ≠ j] · hingeSq i j     (over the ordered positive pairs)
  count        = Σ_i Σ_j [lab i = lab j ∧ i ≠ j] · 1
  loss         = total / (2 · count)

  The literals 1 and 2 are kept as the binary words the programs spell (the same word on both sides is never
  evaluated); the additive unit is the extended reals' 0.
-/
import Idealize.ShloMosaic.PureOps.Ideal
import Idealize.ShloMosaic.Lib.ValueIdx

noncomputable section

open scoped BigOperators

namespace Cert.PairLoss

open Idealize.ShloMosaic Idealize.ShloMosaic.ValueIdx

/-- An [8192, 128] matrix of extended reals. -/
abbrev Mat : Type := (⟨2, ![8192, 128]⟩ : Shape).Idx → EReal
/-- A vector of 8192 label words. -/
abbrev Lab : Type := (⟨1, ![8192]⟩ : Shape).Idx → BitVec 32

/-- The word both programs spell for 1.0. -/
abbrev one : EReal := Ideal.ofBits .f32 0x3F800000#32
/-- The word both programs spell for 2.0. -/
abbrev two : EReal := Ideal.ofBits .f32 0x40000000#32

variable (a b : Mat) (lab : Lab)

/-- The similarity of row i of a and row j of b. -/
def sim (i j : Fin 8192) : EReal := ∑ k : Fin 128, a (ix2 i k) * b (ix2 j k)

/-- Column j's contribution to row i's sum over negatives. -/
def negTerm (i j : Fin 8192) : EReal :=
  if lab (ix1 i) = lab (ix1 j) then 0 else Ideal.exp (one + sim a b i j)

/-- Row i's sum over its negatives. -/
def negSum (i : Fin 8192) : EReal := ∑ j : Fin 8192, negTerm a b lab i j

/-- (i, j) is an ordered positive pair: equal labels, different positions. -/
def pos (i j : Fin 8192) : Prop := lab (ix1 i) = lab (ix1 j) ∧ i ≠ j

instance (i j : Fin 8192) : Decidable (pos lab i j) := by unfold pos; infer_instance

/-- The squared hinge of the pair (i, j). -/
def hingeSq (i j : Fin 8192) : EReal :=
  max (Ideal.log (negSum a b lab i + negSum a b lab j) - sim a b i j) 0
    * max (Ideal.log (negSum a b lab i + negSum a b lab j) - sim a b i j) 0

/-- The pair's term of the total. -/
def pairTerm (i j : Fin 8192) : EReal := if pos lab i j then hingeSq a b lab i j else 0

/-- The pair's term of the count. -/
def pairOne (i j : Fin 8192) : EReal := if pos lab i j then 1 else 0

/-- Row i's part of the total. -/
def rowTotal (i : Fin 8192) : EReal := ∑ j : Fin 8192, pairTerm a b lab i j
/-- Row i's part of the count. -/
def rowCount (i : Fin 8192) : EReal := ∑ j : Fin 8192, pairOne lab i j

def total : EReal := ∑ i : Fin 8192, rowTotal a b lab i
def count : EReal := ∑ i : Fin 8192, rowCount lab i

/-- The loss. -/
def loss : EReal := Ideal.div (total a b lab) (two * count lab)

end Cert.PairLoss

end
-- ==== Proof.KIV.R0Pay.lean ====
/-
  The first call's tile payload read at a row, over the extended reals: the accumulator's entry plus the sum over
  the tile's 512 columns of exp(1 + a_p · b_q) where the labels of row p and column q differ (0 where they agree).
-/
import proofs.«176830_j37546604102166_1_alg».proof.Proof.Gen.KernelIdeal.Skeleton
import proofs.«176830_j37546604102166_1_alg».proof.Proof.LibColumnBroadcast
import proofs.«176830_j37546604102166_1_alg».proof.Proof.LibUnitAxisCasts
import proofs.«176830_j37546604102166_1_alg».proof.Proof.LibPlainMatmul
import proofs.«176830_j37546604102166_1_alg».proof.Proof.Spec
import Idealize.ShloMosaic.Lib.ValueLayout
import Idealize.ShloMosaic.Lib.Affine
import Idealize.ShloMosaic.PureOps.Ideal.Laws

noncomputable section

open scoped BigOperators

namespace Cert.KernelIdeal.Val

open Cert.KernelIdeal Cert.KernelIdeal.Gen Idealize.ShloMosaic Idealize.ShloMosaic.ValueIdx

/-- A select on the complement of an equality bit is the `if` on the equality, branches swapped. -/
theorem select_xor_eq {α : Type} (x y : BitVec 32) (A B : α) :
    Scalar.select (IntOp.xori (IntOp.cmpi .eq x y) 1#1) A B = if x = y then B else A := by
  by_cases h : x = y
  · rw [if_pos h, (IntOp.cmpi_eq).2 h, show IntOp.xori 1#1 1#1 = 0#1 from by decide, select_zero]
  · rw [if_neg h, eq_zero_of_ne_one (fun e => h (IntOp.cmpi_eq.1 e)), show IntOp.xori 0#1 1#1 = 1#1 from by decide,
      select_one]

/-- The sum over the lanes of a [1024, 512] tile, at row p, is the sum over the 512 columns of the row's entries. -/
theorem lane_sum (src : FVec Ideal S1024x512 .f32) (hφ : FKind.Formats .f32)
    (hacc : (0x00000000#32 : BitVec 32) = FKind.add.neutral .f32 hφ) (p : Fin 1024) :
    multiReduction .add [1] S1024 src 0x00000000#32 reduces_S1024x512_S1024 hφ hacc (ix1 p)
      = ∑ q : Fin 512, src (ix2 p q) := by
  refine (Ideal.multiReduction_add_single src _ reduces_S1024x512_S1024 hφ hacc (ix1 p)).trans ?_
  refine Finset.sum_congr rfl fun q _ => congrArg src ?_
  funext d
  refine Fin.ext ?_
  match d with
  | ⟨0, _⟩ => rfl
  | ⟨1, _⟩ => rfl

/-- The tile payload at row p. -/
theorem k0_pay2_apply (v3 : Vec Ideal S1024x128 .f32) (v4 : Vec Ideal S512x128 .f32) (v7 : Vec Ideal S1024x1 .i32)
    (v9 : Vec Ideal S1x512 .i32) (v15 : Vec Ideal S1024x1 .f32) (p : Fin 1024) :
    k0_pay2 (F := Ideal) v3 v4 v7 v9 v15 (ix2 p (0 : Fin 1))
      = v15 (ix2 p (0 : Fin 1)) + ∑ q : Fin 512,
          (if v7 (ix2 p (0 : Fin 1)) = v9 (ix2 (0 : Fin 1) q) then 0
            else Ideal.exp (Cert.PairLoss.one + ∑ k : Fin 128, v3 (ix2 p k) * v4 (ix2 q k))) := by
  unfold k0_pay2
  simp only [shapeCast_self]
  rw [addf_apply, Cert.LibUnitAxisCasts.shapeCast_a_a1_apply]
  refine congrArg (v15 (ix2 p (0 : Fin 1)) + ·) ((lane_sum _ _ _ p).trans (Finset.sum_congr rfl fun q _ => ?_))
  simp only [select, xori, cmpi, constantI, exp, addf, broadcast]
  rw [Cert.LibColumnBroadcast.broadcastTo_a1_ab_apply, broadcastTo_1b_ab_apply, select_xor_eq]
  rw [show dot_S1024x128_S128x512_S1024x512_1_0_0_1_n_n = DotDims.plain 1024 128 512 from rfl,
    Cert.LibPlainMatmul.matmul_zero_apply]
  simp only [Ideal.ofBits_def, Ideal.ofBits_zero_f32, Ideal.exp_def, Ideal.addf_def]
  refine if_congr Iff.rfl rfl (congrArg Ideal.exp (congrArg (Cert.PairLoss.one + ·) (Finset.sum_congr rfl fun k _ => ?_)))
  exact congrArg (v3 (ix2 p k) * ·) (transpose_ix2_apply (a := 512) (b := 128) v4 _ k q)

/-- The zero payload the accumulator is started from reads 0 everywhere. -/
theorem k0_pay1_apply (j : S1024x1.Idx) : k0_pay1 (F := Ideal) j = 0 := by
  unfold k0_pay1
  simp only [shapeCast_self, broadcast, Ideal.ofBits_def, Ideal.ofBits_zero_f32]

end Cert.KernelIdeal.Val

end
-- ==== Proof.KIV.R0Blocks.lean ====
/-
  The first call's input blocks read at an entry. The grid is 8 row blocks of 1024 by 16 column blocks of 512, the
  linear point t being 16 · (row block) + (column block). At point t the a-block and the label column are rows
  1024 · (t / 16) + p of their arrays, the b-block and the label row are rows (columns) 512 · (t % 16) + q of theirs:
  a block's entry sits, on each axis, at block index × block size + its own coordinate.
-/
import proofs.«176830_j37546604102166_1_alg».proof.Proof.KI.R0
import Idealize.ShloMosaic.Lib.ValueIdx

noncomputable section

open scoped BigOperators

namespace Cert.KernelIdeal.Val

open Cert.KernelIdeal Cert.KernelIdeal.Gen Idealize.ShloMosaic Idealize.ShloMosaic.ValueIdx

open Cert.KernelIdeal.Fr Idealize.ShloMosaic.TcCoe

variable (V : (c : Dev nD) → (b : Ref sig .tc) → Buf (Elt Ideal) ((c : Thread nD τ).loc b))

/-- The windows' block indices over the grid, in closed form. -/
theorem idx_facts0 : ∀ t : Fin cfg0.N,
    win0_0.index t (0 : Fin 2) = t.val / 16 ∧ win0_0.index t (1 : Fin 2) = 0
    ∧ win0_1.index t (0 : Fin 2) = t.val / 16 ∧ win0_1.index t (1 : Fin 2) = 0
    ∧ win0_2.index t (0 : Fin 2) = t.val % 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = 0 :=
  (by decide +kernel : ∀ t : Fin grid0.N, _)

/-- The a-block at point t, entry (p, k), is a's entry (1024 · (t / 16) + p, k). -/
theorem iblk0_0_apply (c : Dev nD) (t : Fin cfg0.N) (x : S1024x128.Idx) (k : S8192x128.Idx)
    (hk0 : (k 0).val = 1024 * (t.val / 16) + (x 0).val) (hk1 : (k 1).val = (x 1).val) :
    (iblk0 V c 0 t : Vec Ideal S1024x128 .f32) x = (V c main_arg0 : S8192x128.Idx → EReal) k := by
  obtain ⟨e0, e1, -⟩ := idx_facts0 t
  unfold iblk0
  rw [View.read_apply]
  show V c main_arg0 _ = V c main_arg0 _
  refine congrArg (V c main_arg0) ?_
  funext a
  apply Fin.ext
  match a with
  | ⟨0, _⟩ => show win0_0.index t 0 * 1024 + 1 * (x 0).val = (k 0).val; rw [e0, hk0]; omega
  | ⟨1, _⟩ => show win0_0.index t 1 * 128 + 1 * (x 1).val = (k 1).val; rw [e1, hk1]; omega

/-- The label column's block at point t, entry (p, 0), is the column's entry (1024 · (t / 16) + p, 0). -/
theorem iblk0_1_apply (c : Dev nD) (t : Fin cfg0.N) (x : S1024x1.Idx) (k : S8192x1.Idx)
    (hk0 : (k 0).val = 1024 * (t.val / 16) + (x 0).val) (hk1 : (k 1).val = (x 1).val) :
    (iblk0 V c 1 t : Vec Ideal S1024x1 .i32) x = (V c main_v0 : S8192x1.Idx → BitVec 32) k := by
  obtain ⟨-, -, e0, e1, -⟩ := idx_facts0 t
  unfold iblk0
  rw [View.read_apply]
  show V c main_v0 _ = V c main_v0 _
  refine congrArg (V c main_v0) ?_
  funext a
  apply Fin.ext
  match a with
  | ⟨0, _⟩ => show win0_1.index t 0 * 1024 + 1 * (x 0).val = (k 0).val; rw [e0, hk0]; omega
  | ⟨1, _⟩ => show win0_1.index t 1 * 1 + 1 * (x 1).val = (k 1).val; rw [e1, hk1]; omega

/-- The b-block at point t, entry (q, k), is b's entry (512 · (t % 16) + q, k). -/
theorem iblk0_2_apply (c : Dev nD) (t : Fin cfg0.N) (x : S512x128.Idx) (k : S8192x128.Idx)
    (hk0 : (k 0).val = 512 * (t.val % 16) + (x 0).val) (hk1 : (k 1).val = (x 1).val) :
    (iblk0 V c 2 t : Vec Ideal S512x128 .f32) x = (V c main_arg1 : S8192x128.Idx → EReal) k := by
  obtain ⟨-, -, -, -, e0, e1, -⟩ := idx_facts0 t
  unfold iblk0
  rw [View.read_apply]
  show V c main_arg1 _ = V c main_arg1 _
  refine congrArg (V c main_arg1) ?_
  funext a
  apply Fin.ext
  match a with
  | ⟨0, _⟩ => show win0_2.index t 0 * 512 + 1 * (x 0).val = (k 0).val; rw [e0, hk0]; omega
  | ⟨1, _⟩ => show win0_2.index t 1 * 128 + 1 * (x 1).val = (k 1).val; rw [e1, hk1]; omega

/-- The label row's block at point t, entry (0, q), is the row's entry (0, 512 · (t % 16) + q). -/
theorem iblk0_3_apply (c : Dev nD) (t : Fin cfg0.N) (x : S1x512.Idx) (k : S1x8192.Idx)
    (hk0 : (k 0).val = (x 0).val) (hk1 : (k 1).val = 512 * (t.val % 16) + (x 1).val) :
    (iblk0 V c 3 t : Vec Ideal S1x512 .i32) x = (V c main_v1 : S1x8192.Idx → BitVec 32) k := by
  obtain ⟨-, -, -, -, -, -, e0, e1, -⟩ := idx_facts0 t
  unfold iblk0
  rw [View.read_apply]
  show V c main_v1 _ = V c main_v1 _
  refine congrArg (V c main_v1) ?_
  funext a
  apply Fin.ext
  match a with
  | ⟨0, _⟩ => show win0_3.index t 0 * 1 + 1 * (x 0).val = (k 0).val; rw [e0, hk0]; omega
  | ⟨1, _⟩ => show win0_3.index t 1 * 512 + 1 * (x 1).val = (k 1).val; rw [e1, hk1]; omega

end Cert.KernelIdeal.Val

end
-- ==== Proof.KIV.NegRange.lean ====
/-
  Row sums over the negatives, regrouped by column tiles. A row's sum over all 8192 columns is built up 512 columns
  at a time: after the first j + 1 tiles it is the sum over the columns below 512 · (j + 1), and after all 16 it is the
  whole row's sum. Columns are counted by natural numbers here so that a partial sum is a sum over an initial
  segment; on the extended reals addition is commutative and associative, which is all the regrouping uses.
-/
import proofs.«176830_j37546604102166_1_alg».proof.Proof.Spec

noncomputable section

open scoped BigOperators

namespace Cert.PairLoss

open Idealize.ShloMosaic Idealize.ShloMosaic.ValueIdx

variable (a b : Mat) (lab : Lab)

/-- Column r's contribution to row i's sum, for natural i and r (0 outside the matrix). -/
def negN (i r : ℕ) : EReal :=
  if h : i < 8192 ∧ r < 8192 then negTerm a b lab ⟨i, h.1⟩ ⟨r, h.2⟩ else 0

theorem negN_of_lt (i r : ℕ) (hi : i < 8192) (hr : r < 8192) :
    negN a b lab i r = negTerm a b lab ⟨i, hi⟩ ⟨r, hr⟩ := dif_pos ⟨hi, hr⟩

/-- One more tile of 512 columns extends the initial segment by 512. -/
theorem negN_acc_step (i j : ℕ) :
    ∑ r ∈ Finset.range (512 * j), negN a b lab i r + ∑ q : Fin 512, negN a b lab i (512 * j + q.val)
      = ∑ r ∈ Finset.range (512 * (j + 1)), negN a b lab i r := by
  rw [Fin.sum_univ_eq_sum_range (fun r => negN a b lab i (512 * j + r)) 512,
    show 512 * (j + 1) = 512 * j + 512 from by ring, Finset.sum_range_add]

/-- The first tile alone. -/
theorem negN_acc_first (i : ℕ) :
    (0 : EReal) + ∑ q : Fin 512, negN a b lab i (512 * 0 + q.val) = ∑ r ∈ Finset.range (512 * (0 + 1)), negN a b lab i r := by
  rw [← negN_acc_step a b lab i 0, show 512 * 0 = 0 from rfl, Finset.range_zero, Finset.sum_empty]

/-- All 16 tiles: the whole row's sum. -/
theorem negN_full (i : ℕ) (hi : i < 8192) :
    ∑ r ∈ Finset.range (512 * 16), negN a b lab i r = negSum a b lab ⟨i, hi⟩ := by
  unfold negSum
  rw [show 512 * 16 = 8192 from rfl, ← Fin.sum_univ_eq_sum_range (fun r => negN a b lab i r) 8192]
  exact Finset.sum_congr rfl fun r _ => negN_of_lt a b lab i r.val hi r.isLt

end Cert.PairLoss

end
-- ==== Proof.KIV.R0Acc.lean ====
/-
  The first call's accumulator, point by point. At point t = 16 · ib + j, in row p of the block, the tile adds to
  the accumulator the contributions of columns 512 · j … 512 · j + 511 to row 1024 · ib + p's sum over its negatives;
  the accumulator starts from zero at j = 0. So after point t it holds, at row p, the sum over the columns below
  512 · (j + 1): by induction on the point. (The label column and the label row of the kernel both list the labels.)
-/
import proofs.«176830_j37546604102166_1_alg».proof.Proof.KI.R0Pieces
import proofs.«176830_j37546604102166_1_alg».proof.Proof.KIV.R0Pay
import proofs.«176830_j37546604102166_1_alg».proof.Proof.KIV.R0Blocks
import proofs.«176830_j37546604102166_1_alg».proof.Proof.KIV.NegRange

noncomputable section

open scoped BigOperators

namespace Cert.KernelIdeal.Val

open Cert.KernelIdeal Cert.KernelIdeal.Gen Idealize.ShloMosaic Idealize.ShloMosaic.ValueIdx

open Cert.KernelIdeal.Fr Idealize.ShloMosaic.TcCoe Cert.PairLoss

variable (V : (c : Dev nD) → (b : Ref sig .tc) → Buf (Elt Ideal) ((c : Thread nD τ).loc b)) (c : Dev nD) (lab : Lab)

/-- The tile at point t adds, in row p, the contributions of its 512 columns to the row's sum over its negatives. -/
theorem tile0_apply (hcol : ∀ r : Fin 8192, V c main_v0 (ix2 r (0 : Fin 1)) = lab (ix1 r))
    (hrow : ∀ r : Fin 8192, V c main_v1 (ix2 (0 : Fin 1) r) = lab (ix1 r))
    (t : Fin cfg0.N) (p : Fin 1024) (xs : Vec Ideal S1024x1 .f32) :
    k0_pay2 (F := Ideal) (iblk0 V c 0 t) (iblk0 V c 2 t) (iblk0 V c 1 t) (iblk0 V c 3 t) xs (ix2 p (0 : Fin 1))
      = xs (ix2 p (0 : Fin 1)) + ∑ q : Fin 512,
          negN (V c main_arg0) (V c main_arg1) lab (1024 * (t.val / 16) + p.val) (512 * (t.val % 16) + q.val) := by
  have hN : t.val < 128 := t.isLt
  refine (k0_pay2_apply (iblk0 V c 0 t) (iblk0 V c 2 t) (iblk0 V c 1 t) (iblk0 V c 3 t) xs p).trans ?_
  refine congrArg (xs (ix2 p (0 : Fin 1)) + ·) (Finset.sum_congr rfl fun q _ => ?_)
  have hi : 1024 * (t.val / 16) + p.val < 8192 := by have := p.isLt; omega
  have hr : 512 * (t.val % 16) + q.val < 8192 := by have := q.isLt; omega
  rw [negN_of_lt _ _ _ _ _ hi hr]
  unfold negTerm sim
  have e1 := iblk0_1_apply V c t (ix2 p (0 : Fin 1)) (ix2 ⟨1024 * (t.val / 16) + p.val, hi⟩ (0 : Fin 1)) rfl rfl
  have e3 := iblk0_3_apply V c t (ix2 (0 : Fin 1) q) (ix2 (0 : Fin 1) ⟨512 * (t.val % 16) + q.val, hr⟩) rfl rfl
  rw [e1, e3, hcol, hrow]
  refine if_congr Iff.rfl rfl (congrArg Ideal.exp (congrArg (one + ·) (Finset.sum_congr rfl fun k _ => ?_)))
  have e0 := iblk0_0_apply V c t (ix2 p k) (ix2 ⟨1024 * (t.val / 16) + p.val, hi⟩ k) rfl rfl
  have e2 := iblk0_2_apply V c t (ix2 q k) (ix2 ⟨512 * (t.val % 16) + q.val, hr⟩ k) rfl rfl
  rw [e0, e2]

/-- At a row's first point the accumulator is the first tile's sums. -/
theorem acc0_first (hcol : ∀ r : Fin 8192, V c main_v0 (ix2 r (0 : Fin 1)) = lab (ix1 r))
    (hrow : ∀ r : Fin 8192, V c main_v1 (ix2 (0 : Fin 1) r) = lab (ix1 r))
    (t : Fin cfg0.N) (h0 : t.val % 16 = 0) (p : Fin 1024) :
    (outsAt0 V c t.val t.isLt).2 (ix2 p (0 : Fin 1))
      = ∑ r ∈ Finset.range (512 * (t.val % 16 + 1)), negN (V c main_arg0) (V c main_arg1) lab (1024 * (t.val / 16) + p.val) r := by
  have h1 : ¬t.val % 16 = 15 := by omega
  rw [outsAt0_A V c t h0 h1]
  dsimp only
  rw [sout0_A_0_eq]
  refine (tile0_apply V c lab hcol hrow t p (k0_pay1 (F := Ideal))).trans ?_
  rw [k0_pay1_apply, h0]
  exact negN_acc_first _ _ _ _

/-- At a later point of a row the accumulator grows by the tile's sums. -/
theorem acc0_next (hcol : ∀ r : Fin 8192, V c main_v0 (ix2 r (0 : Fin 1)) = lab (ix1 r))
    (hrow : ∀ r : Fin 8192, V c main_v1 (ix2 (0 : Fin 1) r) = lab (ix1 r))
    (t : Fin cfg0.N) (h0 : ¬t.val % 16 = 0) (p : Fin 1024)
    (ih : (outsAt0 V c (t.val - 1) (Nat.lt_of_le_of_lt (Nat.sub_le _ _) t.isLt)).2 (ix2 p (0 : Fin 1))
      = ∑ r ∈ Finset.range (512 * ((t.val - 1) % 16 + 1)),
          negN (V c main_arg0) (V c main_arg1) lab (1024 * ((t.val - 1) / 16) + p.val) r) :
    (outsAt0 V c t.val t.isLt).2 (ix2 p (0 : Fin 1))
      = ∑ r ∈ Finset.range (512 * (t.val % 16 + 1)), negN (V c main_arg0) (V c main_arg1) lab (1024 * (t.val / 16) + p.val) r := by
  have ea : (t.val - 1) % 16 + 1 = t.val % 16 := by omega
  have eb : (t.val - 1) / 16 = t.val / 16 := by omega
  rw [ea, eb] at ih
  by_cases h1 : t.val % 16 = 15
  · rw [outsAt0_C V c t h0 h1]
    dsimp only
    rw [sout0_C_0_eq]
    refine (tile0_apply V c lab hcol hrow t p _).trans ?_
    rw [ih]
    exact negN_acc_step _ _ _ _ _
  · rw [outsAt0_B V c t h0 h1]
    dsimp only
    rw [sout0_B_0_eq]
    refine (tile0_apply V c lab hcol hrow t p _).trans ?_
    rw [ih]
    exact negN_acc_step _ _ _ _ _

/-- After point n the accumulator holds, in row p, the sum over the columns below 512 · (n % 16 + 1) of the
    contributions to row 1024 · (n / 16) + p. -/
theorem acc0_eq (hcol : ∀ r : Fin 8192, V c main_v0 (ix2 r (0 : Fin 1)) = lab (ix1 r))
    (hrow : ∀ r : Fin 8192, V c main_v1 (ix2 (0 : Fin 1) r) = lab (ix1 r)) :
    ∀ (n : ℕ) (hn : n < cfg0.N) (p : Fin 1024), (outsAt0 V c n hn).2 (ix2 p (0 : Fin 1))
      = ∑ r ∈ Finset.range (512 * (n % 16 + 1)), negN (V c main_arg0) (V c main_arg1) lab (1024 * (n / 16) + p.val) r
  | 0, hn, p => acc0_first V c lab hcol hrow ⟨0, hn⟩ rfl p
  | n + 1, hn, p => by
    by_cases h0 : (n + 1) % 16 = 0
    · exact acc0_first V c lab hcol hrow ⟨n + 1, hn⟩ h0 p
    · exact acc0_next V c lab hcol hrow ⟨n + 1, hn⟩ h0 p (acc0_eq hcol hrow n (Nat.lt_of_succ_lt hn) p)

/-- At a row's last point the output block's buffer holds what the accumulator holds. -/
theorem out0_last (t : Fin cfg0.N) (h1 : t.val % 16 = 15) :
    (outsAt0 V c t.val t.isLt).1 = (outsAt0 V c t.val t.isLt).2 := by
  have h0 : ¬t.val % 16 = 0 := by omega
  rw [outsAt0_C V c t h0 h1]
  dsimp only
  rw [out0_C_4_eq, sout0_C_0_eq]

end Cert.KernelIdeal.Val

end
-- ==== Proof.KIV.R0Value.lean ====
/-
  The first call's output array after the run: entry (r, 0) is row r's sum over its negatives. The output block is
  written back at the last point of each grid row, 16 · ib + 15, where the accumulator holds the sums over all
  8192 columns of rows 1024 · ib … 1024 · ib + 1023; the eight write-backs cover the [8192, 1] array.
-/
import proofs.«176830_j37546604102166_1_alg».proof.Proof.KIV.R0Acc
import Idealize.ShloMosaic.Lib.Pipeline.Value

noncomputable section

open scoped BigOperators

namespace Cert.KernelIdeal.Val

open Cert.KernelIdeal Cert.KernelIdeal.Gen Idealize.ShloMosaic Idealize.ShloMosaic.ValueIdx

open Cert.KernelIdeal.Fr Idealize.ShloMosaic.TcCoe Cert.PairLoss
open Idealize.ShloMosaic.Pipeline (Dat)

variable (V : (c : Dev nD) → (b : Ref sig .tc) → Buf (Elt Ideal) ((c : Thread nD τ).loc b)) (c : Dev nD) (lab : Lab)

/-- What the last point of grid row ib writes back is rows 1024 · ib … of the row sums. -/
theorem flushed0_4_eq (hcol : ∀ r : Fin 8192, V c main_v0 (ix2 r (0 : Fin 1)) = lab (ix1 r))
    (hrow : ∀ r : Fin 8192, V c main_v1 (ix2 (0 : Fin 1) r) = lab (ix1 r))
    (t : Fin cfg0.N) (hf : (cfg0.win 4).flush t = true) :
    (dat0 (F := Ideal) V c).flushed 4 t
      = ((cfg0.win 4).blk t).view.read (Elt Ideal) (fun y => negSum (V c main_arg0) (V c main_arg1) lab (y 0)) := by
  have h15 : t.val % 16 = 15 := (flush0_4 t).mp hf
  have hN : t.val < 128 := t.isLt
  obtain ⟨-, -, -, -, -, -, -, -, e0, e1⟩ := idx_facts0 t
  show (cfg0.win 4).cut (grid0.coords t) ((dat0 V c).after 4 t) = _
  rw [after0_4, out0_last V c t h15]
  funext j
  have hj0 : (j 0).val < 1024 := (j 0).isLt
  have hj1 : (j 1).val < 1 := (j 1).isLt
  rw [View.read_apply]
  show (outsAt0 V c t.val t.isLt).2 ((cfg0.win 4).xinj (grid0.coords t) j)
    = negSum (V c main_arg0) (V c main_arg1) lab ((((cfg0.win 4).blk t).view.emb j) 0)
  have hx : (cfg0.win 4).xinj (grid0.coords t) j = ix2 (⟨(j 0).val, hj0⟩ : Fin 1024) (0 : Fin 1) := by
    funext a
    apply Fin.ext
    match a with
    | ⟨0, _⟩ => rfl
    | ⟨1, _⟩ => show (j 1).val = 0; omega
  have hi : 1024 * (t.val / 16) + (j 0).val < 8192 := by omega
  rw [hx, acc0_eq V c lab hcol hrow t.val t.isLt ⟨(j 0).val, hj0⟩, h15, negN_full _ _ _ _ hi]
  refine congrArg (negSum (V c main_arg0) (V c main_arg1) lab) (Fin.ext ?_)
  show 1024 * (t.val / 16) + (j 0).val = win0_4.index t 0 * 1024 + 1 * (j 0).val
  rw [e0]; omega

/-- Every row of the output array is in the block some grid row's last point writes back. -/
theorem cover0_4 (i : S8192x1.Idx) :
    ∃ t : Fin cfg0.N, (cfg0.win 4).flush t = true ∧ i ∈ ((cfg0.win 4).blk t).view.set := by
  have hi0 : (i 0).val < 8192 := (i 0).isLt
  have hi1 : (i 1).val < 1 := (i 1).isLt
  have ht : 16 * ((i 0).val / 1024) + 15 < cfg0.N := by show _ < 128; omega
  have h15 : (16 * ((i 0).val / 1024) + 15) % 16 = 15 := by omega
  have hd : (16 * ((i 0).val / 1024) + 15) / 16 = (i 0).val / 1024 := by omega
  refine ⟨⟨16 * ((i 0).val / 1024) + 15, ht⟩, (flush0_4 _).mpr h15, ?_⟩
  obtain ⟨-, -, -, -, -, -, -, -, e0, e1⟩ := idx_facts0 ⟨16 * ((i 0).val / 1024) + 15, ht⟩
  show i ∈ ((View.whole main_v2).slice (win0_4.rect ⟨16 * ((i 0).val / 1024) + 15, ht⟩)).set
  rw [View.set_slice_whole, Rect.mem_set_unit]
  intro a
  match a with
  | ⟨0, _⟩ =>
    show win0_4.index ⟨16 * ((i 0).val / 1024) + 15, ht⟩ 0 * 1024 ≤ (i 0).val
      ∧ (i 0).val < win0_4.index ⟨16 * ((i 0).val / 1024) + 15, ht⟩ 0 * 1024 + 1024
    rw [e0]; dsimp only; rw [hd]; omega
  | ⟨1, _⟩ =>
    show win0_4.index ⟨16 * ((i 0).val / 1024) + 15, ht⟩ 1 * 1 ≤ (i 1).val
      ∧ (i 1).val < win0_4.index ⟨16 * ((i 0).val / 1024) + 15, ht⟩ 1 * 1 + 1
    rw [e1]; omega

/-- The first call's output array ends holding the row sums over the negatives. -/
theorem arrAt0_4 (hcol : ∀ r : Fin 8192, V c main_v0 (ix2 r (0 : Fin 1)) = lab (ix1 r))
    (hrow : ∀ r : Fin 8192, V c main_v1 (ix2 (0 : Fin 1) r) = lab (ix1 r)) :
    (dat0 (F := Ideal) V c).arrAt 4 cfg0.N
      = fun y => Cert.PairLoss.negSum (V c main_arg0) (V c main_arg1) lab (y 0) :=
  (dat0 (F := Ideal) V c).arrAt_eq_of_cover 4 _ (flushed0_4_eq V c lab hcol hrow) (cover0_4)

end Cert.KernelIdeal.Val

end
-- ==== Proof.KI.R1Pieces.lean ====
/-
  The second pallas_call: what each control case leaves, as the body's arithmetic. In every case accumulator 0 ends at
  "what it held, plus the tile's row sums of the squared hinges under the pair mask" and accumulator 1 at "what it
  held, plus the tile's row counts of the pair mask" — from zero at a row's first point, from what the point before left
  elsewhere — and at a row's last point the two output blocks receive those same vectors.
-/
import proofs.«176830_j37546604102166_1_alg».proof.Proof.KI.R1
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two-coordinate zero offset, however it is spelt. -/
theorem hz1_2 : (![0, 0] : Fin 2 → Nat) = fun _ => 0 := by funext a; match a with | ⟨0, _⟩ => rfl | ⟨1, _⟩ => rfl

/-- At a row's first point accumulator 0 ends at the tile's masked row sums of squared hinges added to zero. -/
theorem sout1_A_0_eq (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond1_0 i) (hc1 : ¬cond1_1 i)
    (x0 : Vec F S1024x128 .f32) (x1 : Vec F S1024x1 .i32) (x2 : Vec F S1024x1 .f32) (x3 : Vec F S256x128 .f32) (x4 : Vec F S1x256 .i32) (x5 : Vec F S1x256 .f32) :
    sout1_A_0 c i arg2 harg2 arg3 harg3 arg4 harg4 arg5 harg5 arg6 harg6 arg7 harg7 arg8 harg8 arg9 harg9 arg10 harg10 arg11 harg11 hc0 hc1 x0 x1 x2 x3 x4 x5 = k1_pay1 (k1_pay5 i x1 x4) (k1_pay6 x0 x3 x2 x5) (Scalar.ofBits .f32 0x00000000#32) k1_pay3 := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 hc0 hc1 x0 x1 x2 x3 x4 x5)]
  unfold kernelRun1_A
  dsimp only
  try sl_unfold_words
  first
    | rw [View.canon_cons_unit_zero hz1_2]
    | rw [View.canon_unit_zero hz1_2]
  simp only [View.readAt_eq_ld, harg2.read_unread, harg3.read_unread, harg4.read_unread, harg5.read_unread, harg6.read_unread, harg7.read_unread, harg10.read_unread, harg11.read_unread,
    View.ld_unit_zero (S := S1024x128) hz1_2, View.ld_unit_zero (S := S256x128) hz1_2, View.ld_unit_zero (S := S1024x1) hz1_2, View.ld_unit_zero (S := S1x256) hz1_2,
    View.readCov_unit_zero (S := S1024x1) _ hz1_2]

/-- At a row's first point accumulator 1 ends at the tile's row counts of the mask added to zero. -/
theorem sout1_A_1_eq (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond1_0 i) (hc1 : ¬cond1_1 i)
    (x0 : Vec F S1024x128 .f32) (x1 : Vec F S1024x1 .i32) (x2 : Vec F S1024x1 .f32) (x3 : Vec F S256x128 .f32) (x4 : Vec F S1x256 .i32) (x5 : Vec F S1x256 .f32) :
    sout1_A_1 c i arg2 harg2 arg3 harg3 arg4 harg4 arg5 harg5 arg6 harg6 arg7 harg7 arg8 harg8 arg9 harg9 arg10 harg10 arg11 harg11 hc0 hc1 x0 x1 x2 x3 x4 x5 = k1_pay2 (k1_pay5 i x1 x4) k1_pay4 := by
  unfold sout1_A_1
  rw [View.read_writes_eq_canon _ _ _ (scover1_A_1 c i arg2 harg2 arg3 harg3 arg4 harg4 arg5 harg5 arg6 harg6 arg7 harg7 arg8 harg8 arg9 harg9 arg10 harg10 arg11 harg11 hc0 hc1 x0 x1 x2 x3 x4 x5)]
  unfold kernelRun1_A
  dsimp only
  try sl_unfold_words
  first
    | rw [View.canon_cons_unit_zero hz1_2]
    | rw [View.canon_unit_zero hz1_2]
  simp only [View.readAt_eq_ld, harg2.read_unread, harg3.read_unread, harg4.read_unread, harg5.read_unread, harg6.read_unread, harg7.read_unread, harg10.read_unread, harg11.read_unread,
    View.ld_unit_zero (S := S1024x128) hz1_2, View.ld_unit_zero (S := S256x128) hz1_2, View.ld_unit_zero (S := S1024x1) hz1_2, View.ld_unit_zero (S := S1x256) hz1_2,
    View.readCov_unit_zero (S := S1024x1) _ hz1_2]

/-- At a middle point accumulator 0 ends at the tile's masked row sums added to what it held. -/
theorem sout1_B_0_eq (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : ¬cond1_1 i)
    (x0 : Vec F S1024x128 .f32) (x1 : Vec F S1024x1 .i32) (x2 : Vec F S1024x1 .f32) (x3 : Vec F S256x128 .f32) (x4 : Vec F S1x256 .i32) (x5 : Vec F S1x256 .f32) (xs0 : Vec F S1024x1 .f32) (xs1 : Vec F S1024x1 .f32) :
    sout1_B_0 c i arg2 harg2 arg3 harg3 arg4 harg4 arg5 harg5 arg6 harg6 arg7 harg7 arg8 harg8 arg9 harg9 arg10 harg10 arg11 harg11 hc0 hc1 x0 x1 x2 x3 x4 x5 xs0 xs1 = k1_pay1 (k1_pay5 i x1 x4) (k1_pay6 x0 x3 x2 x5) (Scalar.ofBits .f32 0x00000000#32) xs0 := by
  unfold sout1_B_0
  rw [View.read_writes_eq_canon _ _ _ (scover1_B_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun1_B
  dsimp only
  try sl_unfold_words
  first
    | rw [View.canon_cons_unit_zero hz1_2]
    | rw [View.canon_unit_zero hz1_2]
  simp only [View.readAt_eq_ld, harg2.read_unread, harg3.read_unread, harg4.read_unread, harg5.read_unread, harg6.read_unread, harg7.read_unread, harg10.read_unread, harg11.read_unread,
    View.ld_unit_zero (S := S1024x128) hz1_2, View.ld_unit_zero (S := S256x128) hz1_2, View.ld_unit_zero (S := S1024x1) hz1_2, View.ld_unit_zero (S := S1x256) hz1_2,
    View.readCov_unit_zero (S := S1024x1) _ hz1_2]

/-- At a middle point accumulator 1 ends at the tile's row counts added to what it held. -/
theorem sout1_B_1_eq (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : ¬cond1_1 i)
    (x0 : Vec F S1024x128 .f32) (x1 : Vec F S1024x1 .i32) (x2 : Vec F S1024x1 .f32) (x3 : Vec F S256x128 .f32) (x4 : Vec F S1x256 .i32) (x5 : Vec F S1x256 .f32) (xs0 : Vec F S1024x1 .f32) (xs1 : Vec F S1024x1 .f32) :
    sout1_B_1 c i arg2 harg2 arg3 harg3 arg4 harg4 arg5 harg5 arg6 harg6 arg7 harg7 arg8 harg8 arg9 harg9 arg10 harg10 arg11 harg11 hc0 hc1 x0 x1 x2 x3 x4 x5 xs0 xs1 = k1_pay2 (k1_pay5 i x1 x4) xs1 := by
  unfold sout1_B_1
  rw [View.read_writes_eq_canon _ _ _ (scover1_B_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun1_B
  dsimp only
  try sl_unfold_words
  first
    | rw [View.canon_cons_unit_zero hz1_2]
    | rw [View.canon_unit_zero hz1_2]
  simp only [View.readAt_eq_ld, harg2.read_unread, harg3.read_unread, harg4.read_unread, harg5.read_unread, harg6.read_unread, harg7.read_unread, harg10.read_unread, harg11.read_unread,
    View.ld_unit_zero (S := S1024x128) hz1_2, View.ld_unit_zero (S := S256x128) hz1_2, View.ld_unit_zero (S := S1024x1) hz1_2, View.ld_unit_zero (S := S1x256) hz1_2,
    View.readCov_unit_zero (S := S1024x1) _ hz1_2]

/-- At a row's last point accumulator 0 ends at the tile's masked row sums added to what it held, -/
theorem sout1_C_0_eq (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x128 .f32) (x1 : Vec F S1024x1 .i32) (x2 : Vec F S1024x1 .f32) (x3 : Vec F S256x128 .f32) (x4 : Vec F S1x256 .i32) (x5 : Vec F S1x256 .f32) (xs0 : Vec F S1024x1 .f32) (xs1 : Vec F S1024x1 .f32) :
    sout1_C_0 c i arg2 harg2 arg3 harg3 arg4 harg4 arg5 harg5 arg6 harg6 arg7 harg7 arg8 harg8 arg9 harg9 arg10 harg10 arg11 harg11 hc0 hc1 x0 x1 x2 x3 x4 x5 xs0 xs1 = k1_pay1 (k1_pay5 i x1 x4) (k1_pay6 x0 x3 x2 x5) (Scalar.ofBits .f32 0x00000000#32) xs0 := by
  unfold sout1_C_0
  rw [View.read_writes_eq_canon _ _ _ (scover1_C_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun1_C
  dsimp only
  try sl_unfold_words
  first
    | rw [View.canon_cons_unit_zero hz1_2]
    | rw [View.canon_unit_zero hz1_2]
  simp only [View.readAt_eq_ld, harg2.read_unread, harg3.read_unread, harg4.read_unread, harg5.read_unread, harg6.read_unread, harg7.read_unread, harg10.read_unread, harg11.read_unread,
    View.ld_unit_zero (S := S1024x128) hz1_2, View.ld_unit_zero (S := S256x128) hz1_2, View.ld_unit_zero (S := S1024x1) hz1_2, View.ld_unit_zero (S := S1x256) hz1_2,
    View.readCov_unit_zero (S := S1024x1) _ hz1_2]

/-- accumulator 1 at the tile's row counts added to what it held, -/
theorem sout1_C_1_eq (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x128 .f32) (x1 : Vec F S1024x1 .i32) (x2 : Vec F S1024x1 .f32) (x3 : Vec F S256x128 .f32) (x4 : Vec F S1x256 .i32) (x5 : Vec F S1x256 .f32) (xs0 : Vec F S1024x1 .f32) (xs1 : Vec F S1024x1 .f32) :
    sout1_C_1 c i arg2 harg2 arg3 harg3 arg4 harg4 arg5 harg5 arg6 harg6 arg7 harg7 arg8 harg8 arg9 harg9 arg10 harg10 arg11 harg11 hc0 hc1 x0 x1 x2 x3 x4 x5 xs0 xs1 = k1_pay2 (k1_pay5 i x1 x4) xs1 := by
  unfold sout1_C_1
  rw [View.read_writes_eq_canon _ _ _ (scover1_C_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun1_C
  dsimp only
  try sl_unfold_words
  first
    | rw [View.canon_cons_unit_zero hz1_2]
    | rw [View.canon_unit_zero hz1_2]
  simp only [View.readAt_eq_ld, harg2.read_unread, harg3.read_unread, harg4.read_unread, harg5.read_unread, harg6.read_unread, harg7.read_unread, harg10.read_unread, harg11.read_unread,
    View.ld_unit_zero (S := S1024x128) hz1_2, View.ld_unit_zero (S := S256x128) hz1_2, View.ld_unit_zero (S := S1024x1) hz1_2, View.ld_unit_zero (S := S1x256) hz1_2,
    View.readCov_unit_zero (S := S1024x1) _ hz1_2]

/-- and output 6's block receives accumulator 0's vector, -/
theorem out1_C_6_eq (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x128 .f32) (x1 : Vec F S1024x1 .i32) (x2 : Vec F S1024x1 .f32) (x3 : Vec F S256x128 .f32) (x4 : Vec F S1x256 .i32) (x5 : Vec F S1x256 .f32) (xs0 : Vec F S1024x1 .f32) (xs1 : Vec F S1024x1 .f32) :
    out1_C_6 c i arg2 harg2 arg3 harg3 arg4 harg4 arg5 harg5 arg6 harg6 arg7 harg7 arg8 harg8 arg9 harg9 arg10 harg10 arg11 harg11 hc0 hc1 x0 x1 x2 x3 x4 x5 xs0 xs1 = k1_pay1 (k1_pay5 i x1 x4) (k1_pay6 x0 x3 x2 x5) (Scalar.ofBits .f32 0x00000000#32) xs0 := by
  unfold out1_C_6
  rw [View.read_writes_eq_canon _ _ _ (cover1_C_6 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun1_C
  dsimp only
  try sl_unfold_words
  first
    | rw [View.canon_cons_unit_zero hz1_2]
    | rw [View.canon_unit_zero hz1_2]
  simp only [View.readAt_eq_ld, harg2.read_unread, harg3.read_unread, harg4.read_unread, harg5.read_unread, harg6.read_unread, harg7.read_unread, harg10.read_unread, harg11.read_unread,
    View.ld_unit_zero (S := S1024x128) hz1_2, View.ld_unit_zero (S := S256x128) hz1_2, View.ld_unit_zero (S := S1024x1) hz1_2, View.ld_unit_zero (S := S1x256) hz1_2,
    View.readCov_unit_zero (S := S1024x1) _ hz1_2]

/-- output 7's block accumulator 1's. -/
theorem out1_C_7_eq (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S256x128 .f32) (harg5 : arg5.IsWhole) (arg6 : Memref sig .tc .vmem S1x256 .i32) (harg6 : arg6.IsWhole) (arg7 : Memref sig .tc .vmem S1x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x128 .f32) (x1 : Vec F S1024x1 .i32) (x2 : Vec F S1024x1 .f32) (x3 : Vec F S256x128 .f32) (x4 : Vec F S1x256 .i32) (x5 : Vec F S1x256 .f32) (xs0 : Vec F S1024x1 .f32) (xs1 : Vec F S1024x1 .f32) :
    out1_C_7 c i arg2 harg2 arg3 harg3 arg4 harg4 arg5 harg5 arg6 harg6 arg7 harg7 arg8 harg8 arg9 harg9 arg10 harg10 arg11 harg11 hc0 hc1 x0 x1 x2 x3 x4 x5 xs0 xs1 = k1_pay2 (k1_pay5 i x1 x4) xs1 := by
  unfold out1_C_7
  rw [View.read_writes_eq_canon _ _ _ (cover1_C_7 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun1_C
  dsimp only
  try sl_unfold_words
  first
    | rw [View.canon_cons_unit_zero hz1_2]
    | rw [View.canon_unit_zero hz1_2]
  simp only [View.readAt_eq_ld, harg2.read_unread, harg3.read_unread, harg4.read_unread, harg5.read_unread, harg6.read_unread, harg7.read_unread, harg10.read_unread, harg11.read_unread,
    View.ld_unit_zero (S := S1024x128) hz1_2, View.ld_unit_zero (S := S256x128) hz1_2, View.ld_unit_zero (S := S1024x1) hz1_2, View.ld_unit_zero (S := S1x256) hz1_2,
    View.readCov_unit_zero (S := S1024x1) _ hz1_2]

end Cert.KernelIdeal.Fr

end
-- ==== Proof.KI.R1Step.lean ====
/-
  The second pallas_call, point by point: what the two accumulators hold after a point is the body's arithmetic applied to
  the point's input blocks and to what the point before left (zero at the first point of a row of the grid); at the last
  point of a row the two output blocks hold what the accumulators hold.
-/
import proofs.«176830_j37546604102166_1_alg».proof.Proof.KI.R1Pieces

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Accumulator 0 after point `t`: the tile's masked row sums of squared hinges added to zero at the first point of a
    row, to what the point before left elsewhere. -/
theorem outsAt1_sc0 (c : Dev nD) (t : Fin cfg1.N) :
    (outsAt1 V c t.val t.isLt).2.2.1
      = k1_pay1 (k1_pay5 (grid1.coords t) (iblk1 V c 1 t) (iblk1 V c 4 t)) (k1_pay6 (iblk1 V c 0 t) (iblk1 V c 3 t) (iblk1 V c 2 t) (iblk1 V c 5 t)) (Scalar.ofBits .f32 0x00000000#32)
          (if t.val % 32 = 0 then k1_pay3 else (outsAt1 V c (t.val - 1) (Nat.lt_of_le_of_lt (Nat.sub_le _ _) t.isLt)).2.2.1) := by
  by_cases h0 : t.val % 32 = 0
  · have h1 : ¬t.val % 32 = 31 := by omega
    rw [if_pos h0, outsAt1_A V c t h0 h1]; dsimp only
    exact sout1_A_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)
  · rw [if_neg h0]
    by_cases h1 : t.val % 32 = 31
    · rw [outsAt1_C V c t h0 h1]; dsimp only
      exact sout1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2
    · rw [outsAt1_B V c t h0 h1]; dsimp only
      exact sout1_B_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2

/-- Accumulator 1 after point `t`: the tile's row counts of the pair mask added to zero at the first point of a row, to
    what the point before left elsewhere. -/
theorem outsAt1_sc1 (c : Dev nD) (t : Fin cfg1.N) :
    (outsAt1 V c t.val t.isLt).2.2.2
      = k1_pay2 (k1_pay5 (grid1.coords t) (iblk1 V c 1 t) (iblk1 V c 4 t))
          (if t.val % 32 = 0 then k1_pay4 else (outsAt1 V c (t.val - 1) (Nat.lt_of_le_of_lt (Nat.sub_le _ _) t.isLt)).2.2.2) := by
  by_cases h0 : t.val % 32 = 0
  · have h1 : ¬t.val % 32 = 31 := by omega
    rw [if_pos h0, outsAt1_A V c t h0 h1]; dsimp only
    exact sout1_A_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)
  · rw [if_neg h0]
    by_cases h1 : t.val % 32 = 31
    · rw [outsAt1_C V c t h0 h1]; dsimp only
      exact sout1_C_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2
    · rw [outsAt1_B V c t h0 h1]; dsimp only
      exact sout1_B_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2

/-- At the last point of a row output 6's block holds what accumulator 0 holds, -/
theorem outsAt1_out6 (c : Dev nD) (t : Fin cfg1.N) (h1 : t.val % 32 = 31) :
    (outsAt1 V c t.val t.isLt).1 = (outsAt1 V c t.val t.isLt).2.2.1 := by
  have h0 : ¬t.val % 32 = 0 := by omega
  rw [outsAt1_C V c t h0 h1]; dsimp only
  exact (out1_C_6_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2).trans (sout1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2).symm

/-- and output 7's block what accumulator 1 holds. -/
theorem outsAt1_out7 (c : Dev nD) (t : Fin cfg1.N) (h1 : t.val % 32 = 31) :
    (outsAt1 V c t.val t.isLt).2.1 = (outsAt1 V c t.val t.isLt).2.2.2 := by
  have h0 : ¬t.val % 32 = 0 := by omega
  rw [outsAt1_C V c t h0 h1]; dsimp only
  exact (out1_C_7_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2).trans (sout1_C_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.1 (outsAt1 V c (t.val - 1) (Nat.lt_of_le_of_lt (Nat.sub_le _ _) t.isLt)).2.2.2).symm

end Cert.KernelIdeal.Fr

end
-- ==== Proof.KIV.R1Pay.lean ====
/-
  The second call's tile payloads read at an entry, over the extended reals: the pair mask of the tile at (p, q) says
  "equal labels, different positions"; the squared hinge at (p, q) is max(log(v_p + v_q) − a_p · b_q, 0)²; the two
  accumulators receive, at row p, the sum over the tile's 256 columns of the masked squared hinges, resp. of the mask.
-/
import proofs.«176830_j37546604102166_1_alg».proof.Proof.Gen.KernelIdeal.Skeleton
import proofs.«176830_j37546604102166_1_alg».proof.Proof.LibColumnBroadcast
import proofs.«176830_j37546604102166_1_alg».proof.Proof.LibUnitAxisCasts
import proofs.«176830_j37546604102166_1_alg».proof.Proof.LibPlainMatmul
import proofs.«176830_j37546604102166_1_alg».proof.Proof.Spec
import Idealize.ShloMosaic.Lib.ValueLayout
import Idealize.ShloMosaic.Lib.Affine
import Idealize.ShloMosaic.PureOps.Ideal.Laws

noncomputable section

open scoped BigOperators

namespace Cert.KernelIdeal.Val

open Cert.KernelIdeal Cert.KernelIdeal.Gen Idealize.ShloMosaic Idealize.ShloMosaic.ValueIdx

/-- The sum over the lanes of a [1024, 256] tile, at row p, is the sum over the 256 columns of the row's entries. -/
theorem lane_sum1 (src : FVec Ideal S1024x256 .f32) (hφ : FKind.Formats .f32)
    (hacc : (0x00000000#32 : BitVec 32) = FKind.add.neutral .f32 hφ) (p : Fin 1024) :
    multiReduction .add [1] S1024 src 0x00000000#32 reduces_S1024x256_S1024 hφ hacc (ix1 p)
      = ∑ q : Fin 256, src (ix2 p q) := by
  refine (Ideal.multiReduction_add_single src _ reduces_S1024x256_S1024 hφ hacc (ix1 p)).trans ?_
  refine Finset.sum_congr rfl fun q _ => congrArg src ?_
  funext d
  refine Fin.ext ?_
  match d with
  | ⟨0, _⟩ => rfl
  | ⟨1, _⟩ => rfl

/-- A global position built as "block number times block extent plus offset" from numbers that keep it below 2³²
    is that number as a word. -/
theorem pos_word (b e o : ℕ) (h : b * e + o < 4294967296) :
    IntOp.addi (Scalar.muli (BitVec.ofNat 32 b) (BitVec.ofNat 32 e)) (BitVec.ofNat 32 o) = BitVec.ofNat 32 (b * e + o) := by
  apply BitVec.eq_of_toNat_eq
  simp only [IntOp.addi, Scalar.muli, IntOp.muli, BitVec.toNat_add, BitVec.toNat_mul, BitVec.toNat_ofNat]
  have hb : b * e < 4294967296 := by omega
  rw [Nat.mod_eq_of_lt (show b * e + o < 2 ^ 32 from h)]
  rw [← Nat.mul_mod, Nat.mod_eq_of_lt (show b * e < 2 ^ 32 from hb)]
  have ho : o < 2 ^ 32 := by omega
  rw [Nat.mod_eq_of_lt ho, Nat.mod_eq_of_lt (show b * e + o < 2 ^ 32 from h)]

/-- Two words of numbers below 2³² are equal exactly when the numbers are. -/
theorem ofNat_inj_of_lt (a b : ℕ) (ha : a < 4294967296) (hb : b < 4294967296) :
    BitVec.ofNat 32 a = BitVec.ofNat 32 b ↔ a = b := by
  constructor
  · intro h
    have := congrArg BitVec.toNat h
    simpa only [BitVec.toNat_ofNat, Nat.mod_eq_of_lt (show a < 2 ^ 32 from ha), Nat.mod_eq_of_lt (show b < 2 ^ 32 from hb)] using this
  · intro h; rw [h]

/-- A select on "equal words and NOT equal positions" is the `if` on that conjunction. -/
theorem select_mask {α : Type} (x y u v : BitVec 32) (A B : α) :
    Scalar.select (IntOp.andi (IntOp.cmpi .eq x y) (IntOp.xori (IntOp.cmpi .eq u v) 1#1)) A B
      = if x = y ∧ u ≠ v then A else B := by
  by_cases h : x = y <;> by_cases h' : u = v
  · rw [if_neg (fun hh => hh.2 h'), (IntOp.cmpi_eq).2 h, (IntOp.cmpi_eq).2 h',
      show IntOp.andi 1#1 (IntOp.xori 1#1 1#1) = 0#1 from by decide, select_zero]
  · rw [if_pos ⟨h, h'⟩, (IntOp.cmpi_eq).2 h, eq_zero_of_ne_one (fun e => h' (IntOp.cmpi_eq.1 e)),
      show IntOp.andi 1#1 (IntOp.xori 0#1 1#1) = 1#1 from by decide, select_one]
  · rw [if_neg (fun hh => h hh.1), eq_zero_of_ne_one (fun e => h (IntOp.cmpi_eq.1 e)), (IntOp.cmpi_eq).2 h',
      show IntOp.andi 0#1 (IntOp.xori 1#1 1#1) = 0#1 from by decide, select_zero]
  · rw [if_neg (fun hh => h hh.1), eq_zero_of_ne_one (fun e => h (IntOp.cmpi_eq.1 e)),
      eq_zero_of_ne_one (fun e => h' (IntOp.cmpi_eq.1 e)),
      show IntOp.andi 0#1 (IntOp.xori 0#1 1#1) = 0#1 from by decide, select_zero]

/-- The tile's pair mask at (p, q), as the two comparisons it is made of. -/
theorem pay5_apply (i : grid1.Coords) (v7 : Vec Ideal S1024x1 .i32) (v9 : Vec Ideal S1x256 .i32) (p : Fin 1024) (q : Fin 256) :
    k1_pay5 (F := Ideal) i v7 v9 (ix2 p q)
      = IntOp.andi (IntOp.cmpi .eq (v7 (ix2 p (0 : Fin 1))) (v9 (ix2 (0 : Fin 1) q)))
          (IntOp.xori (IntOp.cmpi .eq (BitVec.ofNat 32 ((i 0).val * 1024 + p.val)) (BitVec.ofNat 32 ((i 1).val * 256 + q.val))) 1#1) := by
  unfold k1_pay5
  simp only [shapeCast_self]
  simp only [andi, xori, cmpi, constantI, addi, broadcast]
  rw [Cert.LibColumnBroadcast.broadcastTo_a1_ab_apply, broadcastTo_1b_ab_apply, iota_single_apply, iota_single_apply]
  have h0 := (i 0).isLt
  have h1 := (i 1).isLt
  have e0 := pos_word (i 0).val 1024 p.val (by have := p.isLt; have : (i 0).val < 8 := h0; omega)
  have e1 := pos_word (i 1).val 256 q.val (by have := q.isLt; have : (i 1).val < 32 := h1; omega)
  exact congrArg₂ (fun a b => IntOp.andi _ (IntOp.xori (IntOp.cmpi .eq a b) 1#1)) e0 e1

/-- The tile's squared hinge at (p, q). -/
theorem pay6_apply (v3 : Vec Ideal S1024x128 .f32) (v4 : Vec Ideal S256x128 .f32) (v25 : Vec Ideal S1024x1 .f32)
    (v27 : Vec Ideal S1x256 .f32) (p : Fin 1024) (q : Fin 256) :
    k1_pay6 (F := Ideal) v3 v4 v25 v27 (ix2 p q)
      = max (Ideal.log (v25 (ix2 p (0 : Fin 1)) + v27 (ix2 (0 : Fin 1) q)) - ∑ k : Fin 128, v3 (ix2 p k) * v4 (ix2 q k)) 0
          * max (Ideal.log (v25 (ix2 p (0 : Fin 1)) + v27 (ix2 (0 : Fin 1) q)) - ∑ k : Fin 128, v3 (ix2 p k) * v4 (ix2 q k)) 0 := by
  unfold k1_pay6
  simp only [shapeCast_self]
  rw [mulf_apply, maximumf_apply, subf_apply]
  simp only [log, addf, broadcast]
  rw [Cert.LibColumnBroadcast.broadcastTo_a1_ab_apply, broadcastTo_1b_ab_apply]
  rw [show dot_S1024x128_S128x256_S1024x256_1_0_0_1_n_n = DotDims.plain 1024 128 256 from rfl,
    Cert.LibPlainMatmul.matmul_zero_apply]
  simp only [Ideal.ofBits_def, Ideal.ofBits_zero_f32, Ideal.log_def, Ideal.addf_def]
  have e : (∑ k : Fin 128, v3 (ix2 p k) * transpose S128x256 [1, 0] v4 transposes_S256x128_p1_0_S128x256 (ix2 k q))
      = ∑ k : Fin 128, v3 (ix2 p k) * v4 (ix2 q k) :=
    Finset.sum_congr rfl fun k _ => congrArg (v3 (ix2 p k) * ·) (transpose_ix2_apply (a := 256) (b := 128) v4 _ k q)
  rw [e]

/-- Accumulator 0's payload at row p: what it held plus the masked squared hinges of the tile's row. -/
theorem pay1_apply (M : IVec S1024x256 1) (H : FVec Ideal S1024x256 .f32) (v39 : Vec Ideal S1024x1 .f32) (p : Fin 1024) :
    k1_pay1 (F := Ideal) M H (Scalar.ofBits .f32 0x00000000#32) v39 (ix2 p (0 : Fin 1))
      = v39 (ix2 p (0 : Fin 1)) + ∑ q : Fin 256, Scalar.select (M (ix2 p q)) (H (ix2 p q)) 0 := by
  unfold k1_pay1
  simp only [shapeCast_self]
  rw [addf_apply, Cert.LibUnitAxisCasts.shapeCast_a_a1_apply]
  refine congrArg (v39 (ix2 p (0 : Fin 1)) + ·) ((lane_sum1 _ _ _ p).trans (Finset.sum_congr rfl fun q _ => ?_))
  simp only [select, broadcast]
  exact congrArg (Scalar.select (M (ix2 p q)) (H (ix2 p q)))
    (show Scalar.ofBits (F := Ideal) .f32 0x00000000#32 = (0 : EReal) from Ideal.ofBits_zero_f32)

/-- Accumulator 1's payload at row p: what it held plus the number of mask bits set in the tile's row. -/
theorem pay2_apply (M : IVec S1024x256 1) (v46 : Vec Ideal S1024x1 .f32) (p : Fin 1024) :
    k1_pay2 (F := Ideal) M v46 (ix2 p (0 : Fin 1))
      = v46 (ix2 p (0 : Fin 1)) + ∑ q : Fin 256, Scalar.select (M (ix2 p q)) (1 : EReal) 0 := by
  unfold k1_pay2
  simp only [shapeCast_self]
  rw [addf_apply, Cert.LibUnitAxisCasts.shapeCast_a_a1_apply]
  refine congrArg (v46 (ix2 p (0 : Fin 1)) + ·) ((lane_sum1 _ _ _ p).trans (Finset.sum_congr rfl fun q _ => ?_))
  simp only [sitofp, extui]
  by_cases h : M (ix2 p q) = 1#1
  · rw [h, select_one]
    show FloatOps.sitofp (F := Ideal) .f32 ((1#1 : BitVec 1).setWidth 32) = 1
    show (((((1#1 : BitVec 1).setWidth 32).toInt : ℤ) : ℝ) : EReal) = 1
    rw [show ((1#1 : BitVec 1).setWidth 32).toInt = 1 from by decide]; simp
  · rw [eq_zero_of_ne_one h, select_zero]
    show (((((0#1 : BitVec 1).setWidth 32).toInt : ℤ) : ℝ) : EReal) = 0
    rw [show ((0#1 : BitVec 1).setWidth 32).toInt = 0 from by decide]; simp

/-- The zero payloads the accumulators are started from read 0 everywhere. -/
theorem pay3_apply (j : S1024x1.Idx) : k1_pay3 (F := Ideal) j = 0 := by
  unfold k1_pay3
  simp only [shapeCast_self, broadcast, Ideal.ofBits_def, Ideal.ofBits_zero_f32]

theorem pay4_apply (j : S1024x1.Idx) : k1_pay4 (F := Ideal) j = 0 := by
  unfold k1_pay4
  simp only [shapeCast_self, broadcast, Ideal.ofBits_def, Ideal.ofBits_zero_f32]

end Cert.KernelIdeal.Val

end
-- ==== Proof.KIV.R1Blocks.lean ====
/-
  The second call's input blocks read at an entry. The grid is 8 row blocks of 1024 by 32 column blocks of 256, the
  linear point t being 32 · (row block) + (column block). At point t the a-block, the label column and the first call's
  result column are rows 1024 · (t / 32) + p of their arrays; the b-block, the label row and the first call's result row
  are rows (columns) 256 · (t % 32) + q of theirs: a block's entry sits, on each axis, at block index × block size + its
  own coordinate.
-/
import proofs.«176830_j37546604102166_1_alg».proof.Proof.KI.R1
import Idealize.ShloMosaic.Lib.ValueIdx
import Idealize.ShloMosaic.Lib.Pipeline.Value

noncomputable section

open scoped BigOperators

namespace Cert.KernelIdeal.Val

open Cert.KernelIdeal Cert.KernelIdeal.Gen Idealize.ShloMosaic Idealize.ShloMosaic.ValueIdx

open Cert.KernelIdeal.Fr Idealize.ShloMosaic.TcCoe

variable (V : (c : Dev nD) → (b : Ref sig .tc) → Buf (Elt Ideal) ((c : Thread nD τ).loc b))

/-- The grid's coordinates of the linear point, in closed form. -/
theorem coords1 : ∀ t : Fin cfg1.N, (grid1.coords t 0).val = t.val / 32 ∧ (grid1.coords t 1).val = t.val % 32 :=
  (by decide +kernel : ∀ t : Fin grid1.N, (grid1.coords t 0).val = t.val / 32 ∧ (grid1.coords t 1).val = t.val % 32)

/-- Window 0's block indices over the grid, in closed form. -/
theorem idx1_0 : ∀ t : Fin cfg1.N, win1_0.index t (0 : Fin 2) = t.val / 32 ∧ win1_0.index t (1 : Fin 2) = 0 :=
  (by decide +kernel : ∀ t : Fin grid1.N, win1_0.index t (0 : Fin 2) = t.val / 32 ∧ win1_0.index t (1 : Fin 2) = 0)

/-- Window 1's block indices over the grid, in closed form. -/
theorem idx1_1 : ∀ t : Fin cfg1.N, win1_1.index t (0 : Fin 2) = t.val / 32 ∧ win1_1.index t (1 : Fin 2) = 0 :=
  (by decide +kernel : ∀ t : Fin grid1.N, win1_1.index t (0 : Fin 2) = t.val / 32 ∧ win1_1.index t (1 : Fin 2) = 0)

/-- Window 2's block indices over the grid, in closed form. -/
theorem idx1_2 : ∀ t : Fin cfg1.N, win1_2.index t (0 : Fin 2) = t.val / 32 ∧ win1_2.index t (1 : Fin 2) = 0 :=
  (by decide +kernel : ∀ t : Fin grid1.N, win1_2.index t (0 : Fin 2) = t.val / 32 ∧ win1_2.index t (1 : Fin 2) = 0)

/-- Window 3's block indices over the grid, in closed form. -/
theorem idx1_3 : ∀ t : Fin cfg1.N, win1_3.index t (0 : Fin 2) = t.val % 32 ∧ win1_3.index t (1 : Fin 2) = 0 :=
  (by decide +kernel : ∀ t : Fin grid1.N, win1_3.index t (0 : Fin 2) = t.val % 32 ∧ win1_3.index t (1 : Fin 2) = 0)

/-- Window 4's block indices over the grid, in closed form. -/
theorem idx1_4 : ∀ t : Fin cfg1.N, win1_4.index t (0 : Fin 2) = 0 ∧ win1_4.index t (1 : Fin 2) = t.val % 32 :=
  (by decide +kernel : ∀ t : Fin grid1.N, win1_4.index t (0 : Fin 2) = 0 ∧ win1_4.index t (1 : Fin 2) = t.val % 32)

/-- Window 5's block indices over the grid, in closed form. -/
theorem idx1_5 : ∀ t : Fin cfg1.N, win1_5.index t (0 : Fin 2) = 0 ∧ win1_5.index t (1 : Fin 2) = t.val % 32 :=
  (by decide +kernel : ∀ t : Fin grid1.N, win1_5.index t (0 : Fin 2) = 0 ∧ win1_5.index t (1 : Fin 2) = t.val % 32)

/-- Window 6's block indices over the grid, in closed form. -/
theorem idx1_6 : ∀ t : Fin cfg1.N, win1_6.index t (0 : Fin 2) = t.val / 32 ∧ win1_6.index t (1 : Fin 2) = 0 :=
  (by decide +kernel : ∀ t : Fin grid1.N, win1_6.index t (0 : Fin 2) = t.val / 32 ∧ win1_6.index t (1 : Fin 2) = 0)

/-- Window 7's block indices over the grid, in closed form. -/
theorem idx1_7 : ∀ t : Fin cfg1.N, win1_7.index t (0 : Fin 2) = t.val / 32 ∧ win1_7.index t (1 : Fin 2) = 0 :=
  (by decide +kernel : ∀ t : Fin grid1.N, win1_7.index t (0 : Fin 2) = t.val / 32 ∧ win1_7.index t (1 : Fin 2) = 0)

/-- The a-block at point t, entry (p, k), is a's entry (1024 · (t / 32) + p, k). -/
theorem iblk1_0_apply (c : Dev nD) (t : Fin cfg1.N) (x : S1024x128.Idx) (k : S8192x128.Idx)
    (hk0 : (k 0).val = 1024 * (t.val / 32) + (x 0).val) (hk1 : (k 1).val = (x 1).val) :
    (iblk1 V c 0 t : Vec Ideal S1024x128 .f32) x = (V c main_arg0 : S8192x128.Idx → EReal) k := by
  obtain ⟨e0, e1⟩ := idx1_0 t
  unfold iblk1
  rw [View.read_apply]
  show V c main_arg0 _ = V c main_arg0 _
  refine congrArg (V c main_arg0) ?_
  funext a
  apply Fin.ext
  match a with
  | ⟨0, _⟩ => show win1_0.index t 0 * 1024 + 1 * (x 0).val = (k 0).val; rw [e0, hk0]; omega
  | ⟨1, _⟩ => show win1_0.index t 1 * 128 + 1 * (x 1).val = (k 1).val; rw [e1, hk1]; omega

/-- The label column's block at point t, entry (p, 0), is the column's entry (1024 · (t / 32) + p, 0). -/
theorem iblk1_1_apply (c : Dev nD) (t : Fin cfg1.N) (x : S1024x1.Idx) (k : S8192x1.Idx)
    (hk0 : (k 0).val = 1024 * (t.val / 32) + (x 0).val) (hk1 : (k 1).val = (x 1).val) :
    (iblk1 V c 1 t : Vec Ideal S1024x1 .i32) x = (V c main_v0 : S8192x1.Idx → BitVec 32) k := by
  obtain ⟨e0, e1⟩ := idx1_1 t
  unfold iblk1
  rw [View.read_apply]
  show V c main_v0 _ = V c main_v0 _
  refine congrArg (V c main_v0) ?_
  funext a
  apply Fin.ext
  match a with
  | ⟨0, _⟩ => show win1_1.index t 0 * 1024 + 1 * (x 0).val = (k 0).val; rw [e0, hk0]; omega
  | ⟨1, _⟩ => show win1_1.index t 1 * 1 + 1 * (x 1).val = (k 1).val; rw [e1, hk1]; omega

/-- The first call's result column's block at point t, entry (p, 0), is the column's entry (1024 · (t / 32) + p, 0). -/
theorem iblk1_2_apply (c : Dev nD) (t : Fin cfg1.N) (x : S1024x1.Idx) (k : S8192x1.Idx)
    (hk0 : (k 0).val = 1024 * (t.val / 32) + (x 0).val) (hk1 : (k 1).val = (x 1).val) :
    (iblk1 V c 2 t : Vec Ideal S1024x1 .f32) x = (V c main_v2 : S8192x1.Idx → EReal) k := by
  obtain ⟨e0, e1⟩ := idx1_2 t
  unfold iblk1
  rw [View.read_apply]
  show V c main_v2 _ = V c main_v2 _
  refine congrArg (V c main_v2) ?_
  funext a
  apply Fin.ext
  match a with
  | ⟨0, _⟩ => show win1_2.index t 0 * 1024 + 1 * (x 0).val = (k 0).val; rw [e0, hk0]; omega
  | ⟨1, _⟩ => show win1_2.index t 1 * 1 + 1 * (x 1).val = (k 1).val; rw [e1, hk1]; omega

/-- The b-block at point t, entry (q, k), is b's entry (256 · (t % 32) + q, k). -/
theorem iblk1_3_apply (c : Dev nD) (t : Fin cfg1.N) (x : S256x128.Idx) (k : S8192x128.Idx)
    (hk0 : (k 0).val = 256 * (t.val % 32) + (x 0).val) (hk1 : (k 1).val = (x 1).val) :
    (iblk1 V c 3 t : Vec Ideal S256x128 .f32) x = (V c main_arg1 : S8192x128.Idx → EReal) k := by
  obtain ⟨e0, e1⟩ := idx1_3 t
  unfold iblk1
  rw [View.read_apply]
  show V c main_arg1 _ = V c main_arg1 _
  refine congrArg (V c main_arg1) ?_
  funext a
  apply Fin.ext
  match a with
  | ⟨0, _⟩ => show win1_3.index t 0 * 256 + 1 * (x 0).val = (k 0).val; rw [e0, hk0]; omega
  | ⟨1, _⟩ => show win1_3.index t 1 * 128 + 1 * (x 1).val = (k 1).val; rw [e1, hk1]; omega

/-- The label row's block at point t, entry (0, q), is the row's entry (0, 256 · (t % 32) + q). -/
theorem iblk1_4_apply (c : Dev nD) (t : Fin cfg1.N) (x : S1x256.Idx) (k : S1x8192.Idx)
    (hk0 : (k 0).val = (x 0).val) (hk1 : (k 1).val = 256 * (t.val % 32) + (x 1).val) :
    (iblk1 V c 4 t : Vec Ideal S1x256 .i32) x = (V c main_v1 : S1x8192.Idx → BitVec 32) k := by
  obtain ⟨e0, e1⟩ := idx1_4 t
  unfold iblk1
  rw [View.read_apply]
  show V c main_v1 _ = V c main_v1 _
  refine congrArg (V c main_v1) ?_
  funext a
  apply Fin.ext
  match a with
  | ⟨0, _⟩ => show win1_4.index t 0 * 1 + 1 * (x 0).val = (k 0).val; rw [e0, hk0]; omega
  | ⟨1, _⟩ => show win1_4.index t 1 * 256 + 1 * (x 1).val = (k 1).val; rw [e1, hk1]; omega

/-- The first call's result row's block at point t, entry (0, q), is the row's entry (0, 256 · (t % 32) + q). -/
theorem iblk1_5_apply (c : Dev nD) (t : Fin cfg1.N) (x : S1x256.Idx) (k : S1x8192.Idx)
    (hk0 : (k 0).val = (x 0).val) (hk1 : (k 1).val = 256 * (t.val % 32) + (x 1).val) :
    (iblk1 V c 5 t : Vec Ideal S1x256 .f32) x = (V c main_v3 : S1x8192.Idx → EReal) k := by
  obtain ⟨e0, e1⟩ := idx1_5 t
  unfold iblk1
  rw [View.read_apply]
  show V c main_v3 _ = V c main_v3 _
  refine congrArg (V c main_v3) ?_
  funext a
  apply Fin.ext
  match a with
  | ⟨0, _⟩ => show win1_5.index t 0 * 1 + 1 * (x 0).val = (k 0).val; rw [e0, hk0]; omega
  | ⟨1, _⟩ => show win1_5.index t 1 * 256 + 1 * (x 1).val = (k 1).val; rw [e1, hk1]; omega

end Cert.KernelIdeal.Val

end
-- ==== Proof.KIV.R1Fold.lean ====
/-
  Sums along a row of the grid. A row of the grid has 32 points; point j of a row adds 256 addends (the pairs of a fixed
  row of the matrix with the 256 columns of column block j) to an accumulator that starts from zero at the row's first
  point. After point j the accumulator holds the sum of the first 256 · (j + 1) addends; after the row's last point, the
  sum over all 8192 columns.
-/
import Idealize.ShloMosaic.PureOps.Ideal.Laws
import Idealize.ShloMosaic.Lib.Pipeline.Value

set_option maxRecDepth 16384

noncomputable section

open scoped BigOperators

namespace Cert.KernelIdeal.Val

open Idealize.ShloMosaic
open Idealize.ShloMosaic.TcCoe Idealize.SL.Sem
open Idealize.ShloMosaic.Pipeline (Dat)

/-! ## Sums along a row of the grid -/

/-- A function of the 8192 positions, continued by zero. -/
def ext0 (g : Fin 8192 → EReal) (n : ℕ) : EReal := if h : n < 8192 then g ⟨n, h⟩ else 0

theorem ext0_of_lt (g : Fin 8192 → EReal) (n : ℕ) (h : n < 8192) : ext0 g n = g ⟨n, h⟩ := dif_pos h

/-- The sum of the continuation over the first 8192 numbers is the sum over the positions. -/
theorem sum_ext0 (g : Fin 8192 → EReal) : ∑ n ∈ Finset.range 8192, ext0 g n = ∑ s : Fin 8192, g s := by
  rw [Finset.sum_range]
  exact Finset.sum_congr rfl fun s _ => ext0_of_lt g s.val s.isLt

/-- A quantity along the grid that starts, at the first point of each row of 32 points, from that point's 256 addends
    and at each later point of the row adds the point's 256 addends to what the point before left, is after point n the
    sum of the row's first 256 · (n % 32 + 1) addends. -/
theorem row_fold {N : ℕ} (a : (n : ℕ) → n < N → EReal) (G : ℕ → ℕ → EReal)
    (h0 : ∀ n (h : n < N), n % 32 = 0 → a n h = 0 + ∑ q : Fin 256, G (n / 32) (256 * (n % 32) + q.val))
    (hs : ∀ n (h : n + 1 < N), ¬(n + 1) % 32 = 0 →
      a (n + 1) h = a n (Nat.lt_of_succ_lt h) + ∑ q : Fin 256, G ((n + 1) / 32) (256 * ((n + 1) % 32) + q.val)) :
    ∀ n (h : n < N), a n h = ∑ m ∈ Finset.range (256 * (n % 32 + 1)), G (n / 32) m := by
  intro n
  induction n with
  | zero =>
    intro h
    rw [h0 0 h rfl, zero_add, Finset.sum_range]
    exact Finset.sum_congr rfl fun q _ => by simp
  | succ n ih =>
    intro h
    by_cases hm : (n + 1) % 32 = 0
    · rw [h0 _ h hm, zero_add, hm, Finset.sum_range]
      exact Finset.sum_congr rfl fun q _ => by simp
    · rw [hs n h hm, ih (Nat.lt_of_succ_lt h)]
      have e1 : (n + 1) / 32 = n / 32 := by omega
      have e2 : (n + 1) % 32 = n % 32 + 1 := by omega
      rw [e1, e2, show 256 * (n % 32 + 1 + 1) = 256 * (n % 32 + 1) + 256 from by ring, Finset.sum_range_add,
        Finset.sum_range (n := 256)]

/-- The global row of the grid's row block ib at offset p (total in its arguments). -/
def rowOf (ib p : ℕ) : Fin 8192 := ⟨(1024 * ib + p) % 8192, Nat.mod_lt _ (by norm_num)⟩

/-- The global column of column block jb at offset q (total in its arguments). -/
def colOf (jb q : ℕ) : Fin 8192 := ⟨(256 * jb + q) % 8192, Nat.mod_lt _ (by norm_num)⟩

theorem colOf_val (jb q : ℕ) (hjb : jb < 32) (hq : q < 256) : (colOf jb q).val = 256 * jb + q := by
  unfold colOf; show (256 * jb + q) % 8192 = _; omega

/-- Inside the grid a column block's entry, continued by zero, is the entry. -/
theorem ext0_col (g : Fin 8192 → EReal) (jb q : ℕ) (hjb : jb < 32) (hq : q < 256) :
    ext0 g (256 * jb + q) = g (colOf jb q) := by
  rw [ext0_of_lt g _ (by omega)]
  exact congrArg g (Fin.ext (colOf_val jb q hjb hq).symm)

theorem rowOf_val (ib p : ℕ) (hib : ib < 8) (hp : p < 1024) : (rowOf ib p).val = 1024 * ib + p := by
  unfold rowOf; show (1024 * ib + p) % 8192 = _; omega

end Cert.KernelIdeal.Val

end
-- ==== Proof.KIV.R1Value.lean ====
/-
  The second call's first result array over the extended reals: row r holds the sum, over the positions j that carry the
  label of r and differ from r, of the squared hinge of the pair (r, j). The tile of grid point t covers rows
  1024 · (t / 32) + p and columns 256 · (t % 32) + q; its mask at (p, q) says that the pair is a positive pair, its
  payload there is the pair's squared hinge; accumulator 0 sums the masked payloads along the grid's row; the last point of
  the row copies it into the output block.
-/
import proofs.«176830_j37546604102166_1_alg».proof.Proof.KI.R1Step
import proofs.«176830_j37546604102166_1_alg».proof.Proof.KIV.R1Pay
import proofs.«176830_j37546604102166_1_alg».proof.Proof.KIV.R1Blocks
import proofs.«176830_j37546604102166_1_alg».proof.Proof.KIV.R1Fold
import Idealize.ShloMosaic.Lib.Pipeline.Value

set_option maxRecDepth 16384

noncomputable section

open scoped BigOperators

namespace Cert.KernelIdeal.Val

open Cert.KernelIdeal Cert.KernelIdeal.Gen Idealize.ShloMosaic Idealize.ShloMosaic.ValueIdx

open Cert.KernelIdeal.Fr Idealize.ShloMosaic.TcCoe Idealize.SL.Sem
open Idealize.ShloMosaic.Pipeline (Dat)

variable (V : (c : Dev nD) → (b : Ref sig .tc) → Buf (Elt Ideal) ((c : Thread nD τ).loc b))

/-- An index of a [1024, 1] block is its row and column 0. -/
theorem ix2_col1024 (j : S1024x1.Idx) : j = ix2 (j 0) (0 : Fin 1) := by
  funext a
  match a with
  | ⟨0, _⟩ => rfl
  | ⟨1, _⟩ => exact Fin.ext (by have h : (j 1).val < 1 := (j 1).isLt; show (j 1).val = 0; omega)

/-- The tile's pair mask at (p, q) selects exactly at the positive pairs (row 1024 · (t / 32) + p, column
    256 · (t % 32) + q): both positions are below 8192, so comparing their 32-bit words compares the numbers. -/
theorem tile_mask (c : Dev nD) (lab : Cert.PairLoss.Lab) (hcol : ∀ r : Fin 8192, V c main_v0 (ix2 r (0 : Fin 1)) = lab (ix1 r)) (hrow : ∀ r : Fin 8192, V c main_v1 (ix2 (0 : Fin 1) r) = lab (ix1 r))
    (t : Fin cfg1.N) (p : Fin 1024) (q : Fin 256) (X : EReal) :
    Scalar.select ((k1_pay5 (F := Ideal) (grid1.coords t) (iblk1 V c 1 t) (iblk1 V c 4 t)) (ix2 p q)) X 0
      = if Cert.PairLoss.pos lab (rowOf (t.val / 32) p.val) (colOf (t.val % 32) q.val) then X else 0 := by
  have hN : t.val < 256 := lt_of_lt_of_eq t.isLt N_1
  have hp := p.isLt
  have hq := q.isLt
  obtain ⟨c0, c1⟩ := coords1 t
  have hr := rowOf_val (t.val / 32) p.val (by omega) p.isLt
  have hs := colOf_val (t.val % 32) q.val (by omega) q.isLt
  have e1 : (iblk1 V c 1 t : Vec Ideal S1024x1 .i32) (ix2 p (0 : Fin 1)) = lab (ix1 (rowOf (t.val / 32) p.val)) :=
    (iblk1_1_apply V c t (ix2 p (0 : Fin 1)) (ix2 (rowOf (t.val / 32) p.val) (0 : Fin 1)) hr rfl).trans (hcol _)
  have e4 : (iblk1 V c 4 t : Vec Ideal S1x256 .i32) (ix2 (0 : Fin 1) q) = lab (ix1 (colOf (t.val % 32) q.val)) :=
    (iblk1_4_apply V c t (ix2 (0 : Fin 1) q) (ix2 (0 : Fin 1) (colOf (t.val % 32) q.val)) rfl hs).trans (hrow _)
  refine (congrArg (fun b => Scalar.select b X 0) (pay5_apply (grid1.coords t) (iblk1 V c 1 t) (iblk1 V c 4 t) p q)).trans ?_
  rw [select_mask, e1, e4, c0, c1]
  refine if_congr ?_ rfl rfl
  unfold Cert.PairLoss.pos
  refine and_congr Iff.rfl (not_congr ?_)
  rw [ofNat_inj_of_lt (t.val / 32 * 1024 + p.val) (t.val % 32 * 256 + q.val) (by omega) (by omega)]
  constructor
  · intro h; exact Fin.ext (by rw [hr, hs]; omega)
  · intro h; have h' := congrArg Fin.val h; rw [hr, hs] at h'; omega

/-- The tile's payload at (p, q) is the squared hinge of the pair (row, column). -/
theorem tile_hinge (c : Dev nD) (lab : Cert.PairLoss.Lab)
    (hvcol : ∀ r : Fin 8192, V c main_v2 (ix2 r (0 : Fin 1)) = Cert.PairLoss.negSum (V c main_arg0) (V c main_arg1) lab r)
    (hvrow : ∀ r : Fin 8192, V c main_v3 (ix2 (0 : Fin 1) r) = Cert.PairLoss.negSum (V c main_arg0) (V c main_arg1) lab r)
    (t : Fin cfg1.N) (p : Fin 1024) (q : Fin 256) :
    (k1_pay6 (F := Ideal) (iblk1 V c 0 t) (iblk1 V c 3 t) (iblk1 V c 2 t) (iblk1 V c 5 t)) (ix2 p q)
      = Cert.PairLoss.hingeSq (V c main_arg0) (V c main_arg1) lab (rowOf (t.val / 32) p.val) (colOf (t.val % 32) q.val) := by
  have hN : t.val < 256 := lt_of_lt_of_eq t.isLt N_1
  have hr := rowOf_val (t.val / 32) p.val (by omega) p.isLt
  have hs := colOf_val (t.val % 32) q.val (by omega) q.isLt
  refine (pay6_apply (iblk1 V c 0 t) (iblk1 V c 3 t) (iblk1 V c 2 t) (iblk1 V c 5 t) p q).trans ?_
  have e2 : (iblk1 V c 2 t : Vec Ideal S1024x1 .f32) (ix2 p (0 : Fin 1))
      = Cert.PairLoss.negSum (V c main_arg0) (V c main_arg1) lab (rowOf (t.val / 32) p.val) :=
    (iblk1_2_apply V c t (ix2 p (0 : Fin 1)) (ix2 (rowOf (t.val / 32) p.val) (0 : Fin 1)) hr rfl).trans (hvcol _)
  have e5 : (iblk1 V c 5 t : Vec Ideal S1x256 .f32) (ix2 (0 : Fin 1) q)
      = Cert.PairLoss.negSum (V c main_arg0) (V c main_arg1) lab (colOf (t.val % 32) q.val) :=
    (iblk1_5_apply V c t (ix2 (0 : Fin 1) q) (ix2 (0 : Fin 1) (colOf (t.val % 32) q.val)) rfl hs).trans (hvrow _)
  have e0 : ∀ k : Fin 128, (iblk1 V c 0 t : Vec Ideal S1024x128 .f32) (ix2 p k)
      = (V c main_arg0 : S8192x128.Idx → EReal) (ix2 (rowOf (t.val / 32) p.val) k) := fun k =>
    iblk1_0_apply V c t (ix2 p k) (ix2 (rowOf (t.val / 32) p.val) k) hr rfl
  have e3 : ∀ k : Fin 128, (iblk1 V c 3 t : Vec Ideal S256x128 .f32) (ix2 q k)
      = (V c main_arg1 : S8192x128.Idx → EReal) (ix2 (colOf (t.val % 32) q.val) k) := fun k =>
    iblk1_3_apply V c t (ix2 q k) (ix2 (colOf (t.val % 32) q.val) k) hs rfl
  rw [e2, e5]
  simp only [e0, e3]
  rfl

/-- ACCUMULATOR 0 ALONG A ROW OF THE GRID: after point n its entry at row p is the sum of the pair terms of row
    1024 · (n / 32) + p with the first 256 · (n % 32 + 1) columns. -/
theorem sc0_sum (c : Dev nD) (lab : Cert.PairLoss.Lab) (hcol : ∀ r : Fin 8192, V c main_v0 (ix2 r (0 : Fin 1)) = lab (ix1 r)) (hrow : ∀ r : Fin 8192, V c main_v1 (ix2 (0 : Fin 1) r) = lab (ix1 r))
    (hvcol : ∀ r : Fin 8192, V c main_v2 (ix2 r (0 : Fin 1)) = Cert.PairLoss.negSum (V c main_arg0) (V c main_arg1) lab r)
    (hvrow : ∀ r : Fin 8192, V c main_v3 (ix2 (0 : Fin 1) r) = Cert.PairLoss.negSum (V c main_arg0) (V c main_arg1) lab r)
    (n : ℕ) (hn : n < cfg1.N) (p : Fin 1024) :
    (outsAt1 V c n hn).2.2.1 (ix2 p (0 : Fin 1))
      = ∑ m ∈ Finset.range (256 * (n % 32 + 1)), ext0 (Cert.PairLoss.pairTerm (V c main_arg0) (V c main_arg1) lab (rowOf (n / 32) p.val)) m := by
  have tile : ∀ (t : Fin cfg1.N) (q : Fin 256),
      Scalar.select ((k1_pay5 (F := Ideal) (grid1.coords t) (iblk1 V c 1 t) (iblk1 V c 4 t)) (ix2 p q)) ((k1_pay6 (F := Ideal) (iblk1 V c 0 t) (iblk1 V c 3 t) (iblk1 V c 2 t) (iblk1 V c 5 t)) (ix2 p q)) 0
        = ext0 (Cert.PairLoss.pairTerm (V c main_arg0) (V c main_arg1) lab (rowOf (t.val / 32) p.val)) (256 * (t.val % 32) + q.val) := fun t q => by
    have hN : t.val < 256 := lt_of_lt_of_eq t.isLt N_1
    rw [tile_mask V c lab hcol hrow t p q, tile_hinge V c lab hvcol hvrow t p q, ext0_col _ _ _ (by omega) q.isLt]
    rfl
  refine row_fold (N := cfg1.N) (fun n hn => (outsAt1 V c n hn).2.2.1 (ix2 p (0 : Fin 1)))
    (fun ib m => ext0 (Cert.PairLoss.pairTerm (V c main_arg0) (V c main_arg1) lab (rowOf ib p.val)) m) ?_ ?_ n hn
  · intro n h h0
    have e := congrFun (outsAt1_sc0 V c ⟨n, h⟩) (ix2 p (0 : Fin 1))
    rw [if_pos (show (⟨n, h⟩ : Fin cfg1.N).val % 32 = 0 from h0)] at e
    refine e.trans ?_
    rw [pay1_apply, pay3_apply]
    exact congrArg (0 + ·) (Finset.sum_congr rfl fun q _ => tile ⟨n, h⟩ q)
  · intro n h hne
    have e := congrFun (outsAt1_sc0 V c ⟨n + 1, h⟩) (ix2 p (0 : Fin 1))
    rw [if_neg (show ¬(⟨n + 1, h⟩ : Fin cfg1.N).val % 32 = 0 from hne)] at e
    refine e.trans ?_
    rw [pay1_apply]
    exact congrArg₂ (· + ·) rfl (Finset.sum_congr rfl fun q _ => tile ⟨n + 1, h⟩ q)

/-- At the last point of a row of the grid output 6's block holds, at row p, the row total of row 1024 · (t / 32) + p. -/
theorem out6_row (c : Dev nD) (lab : Cert.PairLoss.Lab) (hcol : ∀ r : Fin 8192, V c main_v0 (ix2 r (0 : Fin 1)) = lab (ix1 r)) (hrow : ∀ r : Fin 8192, V c main_v1 (ix2 (0 : Fin 1) r) = lab (ix1 r))
    (hvcol : ∀ r : Fin 8192, V c main_v2 (ix2 r (0 : Fin 1)) = Cert.PairLoss.negSum (V c main_arg0) (V c main_arg1) lab r)
    (hvrow : ∀ r : Fin 8192, V c main_v3 (ix2 (0 : Fin 1) r) = Cert.PairLoss.negSum (V c main_arg0) (V c main_arg1) lab r)
    (t : Fin cfg1.N) (h1 : t.val % 32 = 31) (p : Fin 1024) :
    (outsAt1 V c t.val t.isLt).1 (ix2 p (0 : Fin 1)) = Cert.PairLoss.rowTotal (V c main_arg0) (V c main_arg1) lab (rowOf (t.val / 32) p.val) := by
  rw [outsAt1_out6 V c t h1, sc0_sum V c lab hcol hrow hvcol hvrow t.val t.isLt p, h1]
  exact sum_ext0 _

/-- WHAT A ROW'S LAST POINT WRITES BACK is its block of the row totals. -/
theorem flushed1_6_eq (c : Dev nD) (lab : Cert.PairLoss.Lab) (hcol : ∀ r : Fin 8192, V c main_v0 (ix2 r (0 : Fin 1)) = lab (ix1 r)) (hrow : ∀ r : Fin 8192, V c main_v1 (ix2 (0 : Fin 1) r) = lab (ix1 r))
    (hvcol : ∀ r : Fin 8192, V c main_v2 (ix2 r (0 : Fin 1)) = Cert.PairLoss.negSum (V c main_arg0) (V c main_arg1) lab r)
    (hvrow : ∀ r : Fin 8192, V c main_v3 (ix2 (0 : Fin 1) r) = Cert.PairLoss.negSum (V c main_arg0) (V c main_arg1) lab r)
    (t : Fin cfg1.N) (hf : (cfg1.win 6).flush t = true) :
    (dat1 (F := Ideal) V c).flushed 6 t
      = ((cfg1.win 6).blk t).view.read (Elt Ideal) (fun y : S8192x1.Idx => Cert.PairLoss.rowTotal (V c main_arg0) (V c main_arg1) lab (y 0)) := by
  have h1 : t.val % 32 = 31 := (flush1_6 t).mp hf
  have hN : t.val < 256 := lt_of_lt_of_eq t.isLt N_1
  obtain ⟨e0, e1⟩ := idx1_6 t
  have key : ∀ j : S1024x1.Idx, (outsAt1 V c t.val t.isLt).1 j
      = Cert.PairLoss.rowTotal (V c main_arg0) (V c main_arg1) lab (rowOf (t.val / 32) (j 0).val) := fun j => by
    have e := out6_row V c lab hcol hrow hvcol hvrow t h1 (j 0)
    exact (congrArg (outsAt1 V c t.val t.isLt).1 (ix2_col1024 j)).trans e
  show (cfg1.win 6).cut (grid1.coords t) ((dat1 V c).after 6 t) = _
  rw [after1_6]
  funext j
  rw [View.read_apply]
  refine (key j).trans (congrArg (Cert.PairLoss.rowTotal (V c main_arg0) (V c main_arg1) lab) (Fin.ext ?_))
  show (1024 * (t.val / 32) + (j 0).val) % 8192 = win1_6.index t 0 * 1024 + 1 * (j 0).val
  have hj : (j 0).val < 1024 := (j 0).isLt
  rw [e0]; omega

/-- An index of the result column is in point t's block iff each coordinate is in the block's range on its axis. -/
theorem mem_blk1_6 (t : Fin cfg1.N) (i : S8192x1.Idx) :
    i ∈ ((cfg1.win 6).blk t).view.set ↔ ∀ a : Fin 2, win1_6.index t a * S1024x1.size a ≤ (i a).val ∧ (i a).val < win1_6.index t a * S1024x1.size a + S1024x1.size a := by
  show i ∈ ((View.whole main_v4_0).slice (win1_6.rect t)).set ↔ _
  rw [View.set_slice_whole, Rect.mem_set_unit]
  exact Iff.rfl

/-- Every row of the result column is in the block of the last point of its row of the grid. -/
theorem cover1_6 (i : S8192x1.Idx) :
    ∃ t : Fin cfg1.N, (cfg1.win 6).flush t = true ∧ i ∈ ((cfg1.win 6).blk t).view.set := by
  have hi0 : (i 0).val < 8192 := (i 0).isLt
  have hi1 : (i 1).val < 1 := (i 1).isLt
  have hN : cfg1.N = 256 := N_1
  have ht : 32 * ((i 0).val / 1024) + 31 < cfg1.N := by rw [hN]; omega
  obtain ⟨e0, e1⟩ := idx1_6 ⟨32 * ((i 0).val / 1024) + 31, ht⟩
  refine ⟨⟨32 * ((i 0).val / 1024) + 31, ht⟩, (flush1_6 _).mpr (by show (32 * ((i 0).val / 1024) + 31) % 32 = 31; omega), ?_⟩
  rw [mem_blk1_6]
  intro a
  match a with
  | ⟨0, _⟩ =>
    show win1_6.index ⟨32 * ((i 0).val / 1024) + 31, ht⟩ 0 * 1024 ≤ (i 0).val ∧ (i 0).val < win1_6.index ⟨32 * ((i 0).val / 1024) + 31, ht⟩ 0 * 1024 + 1024
    rw [e0]; show (32 * ((i 0).val / 1024) + 31) / 32 * 1024 ≤ (i 0).val ∧ (i 0).val < (32 * ((i 0).val / 1024) + 31) / 32 * 1024 + 1024; omega
  | ⟨1, _⟩ =>
    show win1_6.index ⟨32 * ((i 0).val / 1024) + 31, ht⟩ 1 * 1 ≤ (i 1).val ∧ (i 1).val < win1_6.index ⟨32 * ((i 0).val / 1024) + 31, ht⟩ 1 * 1 + 1
    rw [e1]; omega

/-- THE FIRST RESULT ARRAY after the second call: row r holds the row total of r. -/
theorem arrAt1_6 (V : (c : Dev nD) → (b : Ref sig .tc) → Buf (Elt Ideal) ((c : Thread nD τ).loc b)) (c : Dev nD) (lab : Cert.PairLoss.Lab)
    (hcol : ∀ r : Fin 8192, V c main_v0 (ix2 r (0 : Fin 1)) = lab (ix1 r)) (hrow : ∀ r : Fin 8192, V c main_v1 (ix2 (0 : Fin 1) r) = lab (ix1 r))
    (hvcol : ∀ r : Fin 8192, V c main_v2 (ix2 r (0 : Fin 1)) = Cert.PairLoss.negSum (V c main_arg0) (V c main_arg1) lab r)
    (hvrow : ∀ r : Fin 8192, V c main_v3 (ix2 (0 : Fin 1) r) = Cert.PairLoss.negSum (V c main_arg0) (V c main_arg1) lab r) :
    (dat1 (F := Ideal) V c).arrAt 6 cfg1.N = fun y => Cert.PairLoss.rowTotal (V c main_arg0) (V c main_arg1) lab (y 0) :=
  (dat1 (F := Ideal) V c).arrAt_eq_of_cover 6 (fun y : S8192x1.Idx => Cert.PairLoss.rowTotal (V c main_arg0) (V c main_arg1) lab (y 0))
    (fun t hf => flushed1_6_eq V c lab hcol hrow hvcol hvrow t hf) cover1_6

end Cert.KernelIdeal.Val

end
-- ==== Proof.KIV.PosRange.lean ====
/-
  Row totals over the ordered positive pairs, regrouped by column tiles. A row's total (of the squared hinges, or of
  the count) over all 8192 columns is built up one tile of columns at a time: after the first j + 1 tiles of width w
  it is the sum over the columns below w · (j + 1), and after all of them it is the whole row's total. Columns are
  counted by natural numbers so that a partial sum is a sum over an initial segment; only commutativity and
  associativity of addition on the extended reals are used.
-/
import proofs.«176830_j37546604102166_1_alg».proof.Proof.Spec

noncomputable section

open scoped BigOperators

namespace Cert.PairLoss

open Idealize.ShloMosaic Idealize.ShloMosaic.ValueIdx

/-- One more tile of w columns extends the initial segment by w, for any summand. -/
theorem range_acc_step (f : ℕ → EReal) (w j : ℕ) :
    ∑ r ∈ Finset.range (w * j), f r + ∑ q : Fin w, f (w * j + q.val) = ∑ r ∈ Finset.range (w * (j + 1)), f r := by
  rw [Fin.sum_univ_eq_sum_range (fun r => f (w * j + r)) w, show w * (j + 1) = w * j + w from by ring,
    Finset.sum_range_add]

/-- The first tile alone, added to zero. -/
theorem range_acc_first (f : ℕ → EReal) (w : ℕ) :
    (0 : EReal) + ∑ q : Fin w, f (w * 0 + q.val) = ∑ r ∈ Finset.range (w * (0 + 1)), f r := by
  rw [← range_acc_step f w 0, Nat.mul_zero, Finset.range_zero, Finset.sum_empty]

variable (a b : Mat) (lab : Lab)

/-- Column r's term of row i's total, for natural i and r (0 outside the matrix). -/
def termN (i r : ℕ) : EReal :=
  if h : i < 8192 ∧ r < 8192 then pairTerm a b lab ⟨i, h.1⟩ ⟨r, h.2⟩ else 0

/-- Column r's term of row i's count, for natural i and r (0 outside the matrix). -/
def oneN (i r : ℕ) : EReal :=
  if h : i < 8192 ∧ r < 8192 then pairOne lab ⟨i, h.1⟩ ⟨r, h.2⟩ else 0

theorem termN_of_lt (i r : ℕ) (hi : i < 8192) (hr : r < 8192) :
    termN a b lab i r = pairTerm a b lab ⟨i, hi⟩ ⟨r, hr⟩ := dif_pos ⟨hi, hr⟩

theorem oneN_of_lt (i r : ℕ) (hi : i < 8192) (hr : r < 8192) :
    oneN lab i r = pairOne lab ⟨i, hi⟩ ⟨r, hr⟩ := dif_pos ⟨hi, hr⟩

/-- All 32 tiles of 256 columns: the whole row's total. -/
theorem termN_full (i : ℕ) (hi : i < 8192) :
    ∑ r ∈ Finset.range (256 * 32), termN a b lab i r = rowTotal a b lab ⟨i, hi⟩ := by
  unfold rowTotal
  rw [show 256 * 32 = 8192 from rfl, ← Fin.sum_univ_eq_sum_range (fun r => termN a b lab i r) 8192]
  exact Finset.sum_congr rfl fun r _ => termN_of_lt a b lab i r.val hi r.isLt

/-- All 32 tiles of 256 columns: the whole row's count. -/
theorem oneN_full (i : ℕ) (hi : i < 8192) :
    ∑ r ∈ Finset.range (256 * 32), oneN lab i r = rowCount lab ⟨i, hi⟩ := by
  unfold rowCount
  rw [show 256 * 32 = 8192 from rfl, ← Fin.sum_univ_eq_sum_range (fun r => oneN lab i r) 8192]
  exact Finset.sum_congr rfl fun r _ => oneN_of_lt lab i r.val hi r.isLt

end Cert.PairLoss

end
-- ==== Proof.KIV.R1Count.lean ====
/-
  The second call's count output. At point t = 32 · ib + jb, in row p of the block, the tile adds to the count
  accumulator the number of ordered positive pairs (1024 · ib + p, r) with r among columns 256 · jb … 256 · jb + 255:
  the mask bit at (p, q) is "equal labels and different global positions". The accumulator starts from zero at jb = 0,
  so after point t it holds the count over the columns below 256 · (jb + 1); at jb = 31 that is the row's whole count,
  it is copied to the output block, and the eight write-backs cover the [8192, 1] output array.
-/
import proofs.«176830_j37546604102166_1_alg».proof.Proof.KI.R1Step
import proofs.«176830_j37546604102166_1_alg».proof.Proof.KIV.R1Pay
import proofs.«176830_j37546604102166_1_alg».proof.Proof.KIV.PosRange
import Idealize.ShloMosaic.Lib.Pipeline.Value

noncomputable section

open scoped BigOperators

namespace Cert.KernelIdeal.Val

open Cert.KernelIdeal Cert.KernelIdeal.Gen Idealize.ShloMosaic Idealize.ShloMosaic.ValueIdx

open Cert.KernelIdeal.Fr Idealize.ShloMosaic.TcCoe Cert.PairLoss
open Idealize.ShloMosaic.Pipeline (Dat)

variable (V : (c : Dev nD) → (b : Ref sig .tc) → Buf (Elt Ideal) ((c : Thread nD τ).loc b)) (c : Dev nD) (lab : Lab)

/-- The block indices of the two label windows and of the count output, and the grid coordinates, in closed form. -/
theorem idx_facts1_lab : ∀ t : Fin cfg1.N,
    win1_1.index t (0 : Fin 2) = t.val / 32 ∧ win1_1.index t (1 : Fin 2) = 0
    ∧ win1_4.index t (0 : Fin 2) = 0 ∧ win1_4.index t (1 : Fin 2) = t.val % 32
    ∧ win1_7.index t (0 : Fin 2) = t.val / 32 ∧ win1_7.index t (1 : Fin 2) = 0
    ∧ ((grid1.coords t) 0).val = t.val / 32 ∧ ((grid1.coords t) 1).val = t.val % 32 :=
  (by decide +kernel : ∀ t : Fin grid1.N, _)

/-- The label column's block at point t, entry (p, 0), is the column's entry (1024 · (t / 32) + p, 0). -/
theorem lab1_col_apply (t : Fin cfg1.N) (x : S1024x1.Idx) (k : S8192x1.Idx)
    (hk0 : (k 0).val = 1024 * (t.val / 32) + (x 0).val) (hk1 : (k 1).val = (x 1).val) :
    (iblk1 V c 1 t : Vec Ideal S1024x1 .i32) x = (V c main_v0 : S8192x1.Idx → BitVec 32) k := by
  obtain ⟨e0, e1, -⟩ := idx_facts1_lab t
  unfold iblk1
  rw [View.read_apply]
  show V c main_v0 _ = V c main_v0 _
  refine congrArg (V c main_v0) ?_
  funext a
  apply Fin.ext
  match a with
  | ⟨0, _⟩ => show win1_1.index t 0 * 1024 + 1 * (x 0).val = (k 0).val; rw [e0, hk0]; omega
  | ⟨1, _⟩ => show win1_1.index t 1 * 1 + 1 * (x 1).val = (k 1).val; rw [e1, hk1]; omega

/-- The label row's block at point t, entry (0, q), is the row's entry (0, 256 · (t % 32) + q). -/
theorem lab1_row_apply (t : Fin cfg1.N) (x : S1x256.Idx) (k : S1x8192.Idx)
    (hk0 : (k 0).val = (x 0).val) (hk1 : (k 1).val = 256 * (t.val % 32) + (x 1).val) :
    (iblk1 V c 4 t : Vec Ideal S1x256 .i32) x = (V c main_v1 : S1x8192.Idx → BitVec 32) k := by
  obtain ⟨-, -, e0, e1, -⟩ := idx_facts1_lab t
  unfold iblk1
  rw [View.read_apply]
  show V c main_v1 _ = V c main_v1 _
  refine congrArg (V c main_v1) ?_
  funext a
  apply Fin.ext
  match a with
  | ⟨0, _⟩ => show win1_4.index t 0 * 1 + 1 * (x 0).val = (k 0).val; rw [e0, hk0]; omega
  | ⟨1, _⟩ => show win1_4.index t 1 * 256 + 1 * (x 1).val = (k 1).val; rw [e1, hk1]; omega

/-- A pair's term of the count with the pair condition spelt out. -/
theorem pairOne_eq (i j : Fin 8192) :
    pairOne lab i j = if lab (ix1 i) = lab (ix1 j) ∧ i ≠ j then 1 else 0 := by
  unfold pairOne
  exact if_congr Iff.rfl rfl rfl

/-- The tile at point t adds, in row p, the number of ordered positive pairs of the row among its 256 columns. -/
theorem tile1_count (hcol : ∀ r : Fin 8192, V c main_v0 (ix2 r (0 : Fin 1)) = lab (ix1 r))
    (hrow : ∀ r : Fin 8192, V c main_v1 (ix2 (0 : Fin 1) r) = lab (ix1 r))
    (t : Fin cfg1.N) (p : Fin 1024) (xs : Vec Ideal S1024x1 .f32) :
    k1_pay2 (F := Ideal) (k1_pay5 (F := Ideal) (grid1.coords t) (iblk1 V c 1 t) (iblk1 V c 4 t)) xs (ix2 p (0 : Fin 1))
      = xs (ix2 p (0 : Fin 1))
        + ∑ q : Fin 256, oneN lab (1024 * (t.val / 32) + p.val) (256 * (t.val % 32) + q.val) := by
  have hN : t.val < 256 := t.isLt
  obtain ⟨-, -, -, -, -, -, g0, g1⟩ := idx_facts1_lab t
  refine (pay2_apply (k1_pay5 (F := Ideal) (grid1.coords t) (iblk1 V c 1 t) (iblk1 V c 4 t)) xs p).trans ?_
  refine congrArg (xs (ix2 p (0 : Fin 1)) + ·) (Finset.sum_congr rfl fun q _ => ?_)
  have hi : 1024 * (t.val / 32) + p.val < 8192 := by have := p.isLt; omega
  have hr : 256 * (t.val % 32) + q.val < 8192 := by have := q.isLt; omega
  have e1 := lab1_col_apply V c t (ix2 p (0 : Fin 1)) (ix2 ⟨1024 * (t.val / 32) + p.val, hi⟩ (0 : Fin 1)) rfl rfl
  have e4 := lab1_row_apply V c t (ix2 (0 : Fin 1) q) (ix2 (0 : Fin 1) ⟨256 * (t.val % 32) + q.val, hr⟩) rfl rfl
  rw [pay5_apply (grid1.coords t) (iblk1 V c 1 t) (iblk1 V c 4 t) p q, select_mask, oneN_of_lt lab _ _ hi hr,
    pairOne_eq, e1, e4, hcol, hrow, g0, g1]
  refine if_congr (and_congr Iff.rfl ?_) rfl rfl
  have hp := p.isLt
  have hq := q.isLt
  rw [Ne, Ne, ofNat_inj_of_lt _ _ (by omega) (by omega), Fin.mk.injEq]
  omega

/-- One point's step of the count accumulator. -/
theorem acc1_count_step (hcol : ∀ r : Fin 8192, V c main_v0 (ix2 r (0 : Fin 1)) = lab (ix1 r))
    (hrow : ∀ r : Fin 8192, V c main_v1 (ix2 (0 : Fin 1) r) = lab (ix1 r))
    (t : Fin cfg1.N) (p : Fin 1024)
    (ih : ¬t.val % 32 = 0 →
      (outsAt1 V c (t.val - 1) (Nat.lt_of_le_of_lt (Nat.sub_le _ _) t.isLt)).2.2.2 (ix2 p (0 : Fin 1))
        = ∑ r ∈ Finset.range (256 * ((t.val - 1) % 32 + 1)), oneN lab (1024 * ((t.val - 1) / 32) + p.val) r) :
    (outsAt1 V c t.val t.isLt).2.2.2 (ix2 p (0 : Fin 1))
      = ∑ r ∈ Finset.range (256 * (t.val % 32 + 1)), oneN lab (1024 * (t.val / 32) + p.val) r := by
  rw [outsAt1_sc1 V c t]
  refine (tile1_count V c lab hcol hrow t p _).trans ?_
  by_cases h0 : t.val % 32 = 0
  · rw [if_pos h0, pay4_apply, h0]
    exact range_acc_first (oneN lab (1024 * (t.val / 32) + p.val)) 256
  · have ea : (t.val - 1) % 32 + 1 = t.val % 32 := by omega
    have eb : (t.val - 1) / 32 = t.val / 32 := by omega
    rw [if_neg h0, ih h0, ea, eb]
    exact range_acc_step (oneN lab (1024 * (t.val / 32) + p.val)) 256 (t.val % 32)

/-- After point n the count accumulator holds, in row p, the number of ordered positive pairs of row
    1024 · (n / 32) + p among the columns below 256 · (n % 32 + 1). -/
theorem acc1_count (hcol : ∀ r : Fin 8192, V c main_v0 (ix2 r (0 : Fin 1)) = lab (ix1 r))
    (hrow : ∀ r : Fin 8192, V c main_v1 (ix2 (0 : Fin 1) r) = lab (ix1 r)) :
    ∀ (n : ℕ) (hn : n < cfg1.N) (p : Fin 1024), (outsAt1 V c n hn).2.2.2 (ix2 p (0 : Fin 1))
      = ∑ r ∈ Finset.range (256 * (n % 32 + 1)), oneN lab (1024 * (n / 32) + p.val) r
  | 0, hn, p => acc1_count_step V c lab hcol hrow ⟨0, hn⟩ p (fun h => absurd (Nat.zero_mod 32) h)
  | n + 1, hn, p =>
    acc1_count_step V c lab hcol hrow ⟨n + 1, hn⟩ p (fun _ => acc1_count hcol hrow n (Nat.lt_of_succ_lt hn) p)

/-- What the last point of grid row ib writes back to the count output is rows 1024 · ib … of the row counts. -/
theorem flushed1_7_eq (hcol : ∀ r : Fin 8192, V c main_v0 (ix2 r (0 : Fin 1)) = lab (ix1 r))
    (hrow : ∀ r : Fin 8192, V c main_v1 (ix2 (0 : Fin 1) r) = lab (ix1 r))
    (t : Fin cfg1.N) (hf : (cfg1.win 7).flush t = true) :
    (dat1 (F := Ideal) V c).flushed 7 t
      = ((cfg1.win 7).blk t).view.read (Elt Ideal) (fun y => rowCount lab (y 0)) := by
  have h31 : t.val % 32 = 31 := (flush1_7 t).mp hf
  have hN : t.val < 256 := t.isLt
  obtain ⟨-, -, -, -, e0, e1, -⟩ := idx_facts1_lab t
  show (cfg1.win 7).cut (grid1.coords t) ((dat1 V c).after 7 t) = _
  rw [after1_7, outsAt1_out7 V c t h31]
  funext j
  have hj0 : (j 0).val < 1024 := (j 0).isLt
  have hj1 : (j 1).val < 1 := (j 1).isLt
  rw [View.read_apply]
  show (outsAt1 V c t.val t.isLt).2.2.2 ((cfg1.win 7).xinj (grid1.coords t) j)
    = rowCount lab ((((cfg1.win 7).blk t).view.emb j) 0)
  have hx : (cfg1.win 7).xinj (grid1.coords t) j = ix2 (⟨(j 0).val, hj0⟩ : Fin 1024) (0 : Fin 1) := by
    funext a
    apply Fin.ext
    match a with
    | ⟨0, _⟩ => rfl
    | ⟨1, _⟩ => show (j 1).val = 0; omega
  have hi : 1024 * (t.val / 32) + (j 0).val < 8192 := by omega
  rw [hx, acc1_count V c lab hcol hrow t.val t.isLt ⟨(j 0).val, hj0⟩, h31, oneN_full lab _ hi]
  refine congrArg (rowCount lab) (Fin.ext ?_)
  show 1024 * (t.val / 32) + (j 0).val = win1_7.index t 0 * 1024 + 1 * (j 0).val
  rw [e0]; omega

/-- Every row of the count output is in the block some grid row's last point writes back. -/
theorem cover1_7 (i : S8192x1.Idx) :
    ∃ t : Fin cfg1.N, (cfg1.win 7).flush t = true ∧ i ∈ ((cfg1.win 7).blk t).view.set := by
  have hi0 : (i 0).val < 8192 := (i 0).isLt
  have hi1 : (i 1).val < 1 := (i 1).isLt
  have ht : 32 * ((i 0).val / 1024) + 31 < cfg1.N := by show _ < 256; omega
  have h31 : (32 * ((i 0).val / 1024) + 31) % 32 = 31 := by omega
  have hd : (32 * ((i 0).val / 1024) + 31) / 32 = (i 0).val / 1024 := by omega
  refine ⟨⟨32 * ((i 0).val / 1024) + 31, ht⟩, (flush1_7 _).mpr h31, ?_⟩
  obtain ⟨-, -, -, -, e0, e1, -⟩ := idx_facts1_lab ⟨32 * ((i 0).val / 1024) + 31, ht⟩
  show i ∈ ((View.whole main_v4_1).slice (win1_7.rect ⟨32 * ((i 0).val / 1024) + 31, ht⟩)).set
  rw [View.set_slice_whole, Rect.mem_set_unit]
  intro a
  match a with
  | ⟨0, _⟩ =>
    show win1_7.index ⟨32 * ((i 0).val / 1024) + 31, ht⟩ 0 * 1024 ≤ (i 0).val
      ∧ (i 0).val < win1_7.index ⟨32 * ((i 0).val / 1024) + 31, ht⟩ 0 * 1024 + 1024
    rw [e0]; dsimp only; rw [hd]; omega
  | ⟨1, _⟩ =>
    show win1_7.index ⟨32 * ((i 0).val / 1024) + 31, ht⟩ 1 * 1 ≤ (i 1).val
      ∧ (i 1).val < win1_7.index ⟨32 * ((i 0).val / 1024) + 31, ht⟩ 1 * 1 + 1
    rw [e1]; omega

/-- The second call's count output ends holding the rows' counts of ordered positive pairs. -/
theorem arrAt1_7 (hcol : ∀ r : Fin 8192, V c main_v0 (ix2 r (0 : Fin 1)) = lab (ix1 r))
    (hrow : ∀ r : Fin 8192, V c main_v1 (ix2 (0 : Fin 1) r) = lab (ix1 r)) :
    (dat1 (F := Ideal) V c).arrAt 7 cfg1.N = fun y => Cert.PairLoss.rowCount lab (y 0) :=
  (dat1 (F := Ideal) V c).arrAt_eq_of_cover 7 _ (flushed1_7_eq V c lab hcol hrow) (cover1_7)

end Cert.KernelIdeal.Val

end
-- ==== Proof.KIV.Assemble.lean ====
/-
  The idealized kernel's result is the specification's loss of its three arguments.

  The buffer contents at each boundary of the program are read one after the other: the label column and row (the two
  reshapes), the first call's column of row sums over the negatives, its reshape into a row, the second call's two
  columns (each row's part of the total over the positive pairs and of their count), and the closing quotient of the
  first column's sum by twice the second's.
-/
import proofs.«176830_j37546604102166_1_alg».proof.Proof.KI.Run
import proofs.«176830_j37546604102166_1_alg».proof.Proof.KIV.Host
import proofs.«176830_j37546604102166_1_alg».proof.Proof.KIV.R0Value
import proofs.«176830_j37546604102166_1_alg».proof.Proof.KIV.R1Value
import proofs.«176830_j37546604102166_1_alg».proof.Proof.KIV.R1Count
import proofs.«176830_j37546604102166_1_alg».proof.Proof.Spec

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Cert.PairLoss (negSum rowTotal rowCount total count loss)

variable (m : (ℓ : Loc nD τ sig) → Buf (Elt Ideal) ℓ) (ρ : Dev nD → PrngReg) (c : Dev nD)

/-- The three arguments as launched. -/
abbrev argA : Cert.PairLoss.Mat := m ((c : Thread nD τ).loc main_arg0)
abbrev argB : Cert.PairLoss.Mat := m ((c : Thread nD τ).loc main_arg1)
abbrev argL : Cert.PairLoss.Lab := m ((c : Thread nD τ).loc main_arg2)

/-! ## At the first call's entry -/

theorem V1_arg0 : Ev1 m ρ c main_arg0 = argA m c := after_keeps hostOps0 hostOps0_W hostOps0_writes _ main_arg0 (by decide)
theorem V1_arg1 : Ev1 m ρ c main_arg1 = argB m c := after_keeps hostOps0 hostOps0_W hostOps0_writes _ main_arg1 (by decide)
theorem V1_v0 (r : Fin 8192) : Ev1 m ρ c main_v0 (ix2 r (0 : Fin 1)) = argL m c (ix1 r) := host0_v0 (Bd0 m ρ c) r
theorem V1_v1 (r : Fin 8192) : Ev1 m ρ c main_v1 (ix2 (0 : Fin 1) r) = argL m c (ix1 r) := host0_v1 (Bd0 m ρ c) r

/-! ## At the first call's exit -/

/-- An input window's array leaves the first call as it entered. -/
theorem V2_in (w : Fin cfg0.W) (hw : (cfg0.win w).isOut = false) :
    Ev2 m ρ c (Pipeline.arrRef spec0 w) = Ev1 m ρ c (Pipeline.arrRef spec0 w) :=
  (W2_arr m ρ c w).trans (((dat0 (Ev1 m ρ) c).arrAt_in w hw _).trans (A_eq0 (Ev1 m ρ) c w))

/-- The first call's output column holds each row's sum over its negatives. -/
theorem V2_v2 : Ev2 m ρ c main_v2 = fun y => negSum (argA m c) (argB m c) (argL m c) (y 0) := by
  have h := arrAt0_4 (Ev1 m ρ) c (argL m c) (V1_v0 m ρ c) (V1_v1 m ρ c)
  rw [V1_arg0, V1_arg1] at h
  exact (W2_arr m ρ c 4).trans h

/-! ## At the second call's entry -/

theorem V3_keep (r : Ref sig .tc) (h : r ∉ hostOps1_W) : Ev3 m ρ c r = Ev2 m ρ c r :=
  after_keeps hostOps1 hostOps1_W hostOps1_writes _ r h

theorem V3_arg0 : Ev3 m ρ c main_arg0 = argA m c :=
  (V3_keep m ρ c main_arg0 (by decide)).trans ((V2_in m ρ c 0 rfl).trans (V1_arg0 m ρ c))
theorem V3_arg1 : Ev3 m ρ c main_arg1 = argB m c :=
  (V3_keep m ρ c main_arg1 (by decide)).trans ((V2_in m ρ c 2 rfl).trans (V1_arg1 m ρ c))
theorem V3_v0 (r : Fin 8192) : Ev3 m ρ c main_v0 (ix2 r (0 : Fin 1)) = argL m c (ix1 r) := by
  rw [V3_keep m ρ c main_v0 (by decide), show Ev2 m ρ c main_v0 = Ev1 m ρ c main_v0 from V2_in m ρ c 1 rfl]; exact V1_v0 m ρ c r
theorem V3_v1 (r : Fin 8192) : Ev3 m ρ c main_v1 (ix2 (0 : Fin 1) r) = argL m c (ix1 r) := by
  rw [V3_keep m ρ c main_v1 (by decide), show Ev2 m ρ c main_v1 = Ev1 m ρ c main_v1 from V2_in m ρ c 3 rfl]; exact V1_v1 m ρ c r
theorem V3_v2 (r : Fin 8192) : Ev3 m ρ c main_v2 (ix2 r (0 : Fin 1)) = negSum (argA m c) (argB m c) (argL m c) r := by
  rw [V3_keep m ρ c main_v2 (by decide), V2_v2]; rfl
theorem V3_v3 (r : Fin 8192) : Ev3 m ρ c main_v3 (ix2 (0 : Fin 1) r) = negSum (argA m c) (argB m c) (argL m c) r := by
  refine (host1_v3 (Bd2 m ρ c) r).trans ?_
  rw [show (Bd2 m ρ c (Proc.devRef .tc main_v2)) = Ev2 m ρ c main_v2 from rfl, V2_v2]; rfl

/-! ## At the second call's exit -/

theorem V4_v4_0 : Ev4 m ρ c main_v4_0 = fun y => rowTotal (argA m c) (argB m c) (argL m c) (y 0) := by
  have h := arrAt1_6 (Ev3 m ρ) c (argL m c) (V3_v0 m ρ c) (V3_v1 m ρ c)
    (by intro r; rw [V3_arg0, V3_arg1]; exact V3_v2 m ρ c r) (by intro r; rw [V3_arg0, V3_arg1]; exact V3_v3 m ρ c r)
  rw [V3_arg0, V3_arg1] at h
  exact (W4_arr m ρ c 6).trans h

theorem V4_v4_1 : Ev4 m ρ c main_v4_1 = fun y => rowCount (argL m c) (y 0) :=
  (W4_arr m ρ c 7).trans (arrAt1_7 (Ev3 m ρ) c (argL m c) (V3_v0 m ρ c) (V3_v1 m ρ c))

/-! ## At the return -/

theorem W5_v8 : (Bd5 m ρ c (Proc.devRef .tc main_v8) : S_.Idx → EReal) = fun _ => loss (argA m c) (argB m c) (argL m c) := by
  show (StableHlo.after (hostOps2 (F := Ideal)) (Bd4 m ρ c) (Proc.devRef .tc main_v8) : S_.Idx → EReal) = _
  rw [host2_v8]
  unfold col0 col1
  rw [show Bd4 m ρ c (Proc.devRef .tc main_v4_0) = Ev4 m ρ c main_v4_0 from rfl, show Bd4 m ρ c (Proc.devRef .tc main_v4_1) = Ev4 m ρ c main_v4_1 from rfl,
    V4_v4_0, V4_v4_1]
  rfl

/-- The idealized kernel runs to the end with its result at the specification's loss and its arguments unchanged. -/
theorem run_loss : θ_run (defs (F := Ideal)) (onTc (τ := τ) (main (F := Ideal))) ⟨m, fun _ => 0, ρ⟩ (fun r => ∀ c : Dev nD,
      r.2.mem ((c.tc : Thread nD τ).loc main_v8) = (fun _ => loss (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v8 (by decide))).trans (W5_v8 m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_main m ρ)

end Cert.KernelIdeal.Val

end
-- ==== Proof.Ref.Sim.lean ====
/-
  The reference's first stage: entry (i, j) of the product of a with the transpose of b is the similarity
  of row i of a and row j of b.
-/
import proofs.«176830_j37546604102166_1_alg».proof.Proof.Gen.ReferenceIdeal.Read
import proofs.«176830_j37546604102166_1_alg».proof.Proof.Spec

noncomputable section

open scoped BigOperators

namespace Cert.ReferenceIdeal.RefValue

open Cert.ReferenceIdeal Cert.ReferenceIdeal.Read Cert.PairLoss Idealize.ShloMosaic Idealize.ShloMosaic.ValueIdx

/-- The left operand's index of the contraction at (i, j), k is (i, k). -/
theorem lidx_v1 (i j : Fin 8192) (k : Fin 128) : lidx_main_v1 (ix2 i j) k = ix2 i k := by
  funext d; match d with | ⟨0, _⟩ => rfl | ⟨1, _⟩ => rfl

/-- The transposed right operand's index of the contraction at (i, j), k is (j, k) of b. -/
theorem ridx_v1 (i j : Fin 8192) (k : Fin 128) : idx_main_v0 (ridx_main_v1 (ix2 i j) k) = ix2 j k := by
  funext d; match d with | ⟨0, _⟩ => rfl | ⟨1, _⟩ => rfl

/-- Entry (i, j) of the product with the transpose is the similarity. -/
theorem v1_apply (a b : Mat) (i j : Fin 8192) :
    val_main_v1 (F := Ideal) a b (ix2 i j) = sim a b i j := by
  rw [val_main_v1_apply]
  unfold sim
  refine Finset.sum_congr rfl fun k _ => ?_
  rw [val_main_v0_apply, lidx_v1, ridx_v1]

end Cert.ReferenceIdeal.RefValue

end
-- ==== Proof.Ref.Mask.lean ====
/-
  The reference's masks, as one-bit words at an index (i, j): "same label", "on the diagonal", "ordered
  positive pair" and "different labels".
-/
import proofs.«176830_j37546604102166_1_alg».proof.Proof.Gen.ReferenceIdeal.Read
import proofs.«176830_j37546604102166_1_alg».proof.Proof.Spec
import Idealize.ShloMosaic.Lib.Affine

noncomputable section

open scoped BigOperators

namespace Cert.ReferenceIdeal.RefValue

open Cert.ReferenceIdeal Cert.ReferenceIdeal.Read Cert.PairLoss Idealize.ShloMosaic Idealize.ShloMosaic.ValueIdx

/-- The column broadcast of the labels reads label i at (i, j). -/
theorem idx_v4 (i j : Fin 8192) : idx_main_v2 (idx_main_v4 (ix2 i j)) = ix1 i := by
  funext d; match d with | ⟨0, _⟩ => rfl

/-- The row broadcast of the labels reads label j at (i, j). -/
theorem idx_v5 (i j : Fin 8192) : idx_main_v3 (idx_main_v5 (ix2 i j)) = ix1 j := by
  funext d; match d with | ⟨0, _⟩ => rfl

/-- The "same label" bit at (i, j) is set exactly when the labels of i and j are equal. -/
theorem v6_iff (lab : Lab) (i j : Fin 8192) :
    val_main_v6 (F := Ideal) lab (ix2 i j) = 1#1 ↔ lab (ix1 i) = lab (ix1 j) := by
  rw [val_main_v6_apply, val_main_v4_apply, val_main_v5_apply, val_main_v2_apply, val_main_v3_apply, idx_v4, idx_v5,
    IntOp.cmpi_eq]

/-- The "diagonal" bit at (i, j) is set exactly when i = j: both coordinates are below 8192, so their 32-bit
    words are equal only when they are. -/
theorem v11_iff (i j : Fin 8192) : val_main_v11 (F := Ideal) (ix2 i j) = 1#1 ↔ i = j := by
  rw [val_main_v11_apply, val_main_v10_apply, val_main_v7_apply, val_main_v8_apply, val_main_v9_apply, val_main_c_apply,
    IntOp.cmpi_eq]
  show BitVec.ofNat 32 i.val + 0#32 = BitVec.ofNat 32 j.val ↔ i = j
  rw [BitVec.add_zero]
  constructor
  · intro h
    have h' := congrArg BitVec.toNat h
    rw [BitVec.toNat_ofNat, BitVec.toNat_ofNat] at h'
    have hi := i.isLt
    have hj := j.isLt
    exact Fin.ext (by omega)
  · rintro rfl; rfl

/-- The "ordered positive pair" bit at (i, j). -/
theorem v13_iff (lab : Lab) (i j : Fin 8192) :
    val_main_v13 (F := Ideal) lab (ix2 i j) = 1#1 ↔ pos lab i j := by
  rw [val_main_v13_apply, IntOp.andi_eq_one, val_main_v12_apply, IntOp.not_eq_one, v6_iff, v11_iff]
  rfl

/-- The "different labels" bit at (i, j). -/
theorem v14_iff (lab : Lab) (i j : Fin 8192) :
    val_main_v14 (F := Ideal) lab (ix2 i j) = 1#1 ↔ ¬ lab (ix1 i) = lab (ix1 j) := by
  rw [val_main_v14_apply, IntOp.not_eq_one, v6_iff]

end Cert.ReferenceIdeal.RefValue

end
-- ==== Proof.Ref.NegSum.lean ====
/-
  The reference's row sums over the negatives: entry (i, j) of the masked exponentials is column j's
  contribution to row i, and the sum over axis 1, started from the zero word, is row i's sum.
-/
import proofs.«176830_j37546604102166_1_alg».proof.Proof.Ref.Sim
import proofs.«176830_j37546604102166_1_alg».proof.Proof.Ref.Mask
import Idealize.ShloMosaic.PureOps.Ideal.Laws

noncomputable section

open scoped BigOperators

namespace Cert.ReferenceIdeal.RefValue

open Cert.ReferenceIdeal Cert.ReferenceIdeal.Read Cert.PairLoss Idealize.ShloMosaic Idealize.ShloMosaic.ValueIdx

/-- Row i's k-th summand sits at (i, k). -/
theorem idx_v19 (i k : Fin 8192) : idx_main_v19 (ix1 i) k = ix2 i k := by
  funext d; match d with | ⟨0, _⟩ => rfl | ⟨1, _⟩ => rfl

/-- Entry (i, j) of the masked exponentials: exp(1 + sim i j) where the labels differ, the zero word's 0 elsewhere. -/
theorem v18_apply (a b : Mat) (lab : Lab) (i j : Fin 8192) :
    val_main_v18 (F := Ideal) a b lab (ix2 i j) = negTerm a b lab i j := by
  rw [val_main_v18_apply]
  unfold negTerm
  by_cases h : lab (ix1 i) = lab (ix1 j)
  · rw [if_pos h, eq_zero_of_ne_one (fun e => (v14_iff lab i j).1 e h), select_zero,
      val_main_call0_v1_apply, val_main_call0_v0_apply, val_main_cst_0_apply, Ideal.ofBits_def, Ideal.ofBits_zero_f32]
  · rw [if_neg h, (v14_iff lab i j).2 h, select_one, val_main_v17_apply, val_main_v16_apply, val_main_v15_apply,
      val_main_cst_apply, v1_apply, Ideal.hostUnary_exp_def, Ideal.addf_def, Ideal.ofBits_def]

/-- Row i's sum over its negatives. -/
theorem v19_apply (a b : Mat) (lab : Lab) (i : Fin 8192) :
    val_main_v19 (F := Ideal) a b lab (ix1 i) = negSum a b lab i := by
  rw [val_main_v19_apply, val_main_cst_1_apply, Ideal.ofBits_def, Ideal.ofBits_zero_f32, zero_add]
  unfold negSum
  refine Finset.sum_congr rfl fun k _ => ?_
  rw [idx_v19, v18_apply]

end Cert.ReferenceIdeal.RefValue

end
-- ==== Proof.Ref.Total.lean ====
/-
  The reference's total: the squared hinge at (i, j) through the two broadcasts of the row sums, its masking
  by "ordered positive pair", and the sum over all of [8192, 8192] as the double sum over the coordinates.
-/
import proofs.«176830_j37546604102166_1_alg».proof.Proof.Ref.NegSum

noncomputable section

open scoped BigOperators

namespace Cert.ReferenceIdeal.RefValue

open Cert.ReferenceIdeal Cert.ReferenceIdeal.Read Cert.PairLoss Idealize.ShloMosaic Idealize.ShloMosaic.ValueIdx

/-- The column broadcast of the row sums reads row i's at (i, j). -/
theorem idx_v22 (i j : Fin 8192) : idx_main_v20 (idx_main_v22 (ix2 i j)) = ix1 i := by
  funext d; match d with | ⟨0, _⟩ => rfl

/-- The row broadcast of the row sums reads row j's at (i, j). -/
theorem idx_v23 (i j : Fin 8192) : idx_main_v21 (idx_main_v23 (ix2 i j)) = ix1 j := by
  funext d; match d with | ⟨0, _⟩ => rfl

/-- The hinge at (i, j). -/
theorem v28_apply (a b : Mat) (lab : Lab) (i j : Fin 8192) :
    val_main_v28 (F := Ideal) a b lab (ix2 i j)
      = max (Ideal.log (negSum a b lab i + negSum a b lab j) - sim a b i j) 0 := by
  rw [val_main_v28_apply, val_main_v26_apply, val_main_v25_apply, val_main_v24_apply, val_main_v22_apply,
    val_main_v23_apply, val_main_v20_apply, val_main_v21_apply, idx_v22, idx_v23, v19_apply, v19_apply, v1_apply,
    val_main_v27_apply, val_main_cst_2_apply, Ideal.maximumf_def, Ideal.subf_def, Ideal.hostUnary_log_def,
    Ideal.addf_def, Ideal.ofBits_def, Ideal.ofBits_zero_f32]

/-- The squared hinge at (i, j). -/
theorem v29_apply (a b : Mat) (lab : Lab) (i j : Fin 8192) :
    val_main_v29 (F := Ideal) a b lab (ix2 i j) = hingeSq a b lab i j := by
  rw [val_main_v29_apply, v28_apply, Ideal.mulf_def]
  rfl

/-- The pair's term of the total at (i, j). -/
theorem v30_apply (a b : Mat) (lab : Lab) (i j : Fin 8192) :
    val_main_v30 (F := Ideal) a b lab (ix2 i j) = pairTerm a b lab i j := by
  rw [val_main_v30_apply]
  unfold pairTerm
  by_cases h : pos lab i j
  · rw [if_pos h, (v13_iff lab i j).2 h, select_one, v29_apply]
  · rw [if_neg h, eq_zero_of_ne_one (fun e => h ((v13_iff lab i j).1 e)), select_zero,
      val_main_call1_v1_apply, val_main_call1_v0_apply, val_main_cst_3_apply, Ideal.ofBits_def, Ideal.ofBits_zero_f32]

/-- The sum over all of [8192, 8192], started from the zero word, is the total. -/
theorem v33_apply (a b : Mat) (lab : Lab) (i : S_.Idx) :
    val_main_v33 (F := Ideal) a b lab i = total a b lab := by
  rw [val_main_v33_apply, val_main_cst_5_apply, Ideal.ofBits_def, Ideal.ofBits_zero_f32, zero_add, sum_idx2]
  unfold total rowTotal
  exact Finset.sum_congr rfl fun i _ => Finset.sum_congr rfl fun j _ => v30_apply a b lab i j

end Cert.ReferenceIdeal.RefValue

end
-- ==== Proof.Ref.Count.lean ====
/-
  A sum of one-bit indicators over an [8192, 8192] array, taken in 32-bit integer arithmetic, does not wrap:
  there are 2^26 summands, each 0 or 1, so the sum stays below 2^31, and its signed reading is the number of
  ones. As an extended real that number is the double sum over the coordinates of the indicators' 0 / 1 values.
-/
import Idealize.ShloMosaic.Lib.IndicatorCount
import Idealize.ShloMosaic.Lib.ValueIdx
import Idealize.ShloMosaic.PureOps.Reduce

noncomputable section

open scoped BigOperators

namespace Cert.ReferenceIdeal.RefValue

open Idealize.ShloMosaic Idealize.ShloMosaic.ValueIdx

/-- The inclusion of the reals into the extended reals carries a finite sum to the finite sum. -/
theorem coe_finset_sum {ι : Type} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The [8192, 8192] index set has 2^26 elements. -/
theorem card_idx : Fintype.card (⟨2, ![8192, 8192]⟩ : Shape).Idx = 8192 * 8192 := by
  rw [Fintype.card_congr (idxEquiv2 (n0 := 8192) (n1 := 8192)), Fintype.card_prod, Fintype.card_fin]

/-- The integer sum over all of [8192, 8192] of one-bit words widened to 32 bits, started from the zero word,
    read as a signed integer and then as an extended real, is the double sum of the indicators. -/
theorem reduce_count (p : (⟨2, ![8192, 8192]⟩ : Shape).Idx → BitVec 1) (init : (⟨0, ![]⟩ : Shape).Idx → BitVec 32)
    (hinit : ∀ i, init i = 0#32)
    (h : (⟨2, ![8192, 8192]⟩ : Shape).ReducesTo [0, 1] ⟨0, ![]⟩) (hu : 0 < (⟨0, ![]⟩ : Shape).numel)
    (j : (⟨0, ![]⟩ : Shape).Idx) :
    (((Host.reduce IntOp.addi (fun i => (p i).setWidth 32) init h hu j).toInt : ℝ) : EReal)
      = ∑ a : Fin 8192, ∑ b : Fin 8192, if p (ix2 a b) = 1#1 then (1 : EReal) else 0 := by
  rw [Host.reduce_eq_fold, hinit,
    Finset.filter_true_of_mem (fun i _ => Subsingleton.elim _ _),
    IndicatorCount.fold_addi_setWidth_eq_card]
  have hc : (Finset.univ.filter fun k => p k = 1#1).card ≤ 8192 * 8192 :=
    (Finset.card_filter_le _ _).trans (by rw [Finset.card_univ, card_idx])
  have hn : (BitVec.ofNat 32 (Finset.univ.filter fun k => p k = 1#1).card).toNat
      = (Finset.univ.filter fun k => p k = 1#1).card := by
    rw [BitVec.toNat_ofNat]; exact Nat.mod_eq_of_lt (by omega)
  rw [BitVec.toInt_eq_toNat_of_lt (by rw [hn]; omega), hn, Finset.card_filter]
  push_cast
  rw [coe_finset_sum, sum_idx2]
  refine Finset.sum_congr rfl fun a _ => Finset.sum_congr rfl fun b _ => ?_
  split_ifs <;> simp

end Cert.ReferenceIdeal.RefValue

end
-- ==== Proof.Ref.Value.lean ====
/-
  The reference program's result is the loss of the shared specification: the count of the ordered positive
  pairs (an integer sum that does not wrap, converted to a float), twice it, the quotient of the total by that;
  then the run of the reference read at its result, and the reference's frame.
-/
import proofs.«176830_j37546604102166_1_alg».proof.Proof.Ref.Total
import proofs.«176830_j37546604102166_1_alg».proof.Proof.Ref.Count
import proofs.«176830_j37546604102166_1_alg».proof.Defs

noncomputable section

open scoped BigOperators

namespace Cert.ReferenceIdeal.RefValue

open Cert.ReferenceIdeal Cert.ReferenceIdeal.Read Cert.PairLoss Idealize.ShloMosaic Idealize.ShloMosaic.ValueIdx

open Idealize.ShloMosaic.TcCoe Idealize.SL.Sem

/-- The converted integer sum of the "ordered positive pair" bits is the count. -/
theorem v34_apply (lab : Lab) (i : S_.Idx) : val_main_v34 (F := Ideal) lab i = Cert.PairLoss.count lab := by
  rw [val_main_v34_apply]
  show (((val_main_v32 (F := Ideal) lab i).toInt : ℝ) : EReal) = Cert.PairLoss.count lab
  unfold val_main_v32
  refine (reduce_count (val_main_v13 (F := Ideal) lab) _ (fun _ => rfl) _ _ i).trans ?_
  unfold Cert.PairLoss.count rowCount pairOne
  refine Finset.sum_congr rfl fun a _ => Finset.sum_congr rfl fun b _ => ?_
  by_cases h : pos lab a b
  · rw [if_pos h, if_pos ((v13_iff lab a b).2 h)]
  · rw [if_neg h, if_neg (fun e => h ((v13_iff lab a b).1 e))]

/-- Twice the count. -/
theorem v35_apply (lab : Lab) (i : S_.Idx) : val_main_v35 (F := Ideal) lab i = two * Cert.PairLoss.count lab := by
  rw [val_main_v35_apply, val_main_cst_6_apply, v34_apply, Ideal.mulf_def, Ideal.ofBits_def]

/-- The result is the loss. -/
theorem v36_apply (a b : Mat) (lab : Lab) (i : S_.Idx) : val_main_v36 (F := Ideal) a b lab i = loss a b lab := by
  rw [val_main_v36_apply, v33_apply, v35_apply, Ideal.hostDivf_def]
  rfl

/-- On every device, from any memory with zero counters, every weakly fair execution of the reference
    terminates with its result the loss of its three arguments and the arguments unchanged. -/
theorem run_loss (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v36)
          = (fun _ => Cert.PairLoss.loss
              (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2)))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2)) :=
  (θ_run (Cert.ReferenceIdeal.defs (F := Ideal)) _ _).mono
    (fun _ h c => ⟨(h c).1.trans ((val_main_v36_eq m c).trans (funext fun i => v36_apply _ _ _ i)), (h c).2⟩)
    (Cert.ReferenceIdeal.Value.run (F := Ideal) m ρ)

/-- The reference's frame: its run with the result dropped. -/
theorem frame_ri [Cert.ReferenceIdeal.Facts] [Cert.Pre_finite_inputs.Facts] : Cert.frame_ReferenceIdeal := fun m ρ _ =>
  (θ_run (Cert.ReferenceIdeal.defs (F := Ideal)) _ _).mono (fun _ h c => (h c).2)
    (Cert.ReferenceIdeal.Value.run (F := Ideal) m ρ)

end Cert.ReferenceIdeal.RefValue

end
-- ==== Proof.lean ====
/-
  A pair loss over two embedding matrices a, b : [8192, 128] and 8192 labels, computed two ways.

  With sim i j = Σ_k a(i,k)·b(j,k), the loss is  Σ_{(i,j) positive} max(log(V_i + V_j) − sim i j, 0)² / (2 · #positive pairs),
  where V_i = Σ_{j : label j ≠ label i} exp(1 + sim i j) and (i, j) is positive when the labels agree and i ≠ j.

  The reference forms the whole [8192, 8192] pair matrix and sums it. The kernel never forms it: a first pass over
  1024 × 512 tiles accumulates each row's V_i across the 16 tiles of its row of tiles; a second pass over 1024 × 256
  tiles accumulates, per row, the positive pairs' squared hinges and their number across 32 tiles; the host then adds
  the 8192 row totals and row counts and divides. On the extended reals the two are the same number: a sum over 8192
  columns is the sum over the tiles of the sums inside each tile (addition there is commutative and associative, with
  no finiteness needed), and the reference's integer count of the positive pairs — at most 8192² < 2³¹, so the 32-bit
  sum does not wrap — converts to the same real as the kernel's sum of ones.

  Both kernel programs (the word-level one and its idealization, the same text read at two float instances) are run
  by one argument: each pallas_call's body is executed symbolically in its three control cases (a row's first tile
  zeroes the accumulators, every tile adds to them, the row's last tile copies them out), an invariant carries the
  accumulators' contents from one grid point to the next, and the program's five segments are chained from the launch
  memory to the return; the frames read the arguments off the final memory, the value claim reads the result.
-/
import proofs.«176830_j37546604102166_1_alg».proof.Defs
import proofs.«176830_j37546604102166_1_alg».proof.Proof.Gen.Kernel
import proofs.«176830_j37546604102166_1_alg».proof.Proof.Gen.KernelIdeal
import proofs.«176830_j37546604102166_1_alg».proof.Proof.Gen.ReferenceIdeal
import proofs.«176830_j37546604102166_1_alg».proof.Proof.Gen.Pre_finite_inputs
import proofs.«176830_j37546604102166_1_alg».proof.Proof.K.Run
import proofs.«176830_j37546604102166_1_alg».proof.Proof.KI.Run
import proofs.«176830_j37546604102166_1_alg».proof.Proof.KIV.Assemble
import proofs.«176830_j37546604102166_1_alg».proof.Proof.Ref.Value
import Idealize.ShloMosaic.Adequacy
import Idealize.ShloMosaic.Init

noncomputable section

namespace Cert.Proof

open Idealize.ShloMosaic Idealize.SL.Sem

/-- The word-level kernel runs to the end and leaves its arguments as launched. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- So does the reference. -/
theorem frame_ri : Cert.frame_ReferenceIdeal := Cert.ReferenceIdeal.RefValue.frame_ri

/-- The idealization rewrote nothing. -/
theorem preserves : Cert.preserves_Kernel_KernelIdeal := trivial

/-- From memories agreeing on the arguments both idealized programs end at the specification's loss of those arguments. -/
theorem algebraic : Cert.algebraic_KernelIdeal_ReferenceIdeal := by
  intro m ρ m' ρ' _ hagree
  refine ⟨_, Cert.KernelIdeal.Val.run_loss m ρ, ?_⟩
  refine (θ_run Cert.ReferenceIdeal.defs _ _).mono (fun _ h c => ⟨(h c).1.trans ?_, (h c).2⟩)
    (Cert.ReferenceIdeal.RefValue.run_loss m' ρ')
  rw [(hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
